-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x64x64 : Shape := ⟨4, ![16, 128, 64, 64]⟩
abbrev S128x1x7x7 : Shape := ⟨4, ![128, 1, 7, 7]⟩
abbrev S128 : Shape := ⟨1, ![128]⟩
abbrev S128x512 : Shape := ⟨2, ![128, 512]⟩
abbrev S512 : Shape := ⟨1, ![512]⟩
abbrev S512x128 : Shape := ⟨2, ![512, 128]⟩
abbrev S_ : Shape := ⟨0, ![]⟩

class Facts : Prop where
  bcast_S_S16x128x64x64 : S_.BroadcastsInDim S16x128x64x64 (![] : Fin 0 → Fin S16x128x64x64.rank)
  reducesTo_S16x128x64x64_S_d0_1_2_3 : S16x128x64x64.ReducesTo [0, 1, 2, 3] S_
  h_S_ : 0 < S_.numel
  bcast_S_S128x1x7x7 : S_.BroadcastsInDim S128x1x7x7 (![] : Fin 0 → Fin S128x1x7x7.rank)
  reducesTo_S128x1x7x7_S_d0_1_2_3 : S128x1x7x7.ReducesTo [0, 1, 2, 3] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_

variable [Facts]

def fn_part3 {F : FTy → Type} [FloatOps F] (main_arg6 : FVec F S128 .f32) (main_arg11 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_cst_22 : FVec F S_ .f32 := constant S_ .f32 0x00000000#32
  let main_v59 : FVec F S128 .f32 := broadcastInDim S128 ![] bcast_S_S128 main_cst_22
  let main_v60 : IVec S128 1 := cmpf .oge main_arg6 main_v59
  let main_c_23 : IVec S_ 1 := constantI S_ 1 1#1
  let main_v61 : IVec S_ 1 := (fun x v => Host.reduce IntOp.andi x v reducesTo_S128_S_d0 h_S_) main_v60 main_c_23
  let main_v62 : IVec S_ 1 := andi main_v58 main_v61
  main_v62

def fn_part2 {F : FTy → Type} [FloatOps F] (main_arg6 : FVec F S128 .f32) (main_arg7 : FVec F S128x512 .f32) (main_arg8 : FVec F S512 .f32) (main_arg9 : FVec F S512x128 .f32) (main_arg10 : FVec F S128 .f32) (main_arg11 : FVec F S128 .f32) (main_v33 : IVec S_ 1) : IVec S_ 1 :=
  let main_v34 : FVec F S128x512 .f32 := Host.absf main_arg7
  let main_cst_12 : FVec F S_ .f32 := constant S_ .f32 0x7F800000#32
  let main_v35 : FVec F S128x512 .f32 := broadcastInDim S128x512 ![] bcast_S_S128x512 main_cst_12
  let main_v36 : IVec S128x512 1 := cmpf .olt main_v34 main_v35
  let main_c_13 : IVec S_ 1 := constantI S_ 1 1#1
  let main_v37 : IVec S_ 1 := (fun x v => Host.reduce IntOp.andi x v reducesTo_S128x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x128 .f32 := Host.absf main_arg9
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg6 main_arg11 main_v48 main_v49 main_v50

def fn_part1 {F : FTy → Type} [FloatOps F] (main_arg4 : FVec F S128 .f32) (main_arg5 : FVec F S128 .f32) (main_arg6 : FVec F S128 .f32) (main_arg7 : FVec F S128x512 .f32) (main_arg8 : FVec F S512 .f32) (main_arg9 : FVec F S512x128 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg6 main_arg7 main_arg8 main_arg9 main_arg10 main_arg11 main_v33

def fn {F : FTy → Type} [FloatOps F] (main_arg0 : FVec F S16x128x64x64 .f32) (main_arg1 : FVec F S128x1x7x7 .f32) (main_arg2 : FVec F S128 .f32) (main_arg3 : FVec F S128 .f32) (main_arg4 : FVec F S128 .f32) (main_arg5 : FVec F S128 .f32) (main_arg6 : FVec F S128 .f32) (main_arg7 : FVec F S128x512 .f32) (main_arg8 : FVec F S512 .f32) (main_arg9 : FVec F S512x128 .f32) (main_arg10 : FVec F S128 .f32) (main_arg11 : FVec F S128 .f32) : IVec S_ 1 :=
  let main_v0 : FVec F S16x128x64x64 .f32 := Host.absf main_arg0
  let main_cst : FVec F S_ .f32 := constant S_ .f32 0x7F800000#32
  let main_v1 : FVec F S16x128x64x64 .f32 := broadcastInDim S16x128x64x64 ![] bcast_S_S16x128x64x64 main_cst
  let main_v2 : IVec S16x128x64x64 1 := cmpf .olt main_v0 main_v1
  let main_c : IVec S_ 1 := constantI S_ 1 1#1
  let main_v3 : IVec S_ 1 := (fun x v => Host.reduce IntOp.andi x v reducesTo_S16x128x64x64_S_d0_1_2_3 h_S_) main_v2 main_c
  let main_v4 : FVec F S128x1x7x7 .f32 := Host.absf main_arg1
  let main_cst_0 : FVec F S_ .f32 := constant S_ .f32 0x7F800000#32
  let main_v5 : FVec F S128x1x7x7 .f32 := broadcastInDim S128x1x7x7 ![] bcast_S_S128x1x7x7 main_cst_0
  let main_v6 : IVec S128x1x7x7 1 := cmpf .olt main_v4 main_v5
  let main_c_1 : IVec S_ 1 := constantI S_ 1 1#1
  let main_v7 : IVec S_ 1 := (fun x v => Host.reduce IntOp.andi x v reducesTo_S128x1x7x7_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S16x128x64x64 : Shape := ⟨4, ![16, 128, 64, 64]⟩
abbrev S128x1x7x7 : Shape := ⟨4, ![128, 1, 7, 7]⟩
abbrev S128 : Shape := ⟨1, ![128]⟩
abbrev S128x512 : Shape := ⟨2, ![128, 512]⟩
abbrev S512 : Shape := ⟨1, ![512]⟩
abbrev S512x128 : Shape := ⟨2, ![512, 128]⟩
abbrev S_ : Shape := ⟨0, ![]⟩
abbrev S128x7x7 : Shape := ⟨3, ![128, 7, 7]⟩
abbrev S7x7x128 : Shape := ⟨3, ![7, 7, 128]⟩
abbrev S1x1x128 : Shape := ⟨3, ![1, 1, 128]⟩
abbrev S1x128 : Shape := ⟨2, ![1, 128]⟩
abbrev S16x64x64x128 : Shape := ⟨4, ![16, 64, 64, 128]⟩
abbrev S16x70x70x128 : Shape := ⟨4, ![16, 70, 70, 128]⟩
abbrev S1x512 : Shape := ⟨2, ![1, 512]⟩
abbrev S1x70x70x128 : Shape := ⟨4, ![1, 70, 70, 128]⟩
abbrev S1x64x64x128 : Shape := ⟨4, ![1, 64, 64, 128]⟩
abbrev S64x64x128 : Shape := ⟨3, ![64, 64, 128]⟩
abbrev S4096x128 : Shape := ⟨2, ![4096, 128]⟩
abbrev S4096x512 : Shape := ⟨2, ![4096, 512]⟩

abbrev nBuf : Space → Nat
  | .hbm => 37
  | .vmem => 11
  | .smem => 0
  | _ => 0

abbrev bufTy : (tb : Table) → Fin (tcTables nBuf tb) → BufTy
  | .hbm, ⟨0, _⟩ => ⟨S16x128x64x64, .f32⟩
  | .hbm, ⟨1, _⟩ => ⟨S128x1x7x7, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x7x7, .f32⟩
  | .hbm, ⟨18, _⟩ => ⟨S7x7x128, .f32⟩
  | .hbm, ⟨19, _⟩ => ⟨S1x1x128, .f32⟩
  | .hbm, ⟨20, _⟩ => ⟨S7x7x128, .f32⟩
  | .hbm, ⟨21, _⟩ => ⟨S7x7x128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S1x128, .f32⟩
  | .hbm, ⟨26, _⟩ => ⟨S16x64x64x128, .f32⟩
  | .hbm, ⟨27, _⟩ => ⟨S_, .i32⟩
  | .hbm, ⟨28, _⟩ => ⟨S_, .f32⟩
  | .hbm, ⟨29, _⟩ => ⟨S16x70x70x128, .f32⟩
  | .hbm, ⟨30, _⟩ => ⟨S128x512, .bf16⟩
  | .hbm, ⟨31, _⟩ => ⟨S1x512, .f32⟩
  | .hbm, ⟨32, _⟩ => ⟨S512x128, .bf16⟩
  | .hbm, ⟨33, _⟩ => ⟨S1x128, .f32⟩
  | .hbm, ⟨34, _⟩ => ⟨S1x128, .f32⟩
  | .hbm, ⟨35, _⟩ => ⟨S16x64x64x128, .f32⟩
  | .hbm, ⟨36, _⟩ => ⟨S16x128x64x64, .f32⟩
  | .local _ .vmem, ⟨0, _⟩ => ⟨S1x70x70x128, .f32⟩
  | .local _ .vmem, ⟨1, _⟩ => ⟨S1x70x70x128, .f32⟩
  | .local _ .vmem, ⟨2, _⟩ => ⟨S7x7x128, .f32⟩
  | .local _ .vmem, ⟨3, _⟩ => ⟨S1x128, .f32⟩
  | .local _ .vmem, ⟨4, _⟩ => ⟨S128x512, .bf16⟩
  | .local _ .vmem, ⟨5, _⟩ => ⟨S1x512, .f32⟩
  | .local _ .vmem, ⟨6, _⟩ => ⟨S512x128, .bf16⟩
  | .local _ .vmem, ⟨7, _⟩ => ⟨S1x128, .f32⟩
  | .local _ .vmem, ⟨8, _⟩ => ⟨S1x128, .f32⟩
  | .local _ .vmem, ⟨9, _⟩ => ⟨S1x64x64x128, .f32⟩
  | .local _ .vmem, ⟨10, _⟩ => ⟨S1x64x64x128, .f32⟩
  | _, _ => ⟨S16x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x70x70x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x7x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x64x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S128 : S_.BroadcastsInDim S128 (![] : Fin 0 → Fin S128.rank)
  shapeCasts_S128x1x7x7_S128x7x7 : S128x1x7x7.ShapeCasts S128x7x7
  transposes_S128x7x7_S7x7x128_1_2_0 : S128x7x7.Transposes [1, 2, 0] S7x7x128
  bcast_S128_S1x1x128_2 : S128.BroadcastsInDim S1x1x128 (![2] : Fin 1 → Fin S1x1x128.rank)
  bcast_S1x1x128_S7x7x128_0_1_2 : S1x1x128.BroadcastsInDim S7x7x128 (![0, 1, 2] : Fin 3 → Fin S7x7x128.rank)
  shapeCasts_S128_S1x128 : S128.ShapeCasts S1x128
  transposes_S16x128x64x64_S16x64x64x128_0_2_3_1 : S16x128x64x64.Transposes [0, 2, 3, 1] S16x64x64x128
  pads_S16x64x64x128_S16x70x70x128_000_330_330_000 : S16x64x64x128.Pads (![0, 3, 3, 0] : Fin 4 → Nat) ![0, 3, 3, 0] ![0, 0, 0, 0] S16x70x70x128
  h_S_ : 0 < S_.numel
  bitsLt_bf16_f32 : FTy.bits .bf16 < FTy.bits .f32
  shapeCasts_S512_S1x512 : S512.ShapeCasts S1x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  shapeCasts_S1x1x128_S1x1x128 : S1x1x128.ShapeCasts S1x1x128
  broadcasts_S1x1x128_S64x64x128 : S1x1x128.Broadcasts S64x64x128
  inb_S1x70x70x128_S1x64x64x128_0_0_0_0 : ∀ a, (![0, 0, 0, 0] : Fin 4 → Nat) a + S1x64x64x128.size a ≤ S1x70x70x128.size a
  h_S1x64x64x128 : 0 < S1x64x64x128.numel
  shapeCasts_S1x64x64x128_S64x64x128 : S1x64x64x128.ShapeCasts S64x64x128
  inb_S7x7x128_S1x1x128_0_0_0 : ∀ a, (![0, 0, 0] : Fin 3 → Nat) a + S1x1x128.size a ≤ S7x7x128.size a
  h_S1x1x128 : 0 < S1x1x128.numel
  shapeCasts_S1x1x128_S1x128 : S1x1x128.ShapeCasts S1x128
  inb_S1x70x70x128_S1x64x64x128_0_0_1_0 : ∀ a, (![0, 0, 1, 0] : Fin 4 → Nat) a + S1x64x64x128.size a ≤ S1x70x70x128.size a
  inb_S7x7x128_S1x1x128_0_1_0 : ∀ a, (![0, 1, 0] : Fin 3 → Nat) a + S1x1x128.size a ≤ S7x7x128.size a
  inb_S1x70x70x128_S1x64x64x128_0_0_2_0 : ∀ a, (![0, 0, 2, 0] : Fin 4 → Nat) a + S1x64x64x128.size a ≤ S1x70x70x128.size a
  inb_S7x7x128_S1x1x128_0_2_0 : ∀ a, (![0, 2, 0] : Fin 3 → Nat) a + S1x1x128.size a ≤ S7x7x128.size a
  inb_S1x70x70x128_S1x64x64x128_0_0_3_0 : ∀ a, (![0, 0, 3, 0] : Fin 4 → Nat) a + S1x64x64x128.size a ≤ S1x70x70x128.size a
  inb_S7x7x128_S1x1x128_0_3_0 : ∀ a, (![0, 3, 0] : Fin 3 → Nat) a + S1x1x128.size a ≤ S7x7x128.size a
  inb_S1x70x70x128_S1x64x64x128_0_0_4_0 : ∀ a, (![0, 0, 4, 0] : Fin 4 → Nat) a + S1x64x64x128.size a ≤ S1x70x70x128.size a
  inb_S7x7x128_S1x1x128_0_4_0 : ∀ a, (![0, 4, 0] : Fin 3 → Nat) a + S1x1x128.size a ≤ S7x7x128.size a
  inb_S1x70x70x128_S1x64x64x128_0_0_5_0 : ∀ a, (![0, 0, 5, 0] : Fin 4 → Nat) a + S1x64x64x128.size a ≤ S1x70x70x128.size a
  inb_S7x7x128_S1x1x128_0_5_0 : ∀ a, (![0, 5, 0] : Fin 3 → Nat) a + S1x1x128.size a ≤ S7x7x128.size a
  inb_S1x70x70x128_S1x64x64x128_0_0_6_0 : ∀ a, (![0, 0, 6, 0] : Fin 4 → Nat) a + S1x64x64x128.size a ≤ S1x70x70x128.size a
  inb_S7x7x128_S1x1x128_0_6_0 : ∀ a, (![0, 6, 0] : Fin 3 → Nat) a + S1x1x128.size a ≤ S7x7x128.size a
  inb_S1x70x70x128_S1x64x64x128_0_1_0_0 : ∀ a, (![0, 1, 0, 0] : Fin 4 → Nat) a + S1x64x64x128.size a ≤ S1x70x70x128.size a
  inb_S7x7x128_S1x1x128_1_0_0 : ∀ a, (![1, 0, 0] : Fin 3 → Nat) a + S1x1x128.size a ≤ S7x7x128.size a
  inb_S1x70x70x128_S1x64x64x128_0_1_1_0 : ∀ a, (![0, 1, 1, 0] : Fin 4 → Nat) a + S1x64x64x128.size a ≤ S1x70x70x128.size a
  inb_S7x7x128_S1x1x128_1_1_0 : ∀ a, (![1, 1, 0] : Fin 3 → Nat) a + S1x1x128.size a ≤ S7x7x128.size a
  inb_S1x70x70x128_S1x64x64x128_0_1_2_0 : ∀ a, (![0, 1, 2, 0] : Fin 4 → Nat) a + S1x64x64x128.size a ≤ S1x70x70x128.size a
  inb_S7x7x128_S1x1x128_1_2_0 : ∀ a, (![1, 2, 0] : Fin 3 → Nat) a + S1x1x128.size a ≤ S7x7x128.size a
  inb_S1x70x70x128_S1x64x64x128_0_1_3_0 : ∀ a, (![0, 1, 3, 0] : Fin 4 → Nat) a + S1x64x64x128.size a ≤ S1x70x70x128.size a
  inb_S7x7x128_S1x1x128_1_3_0 : ∀ a, (![1, 3, 0] : Fin 3 → Nat) a + S1x1x128.size a ≤ S7x7x128.size a
  inb_S1x70x70x128_S1x64x64x128_0_1_4_0 : ∀ a, (![0, 1, 4, 0] : Fin 4 → Nat) a + S1x64x64x128.size a ≤ S1x70x70x128.size a
  inb_S7x7x128_S1x1x128_1_4_0 : ∀ a, (![1, 4, 0] : Fin 3 → Nat) a + S1x1x128.size a ≤ S7x7x128.size a
  inb_S1x70x70x128_S1x64x64x128_0_1_5_0 : ∀ a, (![0, 1, 5, 0] : Fin 4 → Nat) a + S1x64x64x128.size a ≤ S1x70x70x128.size a
  inb_S7x7x128_S1x1x128_1_5_0 : ∀ a, (![1, 5, 0] : Fin 3 → Nat) a + S1x1x128.size a ≤ S7x7x128.size a
  inb_S1x70x70x128_S1x64x64x128_0_1_6_0 : ∀ a, (![0, 1, 6, 0] : Fin 4 → Nat) a + S1x64x64x128.size a ≤ S1x70x70x128.size a
  inb_S7x7x128_S1x1x128_1_6_0 : ∀ a, (![1, 6, 0] : Fin 3 → Nat) a + S1x1x128.size a ≤ S7x7x128.size a
  inb_S1x70x70x128_S1x64x64x128_0_2_0_0 : ∀ a, (![0, 2, 0, 0] : Fin 4 → Nat) a + S1x64x64x128.size a ≤ S1x70x70x128.size a
  inb_S7x7x128_S1x1x128_2_0_0 : ∀ a, (![2, 0, 0] : Fin 3 → Nat) a + S1x1x128.size a ≤ S7x7x128.size a
  inb_S1x70x70x128_S1x64x64x128_0_2_1_0 : ∀ a, (![0, 2, 1, 0] : Fin 4 → Nat) a + S1x64x64x128.size a ≤ S1x70x70x128.size a
  inb_S7x7x128_S1x1x128_2_1_0 : ∀ a, (![2, 1, 0] : Fin 3 → Nat) a + S1x1x128.size a ≤ S7x7x128.size a
  inb_S1x70x70x128_S1x64x64x128_0_2_2_0 : ∀ a, (![0, 2, 2, 0] : Fin 4 → Nat) a + S1x64x64x128.size a ≤ S1x70x70x128.size a
  inb_S7x7x128_S1x1x128_2_2_0 : ∀ a, (![2, 2, 0] : Fin 3 → Nat) a + S1x1x128.size a ≤ S7x7x128.size a
  inb_S1x70x70x128_S1x64x64x128_0_2_3_0 : ∀ a, (![0, 2, 3, 0] : Fin 4 → Nat) a + S1x64x64x128.size a ≤ S1x70x70x128.size a
  inb_S7x7x128_S1x1x128_2_3_0 : ∀ a, (![2, 3, 0] : Fin 3 → Nat) a + S1x1x128.size a ≤ S7x7x128.size a
  inb_S1x70x70x128_S1x64x64x128_0_2_4_0 : ∀ a, (![0, 2, 4, 0] : Fin 4 → Nat) a + S1x64x64x128.size a ≤ S1x70x70x128.size a
  inb_S7x7x128_S1x1x128_2_4_0 : ∀ a, (![2, 4, 0] : Fin 3 → Nat) a + S1x1x128.size a ≤ S7x7x128.size a
  inb_S1x70x70x128_S1x64x64x128_0_2_5_0 : ∀ a, (![0, 2, 5, 0] : Fin 4 → Nat) a + S1x64x64x128.size a ≤ S1x70x70x128.size a
  inb_S7x7x128_S1x1x128_2_5_0 : ∀ a, (![2, 5, 0] : Fin 3 → Nat) a + S1x1x128.size a ≤ S7x7x128.size a
  inb_S1x70x70x128_S1x64x64x128_0_2_6_0 : ∀ a, (![0, 2, 6, 0] : Fin 4 → Nat) a + S1x64x64x128.size a ≤ S1x70x70x128.size a
  inb_S7x7x128_S1x1x128_2_6_0 : ∀ a, (![2, 6, 0] : Fin 3 → Nat) a + S1x1x128.size a ≤ S7x7x128.size a
  inb_S1x70x70x128_S1x64x64x128_0_3_0_0 : ∀ a, (![0, 3, 0, 0] : Fin 4 → Nat) a + S1x64x64x128.size a ≤ S1x70x70x128.size a
  inb_S7x7x128_S1x1x128_3_0_0 : ∀ a, (![3, 0, 0] : Fin 3 → Nat) a + S1x1x128.size a ≤ S7x7x128.size a
  inb_S1x70x70x128_S1x64x64x128_0_3_1_0 : ∀ a, (![0, 3, 1, 0] : Fin 4 → Nat) a + S1x64x64x128.size a ≤ S1x70x70x128.size a
  inb_S7x7x128_S1x1x128_3_1_0 : ∀ a, (![3, 1, 0] : Fin 3 → Nat) a + S1x1x128.size a ≤ S7x7x128.size a
  inb_S1x70x70x128_S1x64x64x128_0_3_2_0 : ∀ a, (![0, 3, 2, 0] : Fin 4 → Nat) a + S1x64x64x128.size a ≤ S1x70x70x128.size a
  inb_S7x7x128_S1x1x128_3_2_0 : ∀ a, (![3, 2, 0] : Fin 3 → Nat) a + S1x1x128.size a ≤ S7x7x128.size a
  inb_S1x70x70x128_S1x64x64x128_0_3_3_0 : ∀ a, (![0, 3, 3, 0] : Fin 4 → Nat) a + S1x64x64x128.size a ≤ S1x70x70x128.size a
  inb_S7x7x128_S1x1x128_3_3_0 : ∀ a, (![3, 3, 0] : Fin 3 → Nat) a + S1x1x128.size a ≤ S7x7x128.size a
  inb_S1x70x70x128_S1x64x64x128_0_3_4_0 : ∀ a, (![0, 3, 4, 0] : Fin 4 → Nat) a + S1x64x64x128.size a ≤ S1x70x70x128.size a
  inb_S7x7x128_S1x1x128_3_4_0 : ∀ a, (![3, 4, 0] : Fin 3 → Nat) a + S1x1x128.size a ≤ S7x7x128.size a
  inb_S1x70x70x128_S1x64x64x128_0_3_5_0 : ∀ a, (![0, 3, 5, 0] : Fin 4 → Nat) a + S1x64x64x128.size a ≤ S1x70x70x128.size a
  inb_S7x7x128_S1x1x128_3_5_0 : ∀ a, (![3, 5, 0] : Fin 3 → Nat) a + S1x1x128.size a ≤ S7x7x128.size a
  inb_S1x70x70x128_S1x64x64x128_0_3_6_0 : ∀ a, (![0, 3, 6, 0] : Fin 4 → Nat) a + S1x64x64x128.size a ≤ S1x70x70x128.size a
  inb_S7x7x128_S1x1x128_3_6_0 : ∀ a, (![3, 6, 0] : Fin 3 → Nat) a + S1x1x128.size a ≤ S7x7x128.size a
  inb_S1x70x70x128_S1x64x64x128_0_4_0_0 : ∀ a, (![0, 4, 0, 0] : Fin 4 → Nat) a + S1x64x64x128.size a ≤ S1x70x70x128.size a
  inb_S7x7x128_S1x1x128_4_0_0 : ∀ a, (![4, 0, 0] : Fin 3 → Nat) a + S1x1x128.size a ≤ S7x7x128.size a
  inb_S1x70x70x128_S1x64x64x128_0_4_1_0 : ∀ a, (![0, 4, 1, 0] : Fin 4 → Nat) a + S1x64x64x128.size a ≤ S1x70x70x128.size a
  inb_S7x7x128_S1x1x128_4_1_0 : ∀ a, (![4, 1, 0] : Fin 3 → Nat) a + S1x1x128.size a ≤ S7x7x128.size a
  inb_S1x70x70x128_S1x64x64x128_0_4_2_0 : ∀ a, (![0, 4, 2, 0] : Fin 4 → Nat) a + S1x64x64x128.size a ≤ S1x70x70x128.size a
  inb_S7x7x128_S1x1x128_4_2_0 : ∀ a, (![4, 2, 0] : Fin 3 → Nat) a + S1x1x128.size a ≤ S7x7x128.size a
  inb_S1x70x70x128_S1x64x64x128_0_4_3_0 : ∀ a, (![0, 4, 3, 0] : Fin 4 → Nat) a + S1x64x64x128.size a ≤ S1x70x70x128.size a
  inb_S7x7x128_S1x1x128_4_3_0 : ∀ a, (![4, 3, 0] : Fin 3 → Nat) a + S1x1x128.size a ≤ S7x7x128.size a
  inb_S1x70x70x128_S1x64x64x128_0_4_4_0 : ∀ a, (![0, 4, 4, 0] : Fin 4 → Nat) a + S1x64x64x128.size a ≤ S1x70x70x128.size a
  inb_S7x7x128_S1x1x128_4_4_0 : ∀ a, (![4, 4, 0] : Fin 3 → Nat) a + S1x1x128.size a ≤ S7x7x128.size a
  inb_S1x70x70x128_S1x64x64x128_0_4_5_0 : ∀ a, (![0, 4, 5, 0] : Fin 4 → Nat) a + S1x64x64x128.size a ≤ S1x70x70x128.size a
  inb_S7x7x128_S1x1x128_4_5_0 : ∀ a, (![4, 5, 0] : Fin 3 → Nat) a + S1x1x128.size a ≤ S7x7x128.size a
  inb_S1x70x70x128_S1x64x64x128_0_4_6_0 : ∀ a, (![0, 4, 6, 0] : Fin 4 → Nat) a + S1x64x64x128.size a ≤ S1x70x70x128.size a
  inb_S7x7x128_S1x1x128_4_6_0 : ∀ a, (![4, 6, 0] : Fin 3 → Nat) a + S1x1x128.size a ≤ S7x7x128.size a
  inb_S1x70x70x128_S1x64x64x128_0_5_0_0 : ∀ a, (![0, 5, 0, 0] : Fin 4 → Nat) a + S1x64x64x128.size a ≤ S1x70x70x128.size a
  inb_S7x7x128_S1x1x128_5_0_0 : ∀ a, (![5, 0, 0] : Fin 3 → Nat) a + S1x1x128.size a ≤ S7x7x128.size a
  inb_S1x70x70x128_S1x64x64x128_0_5_1_0 : ∀ a, (![0, 5, 1, 0] : Fin 4 → Nat) a + S1x64x64x128.size a ≤ S1x70x70x128.size a
  inb_S7x7x128_S1x1x128_5_1_0 : ∀ a, (![5, 1, 0] : Fin 3 → Nat) a + S1x1x128.size a ≤ S7x7x128.size a
  inb_S1x70x70x128_S1x64x64x128_0_5_2_0 : ∀ a, (![0, 5, 2, 0] : Fin 4 → Nat) a + S1x64x64x128.size a ≤ S1x70x70x128.size a
  inb_S7x7x128_S1x1x128_5_2_0 : ∀ a, (![5, 2, 0] : Fin 3 → Nat) a + S1x1x128.size a ≤ S7x7x128.size a
  inb_S1x70x70x128_S1x64x64x128_0_5_3_0 : ∀ a, (![0, 5, 3, 0] : Fin 4 → Nat) a + S1x64x64x128.size a ≤ S1x70x70x128.size a
  inb_S7x7x128_S1x1x128_5_3_0 : ∀ a, (![5, 3, 0] : Fin 3 → Nat) a + S1x1x128.size a ≤ S7x7x128.size a
  inb_S1x70x70x128_S1x64x64x128_0_5_4_0 : ∀ a, (![0, 5, 4, 0] : Fin 4 → Nat) a + S1x64x64x128.size a ≤ S1x70x70x128.size a
  inb_S7x7x128_S1x1x128_5_4_0 : ∀ a, (![5, 4, 0] : Fin 3 → Nat) a + S1x1x128.size a ≤ S7x7x128.size a
  inb_S1x70x70x128_S1x64x64x128_0_5_5_0 : ∀ a, (![0, 5, 5, 0] : Fin 4 → Nat) a + S1x64x64x128.size a ≤ S1x70x70x128.size a
  inb_S7x7x128_S1x1x128_5_5_0 : ∀ a, (![5, 5, 0] : Fin 3 → Nat) a + S1x1x128.size a ≤ S7x7x128.size a
  inb_S1x70x70x128_S1x64x64x128_0_5_6_0 : ∀ a, (![0, 5, 6, 0] : Fin 4 → Nat) a + S1x64x64x128.size a ≤ S1x70x70x128.size a
  inb_S7x7x128_S1x1x128_5_6_0 : ∀ a, (![5, 6, 0] : Fin 3 → Nat) a + S1x1x128.size a ≤ S7x7x128.size a
  inb_S1x70x70x128_S1x64x64x128_0_6_0_0 : ∀ a, (![0, 6, 0, 0] : Fin 4 → Nat) a + S1x64x64x128.size a ≤ S1x70x70x128.size a
  inb_S7x7x128_S1x1x128_6_0_0 : ∀ a, (![6, 0, 0] : Fin 3 → Nat) a + S1x1x128.size a ≤ S7x7x128.size a
  inb_S1x70x70x128_S1x64x64x128_0_6_1_0 : ∀ a, (![0, 6, 1, 0] : Fin 4 → Nat) a + S1x64x64x128.size a ≤ S1x70x70x128.size a
  inb_S7x7x128_S1x1x128_6_1_0 : ∀ a, (![6, 1, 0] : Fin 3 → Nat) a + S1x1x128.size a ≤ S7x7x128.size a
  inb_S1x70x70x128_S1x64x64x128_0_6_2_0 : ∀ a, (![0, 6, 2, 0] : Fin 4 → Nat) a + S1x64x64x128.size a ≤ S1x70x70x128.size a
  inb_S7x7x128_S1x1x128_6_2_0 : ∀ a, (![6, 2, 0] : Fin 3 → Nat) a + S1x1x128.size a ≤ S7x7x128.size a
  inb_S1x70x70x128_S1x64x64x128_0_6_3_0 : ∀ a, (![0, 6, 3, 0] : Fin 4 → Nat) a + S1x64x64x128.size a ≤ S1x70x70x128.size a
  inb_S7x7x128_S1x1x128_6_3_0 : ∀ a, (![6, 3, 0] : Fin 3 → Nat) a + S1x1x128.size a ≤ S7x7x128.size a
  inb_S1x70x70x128_S1x64x64x128_0_6_4_0 : ∀ a, (![0, 6, 4, 0] : Fin 4 → Nat) a + S1x64x64x128.size a ≤ S1x70x70x128.size a
  inb_S7x7x128_S1x1x128_6_4_0 : ∀ a, (![6, 4, 0] : Fin 3 → Nat) a + S1x1x128.size a ≤ S7x7x128.size a
  inb_S1x70x70x128_S1x64x64x128_0_6_5_0 : ∀ a, (![0, 6, 5, 0] : Fin 4 → Nat) a + S1x64x64x128.size a ≤ S1x70x70x128.size a
  inb_S7x7x128_S1x1x128_6_5_0 : ∀ a, (![6, 5, 0] : Fin 3 → Nat) a + S1x1x128.size a ≤ S7x7x128.size a
  inb_S1x70x70x128_S1x64x64x128_0_6_6_0 : ∀ a, (![0, 6, 6, 0] : Fin 4 → Nat) a + S1x64x64x128.size a ≤ S1x70x70x128.size a
  inb_S7x7x128_S1x1x128_6_6_0 : ∀ a, (![6, 6, 0] : Fin 3 → Nat) a + S1x1x128.size a ≤ S7x7x128.size a
  shapeCasts_S64x64x128_S4096x128 : S64x64x128.ShapeCasts S4096x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S4096x128 : S1x128.Broadcasts S4096x128
  shapeCasts_S4096x128_S64x64x128 : S4096x128.ShapeCasts S64x64x128
  inb_S1x64x64x128_S1x64x64x128_0_0_0_0 : ∀ a, (![0, 0, 0, 0] : Fin 4 → Nat) a + S1x64x64x128.size a ≤ S1x64x64x128.size a
  shapeCasts_S64x64x128_S1x64x64x128 : S64x64x128.ShapeCasts S1x64x64x128
  transposes_S16x64x64x128_S16x128x64x64_0_3_1_2 : S16x64x64x128.Transposes [0, 3, 1, 2] S16x128x64x64
  dot_S4096x128_S128x512_S4096x512_1_0_0_1_n_n_wf : DotDims.WF S4096x128 S128x512 S4096x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x70x70x128.size a ≤ S16x70x70x128.size a
  hwx0_0 : ∀ i : grid0.Coords, EltTy.bits .f32 = 32 ∨ (Rect.block (s := S16x70x70x128) S1x70x70x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x7x128.size a ≤ S7x7x128.size a
  hwx0_1 : ∀ i : grid0.Coords, EltTy.bits .f32 = 32 ∨ (Rect.block (s := S7x7x128) S7x7x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .bf16 = 32 ∨ (Rect.block (s := S512x128) S512x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x64x128.size a ≤ S16x64x64x128.size a
  hwx0_8 : ∀ i : grid0.Coords, EltTy.bits .f32 = 32 ∨ (Rect.block (s := S16x64x64x128) S1x64x64x128.size (cc0_transform_8 i) (hinb0_8 i)).WholeWords (EltTy.packing .f32)

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_v14) S1x70x70x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S7x7x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x64x64x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x128x64x64 : Shape := ⟨4, ![16, 128, 64, 64]⟩
abbrev S128x1x7x7 : Shape := ⟨4, ![128, 1, 7, 7]⟩
abbrev S128 : Shape := ⟨1, ![128]⟩
abbrev S128x512 : Shape := ⟨2, ![128, 512]⟩
abbrev S512 : Shape := ⟨1, ![512]⟩
abbrev S512x128 : Shape := ⟨2, ![512, 128]⟩
abbrev S_ : Shape := ⟨0, ![]⟩
abbrev S128x7x7 : Shape := ⟨3, ![128, 7, 7]⟩
abbrev S7x7x128 : Shape := ⟨3, ![7, 7, 128]⟩
abbrev S1x1x128 : Shape := ⟨3, ![1, 1, 128]⟩
abbrev S1x128 : Shape := ⟨2, ![1, 128]⟩
abbrev S1x512 : Shape := ⟨2, ![1, 512]⟩
abbrev S16x64x64x128 : Shape := ⟨4, ![16, 64, 64, 128]⟩
abbrev S16x70x70x128 : Shape := ⟨4, ![16, 70, 70, 128]⟩
abbrev S1x70x70x128 : Shape := ⟨4, ![1, 70, 70, 128]⟩
abbrev S1x64x64x128 : Shape := ⟨4, ![1, 64, 64, 128]⟩
abbrev S64x64x128 : Shape := ⟨3, ![64, 64, 128]⟩
abbrev S65536x128 : Shape := ⟨2, ![65536, 128]⟩
abbrev S1024x128 : Shape := ⟨2, ![1024, 128]⟩
abbrev S1024x512 : Shape := ⟨2, ![1024, 512]⟩

abbrev nBuf : Space → Nat
  | .hbm => 39
  | .vmem => 17
  | .smem => 0
  | _ => 0

abbrev bufTy : (tb : Table) → Fin (tcTables nBuf tb) → BufTy
  | .hbm, ⟨0, _⟩ => ⟨S16x128x64x64, .f32⟩
  | .hbm, ⟨1, _⟩ => ⟨S128x1x7x7, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x7x7, .f32⟩
  | .hbm, ⟨18, _⟩ => ⟨S7x7x128, .f32⟩
  | .hbm, ⟨19, _⟩ => ⟨S1x1x128, .f32⟩
  | .hbm, ⟨20, _⟩ => ⟨S7x7x128, .f32⟩
  | .hbm, ⟨21, _⟩ => ⟨S7x7x128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S1x128, .f32⟩
  | .hbm, ⟨26, _⟩ => ⟨S1x128, .f32⟩
  | .hbm, ⟨27, _⟩ => ⟨S1x512, .f32⟩
  | .hbm, ⟨28, _⟩ => ⟨S1x128, .f32⟩
  | .hbm, ⟨29, _⟩ => ⟨S16x64x64x128, .f32⟩
  | .hbm, ⟨30, _⟩ => ⟨S_, .i32⟩
  | .hbm, ⟨31, _⟩ => ⟨S_, .f32⟩
  | .hbm, ⟨32, _⟩ => ⟨S16x70x70x128, .f32⟩
  | .hbm, ⟨33, _⟩ => ⟨S16x64x64x128, .f32⟩
  | .hbm, ⟨34, _⟩ => ⟨S65536x128, .f32⟩
  | .hbm, ⟨35, _⟩ => ⟨S65536x128, .f32⟩
  | .hbm, ⟨36, _⟩ => ⟨S65536x128, .f32⟩
  | .hbm, ⟨37, _⟩ => ⟨S16x64x64x128, .f32⟩
  | .hbm, ⟨38, _⟩ => ⟨S16x128x64x64, .f32⟩
  | .local _ .vmem, ⟨0, _⟩ => ⟨S1x70x70x128, .f32⟩
  | .local _ .vmem, ⟨1, _⟩ => ⟨S1x70x70x128, .f32⟩
  | .local _ .vmem, ⟨2, _⟩ => ⟨S7x7x128, .f32⟩
  | .local _ .vmem, ⟨3, _⟩ => ⟨S1x128, .f32⟩
  | .local _ .vmem, ⟨4, _⟩ => ⟨S1x64x64x128, .f32⟩
  | .local _ .vmem, ⟨5, _⟩ => ⟨S1x64x64x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S128x512, .f32⟩
  | .local _ .vmem, ⟨11, _⟩ => ⟨S1x512, .f32⟩
  | .local _ .vmem, ⟨12, _⟩ => ⟨S512x128, .f32⟩
  | .local _ .vmem, ⟨13, _⟩ => ⟨S1x128, .f32⟩
  | .local _ .vmem, ⟨14, _⟩ => ⟨S1x128, .f32⟩
  | .local _ .vmem, ⟨15, _⟩ => ⟨S1024x128, .f32⟩
  | .local _ .vmem, ⟨16, _⟩ => ⟨S1024x128, .f32⟩
  | _, _ => ⟨S16x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x70x70x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x7x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S128 : S_.BroadcastsInDim S128 (![] : Fin 0 → Fin S128.rank)
  shapeCasts_S128x1x7x7_S128x7x7 : S128x1x7x7.ShapeCasts S128x7x7
  transposes_S128x7x7_S7x7x128_1_2_0 : S128x7x7.Transposes [1, 2, 0] S7x7x128
  bcast_S128_S1x1x128_2 : S128.BroadcastsInDim S1x1x128 (![2] : Fin 1 → Fin S1x1x128.rank)
  bcast_S1x1x128_S7x7x128_0_1_2 : S1x1x128.BroadcastsInDim S7x7x128 (![0, 1, 2] : Fin 3 → Fin S7x7x128.rank)
  shapeCasts_S128_S1x128 : S128.ShapeCasts S1x128
  shapeCasts_S512_S1x512 : S512.ShapeCasts S1x512
  transposes_S16x128x64x64_S16x64x64x128_0_2_3_1 : S16x128x64x64.Transposes [0, 2, 3, 1] S16x64x64x128
  pads_S16x64x64x128_S16x70x70x128_000_330_330_000 : S16x64x64x128.Pads (![0, 3, 3, 0] : Fin 4 → Nat) ![0, 3, 3, 0] ![0, 0, 0, 0] S16x70x70x128
  h_S_ : 0 < S_.numel
  inb_S1x70x70x128_S1x64x64x128_0_0_0_0 : ∀ a, (![0, 0, 0, 0] : Fin 4 → Nat) a + S1x64x64x128.size a ≤ S1x70x70x128.size a
  h_S1x64x64x128 : 0 < S1x64x64x128.numel
  shapeCasts_S1x64x64x128_S64x64x128 : S1x64x64x128.ShapeCasts S64x64x128
  inb_S7x7x128_S1x1x128_0_0_0 : ∀ a, (![0, 0, 0] : Fin 3 → Nat) a + S1x1x128.size a ≤ S7x7x128.size a
  h_S1x1x128 : 0 < S1x1x128.numel
  shapeCasts_S1x1x128_S1x128 : S1x1x128.ShapeCasts S1x128
  shapeCasts_S1x128_S1x1x128 : S1x128.ShapeCasts S1x1x128
  broadcasts_S1x1x128_S64x64x128 : S1x1x128.Broadcasts S64x64x128
  inb_S1x70x70x128_S1x64x64x128_0_0_1_0 : ∀ a, (![0, 0, 1, 0] : Fin 4 → Nat) a + S1x64x64x128.size a ≤ S1x70x70x128.size a
  inb_S7x7x128_S1x1x128_0_1_0 : ∀ a, (![0, 1, 0] : Fin 3 → Nat) a + S1x1x128.size a ≤ S7x7x128.size a
  inb_S1x70x70x128_S1x64x64x128_0_0_2_0 : ∀ a, (![0, 0, 2, 0] : Fin 4 → Nat) a + S1x64x64x128.size a ≤ S1x70x70x128.size a
  inb_S7x7x128_S1x1x128_0_2_0 : ∀ a, (![0, 2, 0] : Fin 3 → Nat) a + S1x1x128.size a ≤ S7x7x128.size a
  inb_S1x70x70x128_S1x64x64x128_0_0_3_0 : ∀ a, (![0, 0, 3, 0] : Fin 4 → Nat) a + S1x64x64x128.size a ≤ S1x70x70x128.size a
  inb_S7x7x128_S1x1x128_0_3_0 : ∀ a, (![0, 3, 0] : Fin 3 → Nat) a + S1x1x128.size a ≤ S7x7x128.size a
  inb_S1x70x70x128_S1x64x64x128_0_0_4_0 : ∀ a, (![0, 0, 4, 0] : Fin 4 → Nat) a + S1x64x64x128.size a ≤ S1x70x70x128.size a
  inb_S7x7x128_S1x1x128_0_4_0 : ∀ a, (![0, 4, 0] : Fin 3 → Nat) a + S1x1x128.size a ≤ S7x7x128.size a
  inb_S1x70x70x128_S1x64x64x128_0_0_5_0 : ∀ a, (![0, 0, 5, 0] : Fin 4 → Nat) a + S1x64x64x128.size a ≤ S1x70x70x128.size a
  inb_S7x7x128_S1x1x128_0_5_0 : ∀ a, (![0, 5, 0] : Fin 3 → Nat) a + S1x1x128.size a ≤ S7x7x128.size a
  inb_S1x70x70x128_S1x64x64x128_0_0_6_0 : ∀ a, (![0, 0, 6, 0] : Fin 4 → Nat) a + S1x64x64x128.size a ≤ S1x70x70x128.size a
  inb_S7x7x128_S1x1x128_0_6_0 : ∀ a, (![0, 6, 0] : Fin 3 → Nat) a + S1x1x128.size a ≤ S7x7x128.size a
  inb_S1x70x70x128_S1x64x64x128_0_1_0_0 : ∀ a, (![0, 1, 0, 0] : Fin 4 → Nat) a + S1x64x64x128.size a ≤ S1x70x70x128.size a
  inb_S7x7x128_S1x1x128_1_0_0 : ∀ a, (![1, 0, 0] : Fin 3 → Nat) a + S1x1x128.size a ≤ S7x7x128.size a
  inb_S1x70x70x128_S1x64x64x128_0_1_1_0 : ∀ a, (![0, 1, 1, 0] : Fin 4 → Nat) a + S1x64x64x128.size a ≤ S1x70x70x128.size a
  inb_S7x7x128_S1x1x128_1_1_0 : ∀ a, (![1, 1, 0] : Fin 3 → Nat) a + S1x1x128.size a ≤ S7x7x128.size a
  inb_S1x70x70x128_S1x64x64x128_0_1_2_0 : ∀ a, (![0, 1, 2, 0] : Fin 4 → Nat) a + S1x64x64x128.size a ≤ S1x70x70x128.size a
  inb_S7x7x128_S1x1x128_1_2_0 : ∀ a, (![1, 2, 0] : Fin 3 → Nat) a + S1x1x128.size a ≤ S7x7x128.size a
  inb_S1x70x70x128_S1x64x64x128_0_1_3_0 : ∀ a, (![0, 1, 3, 0] : Fin 4 → Nat) a + S1x64x64x128.size a ≤ S1x70x70x128.size a
  inb_S7x7x128_S1x1x128_1_3_0 : ∀ a, (![1, 3, 0] : Fin 3 → Nat) a + S1x1x128.size a ≤ S7x7x128.size a
  inb_S1x70x70x128_S1x64x64x128_0_1_4_0 : ∀ a, (![0, 1, 4, 0] : Fin 4 → Nat) a + S1x64x64x128.size a ≤ S1x70x70x128.size a
  inb_S7x7x128_S1x1x128_1_4_0 : ∀ a, (![1, 4, 0] : Fin 3 → Nat) a + S1x1x128.size a ≤ S7x7x128.size a
  inb_S1x70x70x128_S1x64x64x128_0_1_5_0 : ∀ a, (![0, 1, 5, 0] : Fin 4 → Nat) a + S1x64x64x128.size a ≤ S1x70x70x128.size a
  inb_S7x7x128_S1x1x128_1_5_0 : ∀ a, (![1, 5, 0] : Fin 3 → Nat) a + S1x1x128.size a ≤ S7x7x128.size a
  inb_S1x70x70x128_S1x64x64x128_0_1_6_0 : ∀ a, (![0, 1, 6, 0] : Fin 4 → Nat) a + S1x64x64x128.size a ≤ S1x70x70x128.size a
  inb_S7x7x128_S1x1x128_1_6_0 : ∀ a, (![1, 6, 0] : Fin 3 → Nat) a + S1x1x128.size a ≤ S7x7x128.size a
  inb_S1x70x70x128_S1x64x64x128_0_2_0_0 : ∀ a, (![0, 2, 0, 0] : Fin 4 → Nat) a + S1x64x64x128.size a ≤ S1x70x70x128.size a
  inb_S7x7x128_S1x1x128_2_0_0 : ∀ a, (![2, 0, 0] : Fin 3 → Nat) a + S1x1x128.size a ≤ S7x7x128.size a
  inb_S1x70x70x128_S1x64x64x128_0_2_1_0 : ∀ a, (![0, 2, 1, 0] : Fin 4 → Nat) a + S1x64x64x128.size a ≤ S1x70x70x128.size a
  inb_S7x7x128_S1x1x128_2_1_0 : ∀ a, (![2, 1, 0] : Fin 3 → Nat) a + S1x1x128.size a ≤ S7x7x128.size a
  inb_S1x70x70x128_S1x64x64x128_0_2_2_0 : ∀ a, (![0, 2, 2, 0] : Fin 4 → Nat) a + S1x64x64x128.size a ≤ S1x70x70x128.size a
  inb_S7x7x128_S1x1x128_2_2_0 : ∀ a, (![2, 2, 0] : Fin 3 → Nat) a + S1x1x128.size a ≤ S7x7x128.size a
  inb_S1x70x70x128_S1x64x64x128_0_2_3_0 : ∀ a, (![0, 2, 3, 0] : Fin 4 → Nat) a + S1x64x64x128.size a ≤ S1x70x70x128.size a
  inb_S7x7x128_S1x1x128_2_3_0 : ∀ a, (![2, 3, 0] : Fin 3 → Nat) a + S1x1x128.size a ≤ S7x7x128.size a
  inb_S1x70x70x128_S1x64x64x128_0_2_4_0 : ∀ a, (![0, 2, 4, 0] : Fin 4 → Nat) a + S1x64x64x128.size a ≤ S1x70x70x128.size a
  inb_S7x7x128_S1x1x128_2_4_0 : ∀ a, (![2, 4, 0] : Fin 3 → Nat) a + S1x1x128.size a ≤ S7x7x128.size a
  inb_S1x70x70x128_S1x64x64x128_0_2_5_0 : ∀ a, (![0, 2, 5, 0] : Fin 4 → Nat) a + S1x64x64x128.size a ≤ S1x70x70x128.size a
  inb_S7x7x128_S1x1x128_2_5_0 : ∀ a, (![2, 5, 0] : Fin 3 → Nat) a + S1x1x128.size a ≤ S7x7x128.size a
  inb_S1x70x70x128_S1x64x64x128_0_2_6_0 : ∀ a, (![0, 2, 6, 0] : Fin 4 → Nat) a + S1x64x64x128.size a ≤ S1x70x70x128.size a
  inb_S7x7x128_S1x1x128_2_6_0 : ∀ a, (![2, 6, 0] : Fin 3 → Nat) a + S1x1x128.size a ≤ S7x7x128.size a
  inb_S1x70x70x128_S1x64x64x128_0_3_0_0 : ∀ a, (![0, 3, 0, 0] : Fin 4 → Nat) a + S1x64x64x128.size a ≤ S1x70x70x128.size a
  inb_S7x7x128_S1x1x128_3_0_0 : ∀ a, (![3, 0, 0] : Fin 3 → Nat) a + S1x1x128.size a ≤ S7x7x128.size a
  inb_S1x70x70x128_S1x64x64x128_0_3_1_0 : ∀ a, (![0, 3, 1, 0] : Fin 4 → Nat) a + S1x64x64x128.size a ≤ S1x70x70x128.size a
  inb_S7x7x128_S1x1x128_3_1_0 : ∀ a, (![3, 1, 0] : Fin 3 → Nat) a + S1x1x128.size a ≤ S7x7x128.size a
  inb_S1x70x70x128_S1x64x64x128_0_3_2_0 : ∀ a, (![0, 3, 2, 0] : Fin 4 → Nat) a + S1x64x64x128.size a ≤ S1x70x70x128.size a
  inb_S7x7x128_S1x1x128_3_2_0 : ∀ a, (![3, 2, 0] : Fin 3 → Nat) a + S1x1x128.size a ≤ S7x7x128.size a
  inb_S1x70x70x128_S1x64x64x128_0_3_3_0 : ∀ a, (![0, 3, 3, 0] : Fin 4 → Nat) a + S1x64x64x128.size a ≤ S1x70x70x128.size a
  inb_S7x7x128_S1x1x128_3_3_0 : ∀ a, (![3, 3, 0] : Fin 3 → Nat) a + S1x1x128.size a ≤ S7x7x128.size a
  inb_S1x70x70x128_S1x64x64x128_0_3_4_0 : ∀ a, (![0, 3, 4, 0] : Fin 4 → Nat) a + S1x64x64x128.size a ≤ S1x70x70x128.size a
  inb_S7x7x128_S1x1x128_3_4_0 : ∀ a, (![3, 4, 0] : Fin 3 → Nat) a + S1x1x128.size a ≤ S7x7x128.size a
  inb_S1x70x70x128_S1x64x64x128_0_3_5_0 : ∀ a, (![0, 3, 5, 0] : Fin 4 → Nat) a + S1x64x64x128.size a ≤ S1x70x70x128.size a
  inb_S7x7x128_S1x1x128_3_5_0 : ∀ a, (![3, 5, 0] : Fin 3 → Nat) a + S1x1x128.size a ≤ S7x7x128.size a
  inb_S1x70x70x128_S1x64x64x128_0_3_6_0 : ∀ a, (![0, 3, 6, 0] : Fin 4 → Nat) a + S1x64x64x128.size a ≤ S1x70x70x128.size a
  inb_S7x7x128_S1x1x128_3_6_0 : ∀ a, (![3, 6, 0] : Fin 3 → Nat) a + S1x1x128.size a ≤ S7x7x128.size a
  inb_S1x70x70x128_S1x64x64x128_0_4_0_0 : ∀ a, (![0, 4, 0, 0] : Fin 4 → Nat) a + S1x64x64x128.size a ≤ S1x70x70x128.size a
  inb_S7x7x128_S1x1x128_4_0_0 : ∀ a, (![4, 0, 0] : Fin 3 → Nat) a + S1x1x128.size a ≤ S7x7x128.size a
  inb_S1x70x70x128_S1x64x64x128_0_4_1_0 : ∀ a, (![0, 4, 1, 0] : Fin 4 → Nat) a + S1x64x64x128.size a ≤ S1x70x70x128.size a
  inb_S7x7x128_S1x1x128_4_1_0 : ∀ a, (![4, 1, 0] : Fin 3 → Nat) a + S1x1x128.size a ≤ S7x7x128.size a
  inb_S1x70x70x128_S1x64x64x128_0_4_2_0 : ∀ a, (![0, 4, 2, 0] : Fin 4 → Nat) a + S1x64x64x128.size a ≤ S1x70x70x128.size a
  inb_S7x7x128_S1x1x128_4_2_0 : ∀ a, (![4, 2, 0] : Fin 3 → Nat) a + S1x1x128.size a ≤ S7x7x128.size a
  inb_S1x70x70x128_S1x64x64x128_0_4_3_0 : ∀ a, (![0, 4, 3, 0] : Fin 4 → Nat) a + S1x64x64x128.size a ≤ S1x70x70x128.size a
  inb_S7x7x128_S1x1x128_4_3_0 : ∀ a, (![4, 3, 0] : Fin 3 → Nat) a + S1x1x128.size a ≤ S7x7x128.size a
  inb_S1x70x70x128_S1x64x64x128_0_4_4_0 : ∀ a, (![0, 4, 4, 0] : Fin 4 → Nat) a + S1x64x64x128.size a ≤ S1x70x70x128.size a
  inb_S7x7x128_S1x1x128_4_4_0 : ∀ a, (![4, 4, 0] : Fin 3 → Nat) a + S1x1x128.size a ≤ S7x7x128.size a
  inb_S1x70x70x128_S1x64x64x128_0_4_5_0 : ∀ a, (![0, 4, 5, 0] : Fin 4 → Nat) a + S1x64x64x128.size a ≤ S1x70x70x128.size a
  inb_S7x7x128_S1x1x128_4_5_0 : ∀ a, (![4, 5, 0] : Fin 3 → Nat) a + S1x1x128.size a ≤ S7x7x128.size a
  inb_S1x70x70x128_S1x64x64x128_0_4_6_0 : ∀ a, (![0, 4, 6, 0] : Fin 4 → Nat) a + S1x64x64x128.size a ≤ S1x70x70x128.size a
  inb_S7x7x128_S1x1x128_4_6_0 : ∀ a, (![4, 6, 0] : Fin 3 → Nat) a + S1x1x128.size a ≤ S7x7x128.size a
  inb_S1x70x70x128_S1x64x64x128_0_5_0_0 : ∀ a, (![0, 5, 0, 0] : Fin 4 → Nat) a + S1x64x64x128.size a ≤ S1x70x70x128.size a
  inb_S7x7x128_S1x1x128_5_0_0 : ∀ a, (![5, 0, 0] : Fin 3 → Nat) a + S1x1x128.size a ≤ S7x7x128.size a
  inb_S1x70x70x128_S1x64x64x128_0_5_1_0 : ∀ a, (![0, 5, 1, 0] : Fin 4 → Nat) a + S1x64x64x128.size a ≤ S1x70x70x128.size a
  inb_S7x7x128_S1x1x128_5_1_0 : ∀ a, (![5, 1, 0] : Fin 3 → Nat) a + S1x1x128.size a ≤ S7x7x128.size a
  inb_S1x70x70x128_S1x64x64x128_0_5_2_0 : ∀ a, (![0, 5, 2, 0] : Fin 4 → Nat) a + S1x64x64x128.size a ≤ S1x70x70x128.size a
  inb_S7x7x128_S1x1x128_5_2_0 : ∀ a, (![5, 2, 0] : Fin 3 → Nat) a + S1x1x128.size a ≤ S7x7x128.size a
  inb_S1x70x70x128_S1x64x64x128_0_5_3_0 : ∀ a, (![0, 5, 3, 0] : Fin 4 → Nat) a + S1x64x64x128.size a ≤ S1x70x70x128.size a
  inb_S7x7x128_S1x1x128_5_3_0 : ∀ a, (![5, 3, 0] : Fin 3 → Nat) a + S1x1x128.size a ≤ S7x7x128.size a
  inb_S1x70x70x128_S1x64x64x128_0_5_4_0 : ∀ a, (![0, 5, 4, 0] : Fin 4 → Nat) a + S1x64x64x128.size a ≤ S1x70x70x128.size a
  inb_S7x7x128_S1x1x128_5_4_0 : ∀ a, (![5, 4, 0] : Fin 3 → Nat) a + S1x1x128.size a ≤ S7x7x128.size a
  inb_S1x70x70x128_S1x64x64x128_0_5_5_0 : ∀ a, (![0, 5, 5, 0] : Fin 4 → Nat) a + S1x64x64x128.size a ≤ S1x70x70x128.size a
  inb_S7x7x128_S1x1x128_5_5_0 : ∀ a, (![5, 5, 0] : Fin 3 → Nat) a + S1x1x128.size a ≤ S7x7x128.size a
  inb_S1x70x70x128_S1x64x64x128_0_5_6_0 : ∀ a, (![0, 5, 6, 0] : Fin 4 → Nat) a + S1x64x64x128.size a ≤ S1x70x70x128.size a
  inb_S7x7x128_S1x1x128_5_6_0 : ∀ a, (![5, 6, 0] : Fin 3 → Nat) a + S1x1x128.size a ≤ S7x7x128.size a
  inb_S1x70x70x128_S1x64x64x128_0_6_0_0 : ∀ a, (![0, 6, 0, 0] : Fin 4 → Nat) a + S1x64x64x128.size a ≤ S1x70x70x128.size a
  inb_S7x7x128_S1x1x128_6_0_0 : ∀ a, (![6, 0, 0] : Fin 3 → Nat) a + S1x1x128.size a ≤ S7x7x128.size a
  inb_S1x70x70x128_S1x64x64x128_0_6_1_0 : ∀ a, (![0, 6, 1, 0] : Fin 4 → Nat) a + S1x64x64x128.size a ≤ S1x70x70x128.size a
  inb_S7x7x128_S1x1x128_6_1_0 : ∀ a, (![6, 1, 0] : Fin 3 → Nat) a + S1x1x128.size a ≤ S7x7x128.size a
  inb_S1x70x70x128_S1x64x64x128_0_6_2_0 : ∀ a, (![0, 6, 2, 0] : Fin 4 → Nat) a + S1x64x64x128.size a ≤ S1x70x70x128.size a
  inb_S7x7x128_S1x1x128_6_2_0 : ∀ a, (![6, 2, 0] : Fin 3 → Nat) a + S1x1x128.size a ≤ S7x7x128.size a
  inb_S1x70x70x128_S1x64x64x128_0_6_3_0 : ∀ a, (![0, 6, 3, 0] : Fin 4 → Nat) a + S1x64x64x128.size a ≤ S1x70x70x128.size a
  inb_S7x7x128_S1x1x128_6_3_0 : ∀ a, (![6, 3, 0] : Fin 3 → Nat) a + S1x1x128.size a ≤ S7x7x128.size a
  inb_S1x70x70x128_S1x64x64x128_0_6_4_0 : ∀ a, (![0, 6, 4, 0] : Fin 4 → Nat) a + S1x64x64x128.size a ≤ S1x70x70x128.size a
  inb_S7x7x128_S1x1x128_6_4_0 : ∀ a, (![6, 4, 0] : Fin 3 → Nat) a + S1x1x128.size a ≤ S7x7x128.size a
  inb_S1x70x70x128_S1x64x64x128_0_6_5_0 : ∀ a, (![0, 6, 5, 0] : Fin 4 → Nat) a + S1x64x64x128.size a ≤ S1x70x70x128.size a
  inb_S7x7x128_S1x1x128_6_5_0 : ∀ a, (![6, 5, 0] : Fin 3 → Nat) a + S1x1x128.size a ≤ S7x7x128.size a
  inb_S1x70x70x128_S1x64x64x128_0_6_6_0 : ∀ a, (![0, 6, 6, 0] : Fin 4 → Nat) a + S1x64x64x128.size a ≤ S1x70x70x128.size a
  inb_S7x7x128_S1x1x128_6_6_0 : ∀ a, (![6, 6, 0] : Fin 3 → Nat) a + S1x1x128.size a ≤ S7x7x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x64x64x128_S1x64x64x128_0_0_0_0 : ∀ a, (![0, 0, 0, 0] : Fin 4 → Nat) a + S1x64x64x128.size a ≤ S1x64x64x128.size a
  shapeCasts_S64x64x128_S1x64x64x128 : S64x64x128.ShapeCasts S1x64x64x128
  shapeCasts_S16x64x64x128_S65536x128 : S16x64x64x128.ShapeCasts S65536x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x128_S512x128_0_0 : ∀ a, (![0, 0] : Fin 2 → Nat) a + S512x128.size a ≤ S512x128.size a
  h_S512x128 : 0 < S512x128.numel
  broadcasts_S1x128_S1024x128 : S1x128.Broadcasts S1024x128
  shapeCasts_S65536x128_S16x64x64x128 : S65536x128.ShapeCasts S16x64x64x128
  transposes_S16x64x64x128_S16x128x64x64_0_3_1_2 : S16x64x64x128.Transposes [0, 3, 1, 2] S16x128x64x64
  dot_S1024x128_S128x512_S1024x512_1_0_0_1_n_n_wf : DotDims.WF S1024x128 S128x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x70x70x128.size a ≤ S16x70x70x128.size a
  hwx0_0 : ∀ i : grid0.Coords, EltTy.bits .f32 = 32 ∨ (Rect.block (s := S16x70x70x128) S1x70x70x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x7x128.size a ≤ S7x7x128.size a
  hwx0_1 : ∀ i : grid0.Coords, EltTy.bits .f32 = 32 ∨ (Rect.block (s := S7x7x128) S7x7x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64x128.size a ≤ S16x64x64x128.size a
  hwx0_3 : ∀ i : grid0.Coords, EltTy.bits .f32 = 32 ∨ (Rect.block (s := S16x64x64x128) S1x64x64x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S65536x128.size a
  hwx1_0 : ∀ i : grid1.Coords, EltTy.bits .f32 = 32 ∨ (Rect.block (s := S65536x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S65536x128.size a
  hwx1_1 : ∀ i : grid1.Coords, EltTy.bits .f32 = 32 ∨ (Rect.block (s := S65536x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .f32 = 32 ∨ (Rect.block (s := S128x512) S128x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S512x128.size a
  hwx1_4 : ∀ i : grid1.Coords, EltTy.bits .f32 = 32 ∨ (Rect.block (s := S512x128) S512x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S65536x128.size a
  hwx1_7 : ∀ i : grid1.Coords, EltTy.bits .f32 = 32 ∨ (Rect.block (s := S65536x128) S1024x128.size (cc1_transform_7 i) (hinb1_7 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v17) S1x70x70x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S7x7x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x64x64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S512x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S1024x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== Proof.Spec.lean ====
/-
  The common specification of the two programs, over the extended reals.

  Both programs compute, for an input `x` in NCHW layout,
      out = x + gamma * MLP (BN (dwconv7x7 x)),
  channels last inside: with XP the zero-padded NHWC copy of `x`, WE the depthwise weights scaled per channel by
  `s`, BE the folded bias `(b_dw - bn_mean) * s + bn_b`,
      T(n,h,w,c)   = BE(c) + sum over the 49 taps (kh,kw) of XP(n,h+kh,w+kw,c) * WE(kh,kw,c)
      H(n,h,w,e)   = hsw (sum_k T(n,h,w,k) * w1(k,e) + b1(e)),      hsw z = z * min 6 (max 0 (z + 3)) * (1/6 as f32)
      Y(n,h,w,c)   = sum_e H(n,h,w,e) * w2(e,c) + b2(c)
      out(n,c,h,w) = x(n,c,h,w) + gamma(c) * Y(n,h,w,c).
  The two programs differ in the scale only: one multiplies `bn_w` by the reciprocal square root of `bn_var + eps`,
  the other divides `bn_w` by its square root; for a real `bn_var ≥ 0` these are one number (`scale_eq`).
  They also differ in where the bias enters the 49-term chain (first or last): addition of extended reals is
  commutative and associative, so the chains agree (`tapSum_zero_add`).
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

namespace Cert.Spec

open Idealize.ShloMosaic Idealize.ShloMosaic.ValueIdx

abbrev SX : Shape := ⟨4, ![16, 128, 64, 64]⟩
abbrev SWd : Shape := ⟨4, ![128, 1, 7, 7]⟩
abbrev SW3 : Shape := ⟨3, ![128, 7, 7]⟩
abbrev SK : Shape := ⟨3, ![7, 7, 128]⟩
abbrev S111 : Shape := ⟨3, ![1, 1, 128]⟩
abbrev SC : Shape := ⟨1, ![128]⟩
abbrev SE : Shape := ⟨1, ![512]⟩
abbrev SRC : Shape := ⟨2, ![1, 128]⟩
abbrev SRE : Shape := ⟨2, ![1, 512]⟩
abbrev SW1 : Shape := ⟨2, ![128, 512]⟩
abbrev SW2 : Shape := ⟨2, ![512, 128]⟩
abbrev SN : Shape := ⟨4, ![16, 64, 64, 128]⟩
abbrev SP : Shape := ⟨4, ![16, 70, 70, 128]⟩
abbrev S0 : Shape := ⟨0, ![]⟩

/-- An array of extended reals of a given shape. -/
abbrev A (s : Shape) : Type := FVec Ideal s .f32

/-- The shape relations the host operations shared by the two programs take. -/
structure HostFacts : Prop where
  bc0 : S0.BroadcastsInDim SC (![] : Fin 0 → Fin SC.rank)
  scW : SWd.ShapeCasts SW3
  trW : SW3.Transposes [1, 2, 0] SK
  bc1 : SC.BroadcastsInDim S111 (![2] : Fin 1 → Fin S111.rank)
  bc3 : S111.BroadcastsInDim SK (![0, 1, 2] : Fin 3 → Fin SK.rank)
  scC : SC.ShapeCasts SRC
  scE : SE.ShapeCasts SRE
  trX : SX.Transposes [0, 2, 3, 1] SN
  padX : SN.Pads (![0, 3, 3, 0] : Fin 4 → Nat) ![0, 3, 3, 0] ![0, 0, 0, 0] SP
  h0 : 0 < S0.numel
  trO : SN.Transposes [0, 3, 1, 2] SX

/-! ## The host-side arrays both programs build before their kernels -/

/-- The batch-norm epsilon (the f32 nearest 1e-5), broadcast over the channels. -/
def epsv (hf : HostFacts) : A SC := broadcastInDim SC ![] hf.bc0 (constant (F := Ideal) S0 .f32 925353388#32)

/-- The per-channel scale as a product with the reciprocal square root. -/
def scaleK (hf : HostFacts) (bnw bnv : A SC) : A SC := mulf bnw (Host.rsqrt (addf bnv (epsv hf)))

/-- The per-channel scale as a quotient by the square root. -/
def scaleR (hf : HostFacts) (bnw bnv : A SC) : A SC := Host.divf bnw (Host.sqrt (addf bnv (epsv hf)))

/-- The depthwise weights, taps first and channels last, scaled per channel. -/
def weff (hf : HostFacts) (wdw : A SWd) (s : A SC) : A SK :=
  mulf (transpose SK [1, 2, 0] (shapeCast SW3 wdw hf.scW) hf.trW)
    (broadcastInDim SK ![0, 1, 2] hf.bc3 (broadcastInDim S111 ![2] hf.bc1 s))

/-- The folded bias `(b_dw - bn_mean) * s + bn_b`, as a row. -/
def beff (hf : HostFacts) (bdw bnm bnb s : A SC) : A SRC :=
  shapeCast SRC (addf (mulf (subf bdw bnm) s) bnb) hf.scC

/-- The input, channels last. -/
def xT (hf : HostFacts) (x : A SX) : A SN := transpose SN [0, 2, 3, 1] x hf.trX

/-- The input, channels last, with three rows and columns of zeros on every side. -/
def xpad (hf : HostFacts) (x : A SX) : A SP :=
  pad SP ![0, 3, 3, 0] ![0, 3, 3, 0] ![0, 0, 0, 0] (xT hf x) (sitofp .f32 (constantI S0 32 0#32)) hf.padX hf.h0

/-- A channel vector as a row. -/
def rowC (hf : HostFacts) (b : A SC) : A SRC := shapeCast SRC b hf.scC

/-- A hidden-width vector as a row. -/
def rowE (hf : HostFacts) (b : A SE) : A SRE := shapeCast SRE b hf.scE

/-! ## The 49-tap chain -/

/-- The taps in the order both kernels visit them: rows first. -/
def taps : List (Fin 7 × Fin 7) :=
  [(0, 0), (0, 1), (0, 2), (0, 3), (0, 4), (0, 5), (0, 6), (1, 0), (1, 1), (1, 2), (1, 3), (1, 4), (1, 5), (1, 6), (2, 0), (2, 1), (2, 2), (2, 3), (2, 4), (2, 5), (2, 6), (3, 0), (3, 1), (3, 2), (3, 3), (3, 4), (3, 5), (3, 6), (4, 0), (4, 1), (4, 2), (4, 3), (4, 4), (4, 5), (4, 6), (5, 0), (5, 1), (5, 2), (5, 3), (5, 4), (5, 5), (5, 6), (6, 0), (6, 1), (6, 2), (6, 3), (6, 4), (6, 5), (6, 6)]

/-- The chain of additions over the taps from a starting value. -/
def tapSum (a : Fin 7 → Fin 7 → EReal) (z : EReal) : EReal :=
  taps.foldl (fun acc p => acc + a p.1 p.2) z

theorem foldl_add_start {ι : Type} (f : ι → EReal) (l : List ι) (z b : EReal) :
    l.foldl (fun acc p => acc + f p) z + b = l.foldl (fun acc p => acc + f p) (z + b) := by
  induction l generalizing z with
  | nil => rfl
  | cons p l ih =>
    simp only [List.foldl_cons]
    rw [ih, add_right_comm]

/-- Adding the bias after the chain started from zero is the chain started from the bias. -/
theorem tapSum_zero_add (a : Fin 7 → Fin 7 → EReal) (b : EReal) : tapSum a 0 + b = tapSum a b := by
  unfold tapSum
  rw [foldl_add_start (fun p : Fin 7 × Fin 7 => a p.1 p.2), zero_add]

/-- Row `h + k` of the padded image. -/
def sh (h : Fin 64) (k : Fin 7) : Fin 70 := ⟨h.val + k.val, by omega⟩

/-- The convolution with folded batch norm at one output element. -/
def convAt (XP : A SP) (WE : A SK) (BE : A SRC) (n : Fin 16) (h w : Fin 64) (c : Fin 128) : EReal :=
  tapSum (fun kh kw => XP (ix4 n (sh h kh) (sh w kw) c) * WE (ix3 kh kw c)) (BE (ix2 0 c))

/-! ## The channel MLP -/

def c0 : EReal := Ideal.ofBits .f32 0x00000000#32
def c3 : EReal := Ideal.ofBits .f32 0x40400000#32
def c6 : EReal := Ideal.ofBits .f32 0x40C00000#32
def c16 : EReal := Ideal.ofBits .f32 0x3E2AAAAB#32

/-- Hardswish as both programs spell it. -/
def hsw (z : EReal) : EReal := z * min c6 (max c0 (z + c3)) * c16

/-- One hidden unit of a row. -/
def hidden (t : Fin 128 → EReal) (W1 : A SW1) (B1 : A SRE) (e : Fin 512) : EReal :=
  hsw ((∑ k : Fin 128, t k * W1 (ix2 k e)) + B1 (ix2 0 e))

/-- One output channel of the MLP of a row. -/
def mlpAt (t : Fin 128 → EReal) (W1 : A SW1) (B1 : A SRE) (W2 : A SW2) (B2 : A SRC) (c : Fin 128) : EReal :=
  (∑ e : Fin 512, hidden t W1 B1 e * W2 (ix2 e c)) + B2 (ix2 0 c)

/-- The convolution's whole output array, channels last. -/
def convArr (XP : A SP) (WE : A SK) (BE : A SRC) : A SN :=
  fun j => convAt XP WE BE (j 0) (j 1) (j 2) (j 3)

theorem convArr_ix4 (XP : A SP) (WE : A SK) (BE : A SRC) (n : Fin 16) (h w : Fin 64) (c : Fin 128) :
    convArr XP WE BE (ix4 n h w c) = convAt XP WE BE n h w c := rfl

/-- The MLP, the layer scale and the residual at one element, over any convolution output `T`. -/
def outAtT (T XR : A SN) (W1 : A SW1) (B1 : A SRE) (W2 : A SW2) (B2 G : A SRC)
    (n : Fin 16) (h w : Fin 64) (c : Fin 128) : EReal :=
  XR (ix4 n h w c) + G (ix2 0 c) * mlpAt (fun k => T (ix4 n h w k)) W1 B1 W2 B2 c

/-- The same as a whole array, channels last. -/
def outOfT (T XR : A SN) (W1 : A SW1) (B1 : A SRE) (W2 : A SW2) (B2 G : A SRC) : A SN :=
  fun j => outAtT T XR W1 B1 W2 B2 G (j 0) (j 1) (j 2) (j 3)

theorem outOfT_ix4 (T XR : A SN) (W1 : A SW1) (B1 : A SRE) (W2 : A SW2) (B2 G : A SRC)
    (n : Fin 16) (h w : Fin 64) (c : Fin 128) :
    outOfT T XR W1 B1 W2 B2 G (ix4 n h w c) = outAtT T XR W1 B1 W2 B2 G n h w c := rfl

/-- The block's output, channels last. -/
def outNHWC (XP : A SP) (WE : A SK) (BE : A SRC) (XR : A SN) (W1 : A SW1) (B1 : A SRE) (W2 : A SW2) (B2 G : A SRC) : A SN :=
  outOfT (convArr XP WE BE) XR W1 B1 W2 B2 G

/-- The block's output at one element: the residual plus the scaled MLP of the convolved row. -/
theorem outNHWC_ix4 (XP : A SP) (WE : A SK) (BE : A SRC) (XR : A SN) (W1 : A SW1) (B1 : A SRE) (W2 : A SW2) (B2 G : A SRC)
    (n : Fin 16) (h w : Fin 64) (c : Fin 128) :
    outNHWC XP WE BE XR W1 B1 W2 B2 G (ix4 n h w c)
      = XR (ix4 n h w c) + G (ix2 0 c) * mlpAt (fun k => convAt XP WE BE n h w k) W1 B1 W2 B2 c := rfl

/-- The whole result in the input's layout, as a function of the scale `s` and the twelve arguments. -/
def result (hf : HostFacts) (s : A SC) (x : A SX) (wdw : A SWd) (bdw bnb bnm : A SC) (w1 : A SW1) (b1 : A SE) (w2 : A SW2)
    (b2 g : A SC) : A SX :=
  transpose SX [0, 3, 1, 2]
    (outNHWC (xpad hf x) (weff hf wdw s) (beff hf bdw bnm bnb s) (xT hf x) w1 (rowE hf b1) w2 (rowC hf b2) (rowC hf g))
    hf.trO

/-! ## The one law that joins the two scales -/

/-- The epsilon is a positive real. -/
theorem eps_pos : ∃ e : ℝ, 0 < e ∧ Ideal.ofBits .f32 925353388#32 = (e : EReal) := by
  refine ⟨10995116 * (2 : ℝ) ^ (-40 : ℤ), by positivity, ?_⟩
  simp [Ideal.ofBits, Ideal.ieee, -EReal.coe_mul]

/-- For a positive real `v`, multiplying by `1/√v` and dividing by `√v` agree on every extended real. -/
theorem mul_rsqrt_eq_div_sqrt (w : EReal) (v : ℝ) (hv : 0 < v) :
    w * Ideal.rsqrt (v : EReal) = Ideal.div w (Ideal.sqrt (v : EReal)) := by
  have hs : 0 < Real.sqrt v := Real.sqrt_pos.mpr hv
  have h1 : Ideal.rsqrt (v : EReal) = (((Real.sqrt v)⁻¹ : ℝ) : EReal) := by
    show (if v < 0 then ⊥ else if v = 0 then ⊤ else (((Real.sqrt v)⁻¹ : ℝ) : EReal)) = _
    rw [if_neg (not_lt.mpr hv.le), if_neg hv.ne']
  have h2 : Ideal.sqrt (v : EReal) = ((Real.sqrt v : ℝ) : EReal) := by
    show (if v < 0 then ⊥ else ((Real.sqrt v : ℝ) : EReal)) = _
    rw [if_neg (not_lt.mpr hv.le)]
  rw [h1, h2, Ideal.div, if_neg (by exact_mod_cast hs.ne'), EReal.coe_inv]

/-- Where the variance is a nonnegative real, the two scales are one vector. -/
theorem scale_eq (hf : HostFacts) (bnw bnv : A SC) (h : ∀ i : SC.Idx, ∃ r : ℝ, 0 ≤ r ∧ bnv i = (r : EReal)) :
    scaleK hf bnw bnv = scaleR hf bnw bnv := by
  funext i
  obtain ⟨r, hr, e⟩ := h i
  obtain ⟨ε, hε, ee⟩ := eps_pos
  have hv : (addf bnv (epsv hf)) i = ((r + ε : ℝ) : EReal) := by
    show bnv i + epsv hf i = _
    rw [e]
    unfold epsv
    rw [broadcastInDim_scalar_apply]
    show (r : EReal) + Ideal.ofBits .f32 925353388#32 = _
    rw [ee, EReal.coe_add]
  show bnw i * Ideal.rsqrt ((addf bnv (epsv hf)) i) = Ideal.div (bnw i) (Ideal.sqrt ((addf bnv (epsv hf)) i))
  rw [hv]
  exact mul_rsqrt_eq_div_sqrt _ _ (by linarith)

end Cert.Spec

end
-- ==== Proof.PreVar.lean ====
/-
  What the precondition says of the variance: the predicate is a conjunction of thirteen tests, each "every element
  of an array passes"; two of them are about the variance — its absolute value is below +∞, and it is at least zero.
  An extended real that is at least zero and whose absolute value is below +∞ is a nonnegative real.
-/
import proofs.«153769_g2000605849985115_pallasbulk_1241_2_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Pre_finite_inputs

open Idealize.ShloMosaic Idealize.ShloMosaic.ValueIdx

variable [Facts]
open Facts

instance subsingleton_scalar_idx : Subsingleton S_.Idx := ⟨fun a b => funext fun d => d.elim0⟩

theorem ofBool_one (b : Bool) : BitVec.ofBool b = 1#1 ↔ b = true := by cases b <;> decide

theorem ofBits_inf : Ideal.ofBits .f32 0x7F800000#32 = (⊤ : EReal) := by
  simp [Ideal.ofBits, Ideal.ieee]

/-- An extended real at least zero with absolute value below +∞ is a nonnegative real. -/
theorem real_of_nonneg_of_abs_lt_top (x : EReal) (h0 : 0 ≤ x) (h1 : max x (-x) < ⊤) : ∃ r : ℝ, 0 ≤ r ∧ x = (r : EReal) := by
  have hx : x < ⊤ := lt_of_le_of_lt (le_max_left _ _) h1
  have hb : x ≠ ⊥ := fun e => by rw [e] at h0; exact absurd h0 (by simp)
  refine ⟨x.toReal, EReal.toReal_nonneg h0, (EReal.coe_toReal hx.ne hb).symm⟩

/-- Where the precondition holds, every variance is a nonnegative real. -/
theorem var_real_nonneg (a0 : FVec Ideal S16x128x64x64 .f32) (a1 : FVec Ideal S128x1x7x7 .f32) (a2 a3 a4 a5 a6 : FVec Ideal S128 .f32)
    (a7 : FVec Ideal S128x512 .f32) (a8 : FVec Ideal S512 .f32) (a9 : FVec Ideal S512x128 .f32) (a10 a11 : FVec Ideal S128 .f32)
    (h : fn (F := Ideal) a0 a1 a2 a3 a4 a5 a6 a7 a8 a9 a10 a11 = fun _ => 1#1) (i : S128.Idx) :
    ∃ r : ℝ, 0 ≤ r ∧ a6 i = (r : EReal) := by
  have h0 := congrFun h ix0
  dsimp only [fn, fn_part1, fn_part2, fn_part3] at h0
  obtain ⟨h58, h61⟩ := IntOp.andi_eq_one.mp h0
  obtain ⟨h53, -⟩ := IntOp.andi_eq_one.mp h58
  obtain ⟨h48, -⟩ := IntOp.andi_eq_one.mp h53
  obtain ⟨h43, -⟩ := IntOp.andi_eq_one.mp h48
  obtain ⟨h38, -⟩ := IntOp.andi_eq_one.mp h43
  obtain ⟨h33, -⟩ := IntOp.andi_eq_one.mp h38
  obtain ⟨-, h32⟩ := IntOp.andi_eq_one.mp h33
  have hge := Host.reduce_andi_all _ _ _ _ _ h61 i
  have hlt := Host.reduce_andi_all _ _ _ _ _ h32 i
  have hge' : Ideal.cmp .oge (a6 i) (Ideal.ofBits .f32 0x00000000#32) = 1#1 := hge
  have hlt' : Ideal.cmp .olt (max (a6 i) (-(a6 i))) (Ideal.ofBits .f32 0x7F800000#32) = 1#1 := hlt
  rw [Ideal.ofBits_zero_f32] at hge'
  rw [ofBits_inf] at hlt'
  refine real_of_nonneg_of_abs_lt_top (a6 i) ?_ ?_
  · simpa [Ideal.cmp, ofBool_one] using hge'
  · have h2 : a6 i < ⊤ ∧ -a6 i < ⊤ := by simpa [Ideal.cmp, ofBool_one] using hlt'
    exact max_lt h2.1 h2.2

end Cert.Pre_finite_inputs

end
-- ==== Proof.LibWindowLoad.lean ====
/-
  Layout facts at literal shapes, read at an index written by coordinates.

  * a load of a [1, 64, 64, C] window out of a [1, 70, 70, C] image at offset (0, kh, kw, 0) reads the image at
    (0, h + kh, w + kw, c);
  * a load of a [1, 1, C] row out of a [7, 7, C] stack at offset (kh, kw, 0) reads the stack at (kh, kw, c);
  * a [1, 1, C] row broadcast over [H, W, C], with or without the row's unit axes recast on the way, reads the
    row at c; a [1, C] row recast to [1, 1, C] and broadcast reads the row at c;
  * [H, W, C] flattened to [H * W, C] and back reads row-major: row 64 h + w is (h, w).
-/
import Idealize.ShloMosaic.Lib.Pipeline.Value
import Idealize.ShloMosaic.Lib.Pipeline.FrameBody
import Idealize.ShloMosaic.Lib.ValueIdx
import Idealize.ShloMosaic.Lib.ValueLayout

noncomputable section

namespace Cert.LibWindowLoad

open Idealize.ShloMosaic Idealize.ShloMosaic.ValueIdx

variable {Val : EltTy → Type} {e : EltTy} {α : Type}

abbrev SImg : Shape := ⟨4, ![1, 70, 70, 128]⟩
abbrev SWin : Shape := ⟨4, ![1, 64, 64, 128]⟩
abbrev SStk : Shape := ⟨3, ![7, 7, 128]⟩
abbrev SRow3 : Shape := ⟨3, ![1, 1, 128]⟩
abbrev SRow2 : Shape := ⟨2, ![1, 128]⟩
abbrev SHWC : Shape := ⟨3, ![64, 64, 128]⟩
abbrev SFlat : Shape := ⟨2, ![4096, 128]⟩

/-- Row `h + k` of a 70-row image, for `h` among 64 rows and `k` among 7 offsets. -/
def shift (h : Fin 64) (k : ℕ) (hk : k < 7) : Fin 70 := ⟨h.val + k, by omega⟩

/-- A window of the image at offset (0, kh, kw, 0), read at (0, h, w, c). -/
theorem ld_window (X : SImg.Idx → Val e) (kh kw : ℕ) (hkh : kh < 7) (hkw : kw < 7)
    (inb : ∀ a, (![0, kh, kw, 0] : Fin 4 → ℕ) a + SWin.size a ≤ SImg.size a)
    (h w : Fin 64) (c : Fin 128) :
    View.ld X (Rect.unit (s := SImg) ![0, kh, kw, 0] SWin.size inb) (ix4 (0 : Fin 1) h w c)
      = X (ix4 (0 : Fin 1) (shift h kh hkh) (shift w kw hkw) c) := by
  show X _ = X _
  refine congrArg X (funext fun a => Fin.ext ?_)
  match a with
  | ⟨0, _⟩ => rfl
  | ⟨1, _⟩ => show kh + 1 * h.val = h.val + kh; omega
  | ⟨2, _⟩ => show kw + 1 * w.val = w.val + kw; omega
  | ⟨3, _⟩ => show 0 + 1 * c.val = c.val; omega

/-- A row of the stack at offset (kh, kw, 0), read at (0, 0, c). -/
theorem ld_row (X : SStk.Idx → Val e) (kh kw : ℕ) (hkh : kh < 7) (hkw : kw < 7)
    (inb : ∀ a, (![kh, kw, 0] : Fin 3 → ℕ) a + SRow3.size a ≤ SStk.size a) (c : Fin 128) :
    View.ld X (Rect.unit (s := SStk) ![kh, kw, 0] SRow3.size inb) (ix3 (0 : Fin 1) (0 : Fin 1) c)
      = X (ix3 (⟨kh, hkh⟩ : Fin 7) (⟨kw, hkw⟩ : Fin 7) c) := by
  show X _ = X _
  refine congrArg X (funext fun a => Fin.ext ?_)
  match a with
  | ⟨0, _⟩ => show kh + 1 * 0 = kh; omega
  | ⟨1, _⟩ => show kw + 1 * 0 = kw; omega
  | ⟨2, _⟩ => show 0 + 1 * c.val = c.val; omega

/-- A window of the image at offset (0, kh, kw, 0), read at (0, h, w, c): the shifted coordinates stay in range
    because the window does. -/
theorem ld_window_at {F : FTy → Type} (X : SImg.Idx → Elt F e) (kh kw : ℕ)
    (inb : ∀ a, (![0, kh, kw, 0] : Fin 4 → ℕ) a + SWin.size a ≤ SImg.size a)
    (h w : Fin 64) (c : Fin 128) :
    View.ld X (Rect.unit (s := SImg) ![0, kh, kw, 0] SWin.size inb) (ix4 (0 : Fin 1) h w c)
      = X (ix4 (0 : Fin 1) (⟨h.val + kh, by have h1 : kh + 64 ≤ 70 := inb 1; omega⟩ : Fin 70)
          (⟨w.val + kw, by have h2 : kw + 64 ≤ 70 := inb 2; omega⟩ : Fin 70) c) := by
  show X _ = X _
  refine congrArg X (funext fun a => Fin.ext ?_)
  match a with
  | ⟨0, _⟩ => rfl
  | ⟨1, _⟩ => show kh + 1 * h.val = h.val + kh; omega
  | ⟨2, _⟩ => show kw + 1 * w.val = w.val + kw; omega
  | ⟨3, _⟩ => show 0 + 1 * c.val = c.val; omega

/-- A row of the stack at offset (kh, kw, 0), read at (0, 0, c). -/
theorem ld_row_at {F : FTy → Type} (X : SStk.Idx → Elt F e) (kh kw : ℕ)
    (inb : ∀ a, (![kh, kw, 0] : Fin 3 → ℕ) a + SRow3.size a ≤ SStk.size a) (c : Fin 128) :
    View.ld X (Rect.unit (s := SStk) ![kh, kw, 0] SRow3.size inb) (ix3 (0 : Fin 1) (0 : Fin 1) c)
      = X (ix3 (⟨kh, by have h0 : kh + 1 ≤ 7 := inb 0; omega⟩ : Fin 7)
          (⟨kw, by have h1 : kw + 1 ≤ 7 := inb 1; omega⟩ : Fin 7) c) := by
  show X _ = X _
  refine congrArg X (funext fun a => Fin.ext ?_)
  match a with
  | ⟨0, _⟩ => show kh + 1 * 0 = kh; omega
  | ⟨1, _⟩ => show kw + 1 * 0 = kw; omega
  | ⟨2, _⟩ => show 0 + 1 * c.val = c.val; omega

/-- A [1, 1, C] row broadcast over [H, W, C] reads the row at the channel. -/
theorem bcast_row3 (v : SRow3.Idx → α) (hb : SRow3.Broadcasts SHWC) (h w : Fin 64) (c : Fin 128) :
    broadcastTo SHWC v hb (ix3 h w c) = v (ix3 (0 : Fin 1) (0 : Fin 1) c) := by
  refine broadcastTo_apply v hb (ix3 h w c) (ix3 (0 : Fin 1) (0 : Fin 1) c) fun ax => ?_
  match ax with
  | ⟨0, _⟩ => rfl
  | ⟨1, _⟩ => rfl
  | ⟨2, _⟩ => rfl

/-- The same row recast [1, 1, C] → [1, C] → [1, 1, C] on the way. -/
theorem bcast_row3_recast (v : SRow3.Idx → α) (h1 : SRow3.ShapeCasts SRow2) (h2 : SRow2.ShapeCasts SRow3)
    (hb : SRow3.Broadcasts SHWC) (h w : Fin 64) (c : Fin 128) :
    broadcastTo SHWC (shapeCast SRow3 (shapeCast SRow2 v h1) h2) hb (ix3 h w c) = v (ix3 (0 : Fin 1) (0 : Fin 1) c) := by
  rw [shapeCast_shapeCast]
  exact bcast_row3 v hb h w c

/-- A [1, C] row recast to [1, 1, C] and broadcast over [H, W, C] reads the row at the channel. -/
theorem bcast_row2 (v : SRow2.Idx → α) (h2 : SRow2.ShapeCasts SRow3) (hb : SRow3.Broadcasts SHWC)
    (h w : Fin 64) (c : Fin 128) :
    broadcastTo SHWC (shapeCast SRow3 v h2) hb (ix3 h w c) = v (ix2 (0 : Fin 1) c) := by
  rw [bcast_row3]
  exact shapeCast_ab_1ab_apply v h2 0 0 c

/-- Row `64 h + w` of the flattened image. -/
def flat (h w : Fin 64) : Fin 4096 := ⟨64 * h.val + w.val, by omega⟩

/-- [H, W, C] flattened to [H * W, C], read at row `64 h + w`. -/
theorem flatten_apply (v : SHWC.Idx → α) (hs : SHWC.ShapeCasts SFlat) (h w : Fin 64) (c : Fin 128) :
    shapeCast SFlat v hs (ix2 (flat h w) c) = v (ix3 h w c) :=
  shapeCast_apply v hs _ _ (by
    rw [Shape.rowMajor_val_three, Shape.rowMajor_val_two]
    show (h.val * 64 + w.val) * 128 + c.val = (64 * h.val + w.val) * 128 + c.val
    omega)

/-- [H * W, C] unflattened to [H, W, C], read at (h, w). -/
theorem unflatten_apply (v : SFlat.Idx → α) (hs : SFlat.ShapeCasts SHWC) (h w : Fin 64) (c : Fin 128) :
    shapeCast SHWC v hs (ix3 h w c) = v (ix2 (flat h w) c) :=
  shapeCast_apply v hs _ _ (by
    rw [Shape.rowMajor_val_three, Shape.rowMajor_val_two]
    show (64 * h.val + w.val) * 128 + c.val = (h.val * 64 + w.val) * 128 + c.val
    omega)

end Cert.LibWindowLoad

end
-- ==== Proof.KMatmul.lean ====
/-
  The kernel's two matrix products, each into a zero accumulator, read at an output element: the plain sum over
  the one contracted axis of the products of the left operand's row and the right operand's column.
-/
import proofs.«153769_g2000605849985115_pallasbulk_1241_2_alg».proof.Proof.Gen.KernelIdeal.Frame
import proofs.«153769_g2000605849985115_pallasbulk_1241_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue

open Idealize.ShloMosaic Idealize.ShloMosaic.ValueIdx
open Cert.KernelIdeal

theorem mm1_lhs0 (i : S4096x512.Idx) (q : dot_S4096x128_S128x512_S4096x512_1_0_0_1_n_n.contr.Idx) : (dot_S4096x128_S128x512_S4096x512_1_0_0_1_n_n.lhsIdx i q 0).val = (i 0).val := by
  unfold DotDims.lhsIdx
  rw [dif_neg (show ¬(0 : Fin S4096x128.rank) ∈ dot_S4096x128_S128x512_S4096x512_1_0_0_1_n_n.lhsBatch by decide), dif_pos (show (0 : Fin S4096x128.rank) ∈ dot_S4096x128_S128x512_S4096x512_1_0_0_1_n_n.lhsNonContracting by decide)]
  rfl

theorem mm1_lhs1 (i : S4096x512.Idx) (q : dot_S4096x128_S128x512_S4096x512_1_0_0_1_n_n.contr.Idx) : (dot_S4096x128_S128x512_S4096x512_1_0_0_1_n_n.lhsIdx i q 1).val = (q ⟨0, by decide⟩).val :=
  dot_S4096x128_S128x512_S4096x512_1_0_0_1_n_n.lhsIdx_val_of_single rfl i q

theorem mm1_rhs0 (i : S4096x512.Idx) (q : dot_S4096x128_S128x512_S4096x512_1_0_0_1_n_n.contr.Idx) : (dot_S4096x128_S128x512_S4096x512_1_0_0_1_n_n.rhsIdx i q 0).val = (q ⟨0, by decide⟩).val :=
  dot_S4096x128_S128x512_S4096x512_1_0_0_1_n_n.rhsIdx_val_of_single rfl i q

theorem mm1_rhs1 (i : S4096x512.Idx) (q : dot_S4096x128_S128x512_S4096x512_1_0_0_1_n_n.contr.Idx) : (dot_S4096x128_S128x512_S4096x512_1_0_0_1_n_n.rhsIdx i q 1).val = (i 1).val := by
  unfold DotDims.rhsIdx
  rw [dif_neg (show ¬(1 : Fin S128x512.rank) ∈ dot_S4096x128_S128x512_S4096x512_1_0_0_1_n_n.rhsBatch by decide), dif_pos (show (1 : Fin S128x512.rank) ∈ dot_S4096x128_S128x512_S4096x512_1_0_0_1_n_n.rhsNonContracting by decide)]
  rfl

/-- The product into a zero accumulator, at row `r` and column `c`, is the plain sum over the shared axis. -/
theorem mm1_apply {φ₁ φ₂ : FTy} (lhs : FVec Ideal S4096x128 φ₁) (rhs : FVec Ideal S128x512 φ₂) (r : Fin 4096) (c : Fin 512) :
    matmul dot_S4096x128_S128x512_S4096x512_1_0_0_1_n_n none lhs rhs (constant S4096x512 .f32 0x00000000#32) (ix2 r c)
      = ∑ k : Fin 128, lhs (ix2 r k) * rhs (ix2 k c) := by
  refine (Ideal.matmul_constant_zero_apply dot_S4096x128_S128x512_S4096x512_1_0_0_1_n_n none lhs rhs (ix2 r c)).trans ?_
  rw [← Equiv.sum_comp (contrEquiv1 dot_S4096x128_S128x512_S4096x512_1_0_0_1_n_n 128 rfl rfl).symm]
  refine Finset.sum_congr rfl fun k _ => ?_
  have hk := contrEquiv1_symm_val dot_S4096x128_S128x512_S4096x512_1_0_0_1_n_n 128 rfl rfl k
  have el : dot_S4096x128_S128x512_S4096x512_1_0_0_1_n_n.lhsIdx (ix2 r c) ((contrEquiv1 dot_S4096x128_S128x512_S4096x512_1_0_0_1_n_n 128 rfl rfl).symm k) = ix2 r k := funext fun a => Fin.ext (by
    match a with
    | ⟨0, _⟩ => exact mm1_lhs0 _ _
    | ⟨1, _⟩ => exact (mm1_lhs1 _ _).trans hk)
  have er : dot_S4096x128_S128x512_S4096x512_1_0_0_1_n_n.rhsIdx (ix2 r c) ((contrEquiv1 dot_S4096x128_S128x512_S4096x512_1_0_0_1_n_n 128 rfl rfl).symm k) = ix2 k c := funext fun a => Fin.ext (by
    match a with
    | ⟨0, _⟩ => exact (mm1_rhs0 _ _).trans hk
    | ⟨1, _⟩ => exact mm1_rhs1 _ _)
  rw [el, er]

theorem mm2_lhs0 (i : S4096x128.Idx) (q : dot_S4096x512_S512x128_S4096x128_1_0_0_1_n_n.contr.Idx) : (dot_S4096x512_S512x128_S4096x128_1_0_0_1_n_n.lhsIdx i q 0).val = (i 0).val := by
  unfold DotDims.lhsIdx
  rw [dif_neg (show ¬(0 : Fin S4096x512.rank) ∈ dot_S4096x512_S512x128_S4096x128_1_0_0_1_n_n.lhsBatch by decide), dif_pos (show (0 : Fin S4096x512.rank) ∈ dot_S4096x512_S512x128_S4096x128_1_0_0_1_n_n.lhsNonContracting by decide)]
  rfl

theorem mm2_lhs1 (i : S4096x128.Idx) (q : dot_S4096x512_S512x128_S4096x128_1_0_0_1_n_n.contr.Idx) : (dot_S4096x512_S512x128_S4096x128_1_0_0_1_n_n.lhsIdx i q 1).val = (q ⟨0, by decide⟩).val :=
  dot_S4096x512_S512x128_S4096x128_1_0_0_1_n_n.lhsIdx_val_of_single rfl i q

theorem mm2_rhs0 (i : S4096x128.Idx) (q : dot_S4096x512_S512x128_S4096x128_1_0_0_1_n_n.contr.Idx) : (dot_S4096x512_S512x128_S4096x128_1_0_0_1_n_n.rhsIdx i q 0).val = (q ⟨0, by decide⟩).val :=
  dot_S4096x512_S512x128_S4096x128_1_0_0_1_n_n.rhsIdx_val_of_single rfl i q

theorem mm2_rhs1 (i : S4096x128.Idx) (q : dot_S4096x512_S512x128_S4096x128_1_0_0_1_n_n.contr.Idx) : (dot_S4096x512_S512x128_S4096x128_1_0_0_1_n_n.rhsIdx i q 1).val = (i 1).val := by
  unfold DotDims.rhsIdx
  rw [dif_neg (show ¬(1 : Fin S512x128.rank) ∈ dot_S4096x512_S512x128_S4096x128_1_0_0_1_n_n.rhsBatch by decide), dif_pos (show (1 : Fin S512x128.rank) ∈ dot_S4096x512_S512x128_S4096x128_1_0_0_1_n_n.rhsNonContracting by decide)]
  rfl

/-- The product into a zero accumulator, at row `r` and column `c`, is the plain sum over the shared axis. -/
theorem mm2_apply {φ₁ φ₂ : FTy} (lhs : FVec Ideal S4096x512 φ₁) (rhs : FVec Ideal S512x128 φ₂) (r : Fin 4096) (c : Fin 128) :
    matmul dot_S4096x512_S512x128_S4096x128_1_0_0_1_n_n none lhs rhs (constant S4096x128 .f32 0x00000000#32) (ix2 r c)
      = ∑ k : Fin 512, lhs (ix2 r k) * rhs (ix2 k c) := by
  refine (Ideal.matmul_constant_zero_apply dot_S4096x512_S512x128_S4096x128_1_0_0_1_n_n none lhs rhs (ix2 r c)).trans ?_
  rw [← Equiv.sum_comp (contrEquiv1 dot_S4096x512_S512x128_S4096x128_1_0_0_1_n_n 512 rfl rfl).symm]
  refine Finset.sum_congr rfl fun k _ => ?_
  have hk := contrEquiv1_symm_val dot_S4096x512_S512x128_S4096x128_1_0_0_1_n_n 512 rfl rfl k
  have el : dot_S4096x512_S512x128_S4096x128_1_0_0_1_n_n.lhsIdx (ix2 r c) ((contrEquiv1 dot_S4096x512_S512x128_S4096x128_1_0_0_1_n_n 512 rfl rfl).symm k) = ix2 r k := funext fun a => Fin.ext (by
    match a with
    | ⟨0, _⟩ => exact mm2_lhs0 _ _
    | ⟨1, _⟩ => exact (mm2_lhs1 _ _).trans hk)
  have er : dot_S4096x512_S512x128_S4096x128_1_0_0_1_n_n.rhsIdx (ix2 r c) ((contrEquiv1 dot_S4096x512_S512x128_S4096x128_1_0_0_1_n_n 512 rfl rfl).symm k) = ix2 k c := funext fun a => Fin.ext (by
    match a with
    | ⟨0, _⟩ => exact (mm2_rhs0 _ _).trans hk
    | ⟨1, _⟩ => exact mm2_rhs1 _ _)
  rw [el, er]

end Cert.KernelIdeal.KValue

end
-- ==== Proof.KBody.lean ====
/-
  The kernel body's arithmetic at one element of the output block.

  The body keeps an accumulator over the [64, 64, C] image: it starts at the bias row and takes, tap by tap, the
  product of the image window shifted by the tap with the tap's weight row. Each of its named stages adds three or
  four taps; read at (h, w, c), a stage is the accumulator there plus the products there. The last stage adds the
  final two taps, flattens the image to 4096 rows, and applies the channel MLP to each row: two matrix products
  into zero accumulators (plain sums over the shared axis), the bias rows, and Hardswish between them. The result is
  unflattened, scaled per channel, and added to the residual window.
-/
import proofs.«153769_g2000605849985115_pallasbulk_1241_2_alg».proof.Proof.Gen.KernelIdeal.Frame
import proofs.«153769_g2000605849985115_pallasbulk_1241_2_alg».proof.Proof.Spec
import Idealize.ShloMosaic.Lib.StableHlo.Run
import Idealize.ShloMosaic.Lib.Pipeline.Value
import Idealize.ShloMosaic.Lib.ValueIdx
import Idealize.ShloMosaic.Lib.ValueLayout
import proofs.«153769_g2000605849985115_pallasbulk_1241_2_alg».proof.Proof.LibWindowLoad
import proofs.«153769_g2000605849985115_pallasbulk_1241_2_alg».proof.Proof.KMatmul

noncomputable section

namespace Cert.KernelIdeal.KValue

open Idealize.ShloMosaic Idealize.ShloMosaic.TcCoe Idealize.SL.Sem Idealize.ShloMosaic.ValueIdx
open Cert.KernelIdeal Cert.KernelIdeal.Gen Cert.LibWindowLoad

/-- The first stage: the bias row and the first three taps. -/
theorem pay2_apply (b : Vec Ideal S1x128 .f32) (w1 w2 w3 : Vec Ideal S1x64x64x128 .f32) (r1 r2 r3 : Vec Ideal S1x1x128 .f32)
    (h w : Fin 64) (c : Fin 128) :
    k0_pay2 b w1 r1 w2 r2 w3 r3 (ix3 h w c)
      = b (ix2 (0 : Fin 1) c) + w1 (ix4 (0 : Fin 1) h w c) * r1 (ix3 (0 : Fin 1) (0 : Fin 1) c)
        + w2 (ix4 (0 : Fin 1) h w c) * r2 (ix3 (0 : Fin 1) (0 : Fin 1) c)
        + w3 (ix4 (0 : Fin 1) h w c) * r3 (ix3 (0 : Fin 1) (0 : Fin 1) c) := by
  unfold k0_pay2
  simp only [addf_apply, mulf_apply, shapeCast_self, bcast_row3_recast, bcast_row2, shapeCast_1abc_abc_apply, shapeCast_1ab_ab_apply]

/-- A window carried to the next stage with its unit axis dropped. -/
theorem pay3_apply (v : Vec Ideal S1x64x64x128 .f32) (h w : Fin 64) (c : Fin 128) :
    k0_pay3 v (ix3 h w c) = v (ix4 (0 : Fin 1) h w c) := by
  unfold k0_pay3
  simp only [shapeCast_1abc_abc_apply]

/-- A window carried to the next stage with its unit axis dropped. -/
theorem pay5_apply (v : Vec Ideal S1x64x64x128 .f32) (h w : Fin 64) (c : Fin 128) :
    k0_pay5 v (ix3 h w c) = v (ix4 (0 : Fin 1) h w c) := by
  unfold k0_pay5
  simp only [shapeCast_1abc_abc_apply]

/-- A window carried to the next stage with its unit axis dropped. -/
theorem pay7_apply (v : Vec Ideal S1x64x64x128 .f32) (h w : Fin 64) (c : Fin 128) :
    k0_pay7 v (ix3 h w c) = v (ix4 (0 : Fin 1) h w c) := by
  unfold k0_pay7
  simp only [shapeCast_1abc_abc_apply]

/-- A window carried to the next stage with its unit axis dropped. -/
theorem pay9_apply (v : Vec Ideal S1x64x64x128 .f32) (h w : Fin 64) (c : Fin 128) :
    k0_pay9 v (ix3 h w c) = v (ix4 (0 : Fin 1) h w c) := by
  unfold k0_pay9
  simp only [shapeCast_1abc_abc_apply]

/-- A window carried to the next stage with its unit axis dropped. -/
theorem pay11_apply (v : Vec Ideal S1x64x64x128 .f32) (h w : Fin 64) (c : Fin 128) :
    k0_pay11 v (ix3 h w c) = v (ix4 (0 : Fin 1) h w c) := by
  unfold k0_pay11
  simp only [shapeCast_1abc_abc_apply]

/-- A window carried to the next stage with its unit axis dropped. -/
theorem pay13_apply (v : Vec Ideal S1x64x64x128 .f32) (h w : Fin 64) (c : Fin 128) :
    k0_pay13 v (ix3 h w c) = v (ix4 (0 : Fin 1) h w c) := by
  unfold k0_pay13
  simp only [shapeCast_1abc_abc_apply]

/-- A window carried to the next stage with its unit axis dropped. -/
theorem pay15_apply (v : Vec Ideal S1x64x64x128 .f32) (h w : Fin 64) (c : Fin 128) :
    k0_pay15 v (ix3 h w c) = v (ix4 (0 : Fin 1) h w c) := by
  unfold k0_pay15
  simp only [shapeCast_1abc_abc_apply]

/-- A window carried to the next stage with its unit axis dropped. -/
theorem pay17_apply (v : Vec Ideal S1x64x64x128 .f32) (h w : Fin 64) (c : Fin 128) :
    k0_pay17 v (ix3 h w c) = v (ix4 (0 : Fin 1) h w c) := by
  unfold k0_pay17
  simp only [shapeCast_1abc_abc_apply]

/-- A window carried to the next stage with its unit axis dropped. -/
theorem pay19_apply (v : Vec Ideal S1x64x64x128 .f32) (h w : Fin 64) (c : Fin 128) :
    k0_pay19 v (ix3 h w c) = v (ix4 (0 : Fin 1) h w c) := by
  unfold k0_pay19
  simp only [shapeCast_1abc_abc_apply]

/-- A window carried to the next stage with its unit axis dropped. -/
theorem pay21_apply (v : Vec Ideal S1x64x64x128 .f32) (h w : Fin 64) (c : Fin 128) :
    k0_pay21 v (ix3 h w c) = v (ix4 (0 : Fin 1) h w c) := by
  unfold k0_pay21
  simp only [shapeCast_1abc_abc_apply]

/-- A window carried to the next stage with its unit axis dropped. -/
theorem pay23_apply (v : Vec Ideal S1x64x64x128 .f32) (h w : Fin 64) (c : Fin 128) :
    k0_pay23 v (ix3 h w c) = v (ix4 (0 : Fin 1) h w c) := by
  unfold k0_pay23
  simp only [shapeCast_1abc_abc_apply]

/-- A window carried to the next stage with its unit axis dropped. -/
theorem pay25_apply (v : Vec Ideal S1x64x64x128 .f32) (h w : Fin 64) (c : Fin 128) :
    k0_pay25 v (ix3 h w c) = v (ix4 (0 : Fin 1) h w c) := by
  unfold k0_pay25
  simp only [shapeCast_1abc_abc_apply]

/-- A stage of four taps: the carried window first, then three loaded ones. -/
theorem pay4_apply (a v0 : FVec Ideal S64x64x128 .f32) (r0 r1 r2 r3 : Vec Ideal S1x1x128 .f32) (w1 w2 w3 : Vec Ideal S1x64x64x128 .f32)
    (h w : Fin 64) (c : Fin 128) :
    k0_pay4 a v0 r0 w1 r1 w2 r2 w3 r3 (ix3 h w c)
      = a (ix3 h w c) + v0 (ix3 h w c) * r0 (ix3 (0 : Fin 1) (0 : Fin 1) c)
        + w1 (ix4 (0 : Fin 1) h w c) * r1 (ix3 (0 : Fin 1) (0 : Fin 1) c)
        + w2 (ix4 (0 : Fin 1) h w c) * r2 (ix3 (0 : Fin 1) (0 : Fin 1) c)
        + w3 (ix4 (0 : Fin 1) h w c) * r3 (ix3 (0 : Fin 1) (0 : Fin 1) c) := by
  unfold k0_pay4
  simp only [addf_apply, mulf_apply, shapeCast_self, bcast_row3_recast, bcast_row2, shapeCast_1abc_abc_apply, shapeCast_1ab_ab_apply]

/-- A stage of four taps: the carried window first, then three loaded ones. -/
theorem pay6_apply (a v0 : FVec Ideal S64x64x128 .f32) (r0 r1 r2 r3 : Vec Ideal S1x1x128 .f32) (w1 w2 w3 : Vec Ideal S1x64x64x128 .f32)
    (h w : Fin 64) (c : Fin 128) :
    k0_pay6 a v0 r0 w1 r1 w2 r2 w3 r3 (ix3 h w c)
      = a (ix3 h w c) + v0 (ix3 h w c) * r0 (ix3 (0 : Fin 1) (0 : Fin 1) c)
        + w1 (ix4 (0 : Fin 1) h w c) * r1 (ix3 (0 : Fin 1) (0 : Fin 1) c)
        + w2 (ix4 (0 : Fin 1) h w c) * r2 (ix3 (0 : Fin 1) (0 : Fin 1) c)
        + w3 (ix4 (0 : Fin 1) h w c) * r3 (ix3 (0 : Fin 1) (0 : Fin 1) c) := by
  unfold k0_pay6
  simp only [addf_apply, mulf_apply, shapeCast_self, bcast_row3_recast, bcast_row2, shapeCast_1abc_abc_apply, shapeCast_1ab_ab_apply]

/-- A stage of four taps: the carried window first, then three loaded ones. -/
theorem pay8_apply (a v0 : FVec Ideal S64x64x128 .f32) (r0 r1 r2 r3 : Vec Ideal S1x1x128 .f32) (w1 w2 w3 : Vec Ideal S1x64x64x128 .f32)
    (h w : Fin 64) (c : Fin 128) :
    k0_pay8 a v0 r0 w1 r1 w2 r2 w3 r3 (ix3 h w c)
      = a (ix3 h w c) + v0 (ix3 h w c) * r0 (ix3 (0 : Fin 1) (0 : Fin 1) c)
        + w1 (ix4 (0 : Fin 1) h w c) * r1 (ix3 (0 : Fin 1) (0 : Fin 1) c)
        + w2 (ix4 (0 : Fin 1) h w c) * r2 (ix3 (0 : Fin 1) (0 : Fin 1) c)
        + w3 (ix4 (0 : Fin 1) h w c) * r3 (ix3 (0 : Fin 1) (0 : Fin 1) c) := by
  unfold k0_pay8
  simp only [addf_apply, mulf_apply, shapeCast_self, bcast_row3_recast, bcast_row2, shapeCast_1abc_abc_apply, shapeCast_1ab_ab_apply]

/-- A stage of four taps: the carried window first, then three loaded ones. -/
theorem pay10_apply (a v0 : FVec Ideal S64x64x128 .f32) (r0 r1 r2 r3 : Vec Ideal S1x1x128 .f32) (w1 w2 w3 : Vec Ideal S1x64x64x128 .f32)
    (h w : Fin 64) (c : Fin 128) :
    k0_pay10 a v0 r0 w1 r1 w2 r2 w3 r3 (ix3 h w c)
      = a (ix3 h w c) + v0 (ix3 h w c) * r0 (ix3 (0 : Fin 1) (0 : Fin 1) c)
        + w1 (ix4 (0 : Fin 1) h w c) * r1 (ix3 (0 : Fin 1) (0 : Fin 1) c)
        + w2 (ix4 (0 : Fin 1) h w c) * r2 (ix3 (0 : Fin 1) (0 : Fin 1) c)
        + w3 (ix4 (0 : Fin 1) h w c) * r3 (ix3 (0 : Fin 1) (0 : Fin 1) c) := by
  unfold k0_pay10
  simp only [addf_apply, mulf_apply, shapeCast_self, bcast_row3_recast, bcast_row2, shapeCast_1abc_abc_apply, shapeCast_1ab_ab_apply]

/-- A stage of four taps: the carried window first, then three loaded ones. -/
theorem pay12_apply (a v0 : FVec Ideal S64x64x128 .f32) (r0 r1 r2 r3 : Vec Ideal S1x1x128 .f32) (w1 w2 w3 : Vec Ideal S1x64x64x128 .f32)
    (h w : Fin 64) (c : Fin 128) :
    k0_pay12 a v0 r0 w1 r1 w2 r2 w3 r3 (ix3 h w c)
      = a (ix3 h w c) + v0 (ix3 h w c) * r0 (ix3 (0 : Fin 1) (0 : Fin 1) c)
        + w1 (ix4 (0 : Fin 1) h w c) * r1 (ix3 (0 : Fin 1) (0 : Fin 1) c)
        + w2 (ix4 (0 : Fin 1) h w c) * r2 (ix3 (0 : Fin 1) (0 : Fin 1) c)
        + w3 (ix4 (0 : Fin 1) h w c) * r3 (ix3 (0 : Fin 1) (0 : Fin 1) c) := by
  unfold k0_pay12
  simp only [addf_apply, mulf_apply, shapeCast_self, bcast_row3_recast, bcast_row2, shapeCast_1abc_abc_apply, shapeCast_1ab_ab_apply]

/-- A stage of four taps: the carried window first, then three loaded ones. -/
theorem pay14_apply (a v0 : FVec Ideal S64x64x128 .f32) (r0 r1 r2 r3 : Vec Ideal S1x1x128 .f32) (w1 w2 w3 : Vec Ideal S1x64x64x128 .f32)
    (h w : Fin 64) (c : Fin 128) :
    k0_pay14 a v0 r0 w1 r1 w2 r2 w3 r3 (ix3 h w c)
      = a (ix3 h w c) + v0 (ix3 h w c) * r0 (ix3 (0 : Fin 1) (0 : Fin 1) c)
        + w1 (ix4 (0 : Fin 1) h w c) * r1 (ix3 (0 : Fin 1) (0 : Fin 1) c)
        + w2 (ix4 (0 : Fin 1) h w c) * r2 (ix3 (0 : Fin 1) (0 : Fin 1) c)
        + w3 (ix4 (0 : Fin 1) h w c) * r3 (ix3 (0 : Fin 1) (0 : Fin 1) c) := by
  unfold k0_pay14
  simp only [addf_apply, mulf_apply, shapeCast_self, bcast_row3_recast, bcast_row2, shapeCast_1abc_abc_apply, shapeCast_1ab_ab_apply]

/-- A stage of four taps: the carried window first, then three loaded ones. -/
theorem pay16_apply (a v0 : FVec Ideal S64x64x128 .f32) (r0 r1 r2 r3 : Vec Ideal S1x1x128 .f32) (w1 w2 w3 : Vec Ideal S1x64x64x128 .f32)
    (h w : Fin 64) (c : Fin 128) :
    k0_pay16 a v0 r0 w1 r1 w2 r2 w3 r3 (ix3 h w c)
      = a (ix3 h w c) + v0 (ix3 h w c) * r0 (ix3 (0 : Fin 1) (0 : Fin 1) c)
        + w1 (ix4 (0 : Fin 1) h w c) * r1 (ix3 (0 : Fin 1) (0 : Fin 1) c)
        + w2 (ix4 (0 : Fin 1) h w c) * r2 (ix3 (0 : Fin 1) (0 : Fin 1) c)
        + w3 (ix4 (0 : Fin 1) h w c) * r3 (ix3 (0 : Fin 1) (0 : Fin 1) c) := by
  unfold k0_pay16
  simp only [addf_apply, mulf_apply, shapeCast_self, bcast_row3_recast, bcast_row2, shapeCast_1abc_abc_apply, shapeCast_1ab_ab_apply]

/-- A stage of four taps: the carried window first, then three loaded ones. -/
theorem pay18_apply (a v0 : FVec Ideal S64x64x128 .f32) (r0 r1 r2 r3 : Vec Ideal S1x1x128 .f32) (w1 w2 w3 : Vec Ideal S1x64x64x128 .f32)
    (h w : Fin 64) (c : Fin 128) :
    k0_pay18 a v0 r0 w1 r1 w2 r2 w3 r3 (ix3 h w c)
      = a (ix3 h w c) + v0 (ix3 h w c) * r0 (ix3 (0 : Fin 1) (0 : Fin 1) c)
        + w1 (ix4 (0 : Fin 1) h w c) * r1 (ix3 (0 : Fin 1) (0 : Fin 1) c)
        + w2 (ix4 (0 : Fin 1) h w c) * r2 (ix3 (0 : Fin 1) (0 : Fin 1) c)
        + w3 (ix4 (0 : Fin 1) h w c) * r3 (ix3 (0 : Fin 1) (0 : Fin 1) c) := by
  unfold k0_pay18
  simp only [addf_apply, mulf_apply, shapeCast_self, bcast_row3_recast, bcast_row2, shapeCast_1abc_abc_apply, shapeCast_1ab_ab_apply]

/-- A stage of four taps: the carried window first, then three loaded ones. -/
theorem pay20_apply (a v0 : FVec Ideal S64x64x128 .f32) (r0 r1 r2 r3 : Vec Ideal S1x1x128 .f32) (w1 w2 w3 : Vec Ideal S1x64x64x128 .f32)
    (h w : Fin 64) (c : Fin 128) :
    k0_pay20 a v0 r0 w1 r1 w2 r2 w3 r3 (ix3 h w c)
      = a (ix3 h w c) + v0 (ix3 h w c) * r0 (ix3 (0 : Fin 1) (0 : Fin 1) c)
        + w1 (ix4 (0 : Fin 1) h w c) * r1 (ix3 (0 : Fin 1) (0 : Fin 1) c)
        + w2 (ix4 (0 : Fin 1) h w c) * r2 (ix3 (0 : Fin 1) (0 : Fin 1) c)
        + w3 (ix4 (0 : Fin 1) h w c) * r3 (ix3 (0 : Fin 1) (0 : Fin 1) c) := by
  unfold k0_pay20
  simp only [addf_apply, mulf_apply, shapeCast_self, bcast_row3_recast, bcast_row2, shapeCast_1abc_abc_apply, shapeCast_1ab_ab_apply]

/-- A stage of four taps: the carried window first, then three loaded ones. -/
theorem pay22_apply (a v0 : FVec Ideal S64x64x128 .f32) (r0 r1 r2 r3 : Vec Ideal S1x1x128 .f32) (w1 w2 w3 : Vec Ideal S1x64x64x128 .f32)
    (h w : Fin 64) (c : Fin 128) :
    k0_pay22 a v0 r0 w1 r1 w2 r2 w3 r3 (ix3 h w c)
      = a (ix3 h w c) + v0 (ix3 h w c) * r0 (ix3 (0 : Fin 1) (0 : Fin 1) c)
        + w1 (ix4 (0 : Fin 1) h w c) * r1 (ix3 (0 : Fin 1) (0 : Fin 1) c)
        + w2 (ix4 (0 : Fin 1) h w c) * r2 (ix3 (0 : Fin 1) (0 : Fin 1) c)
        + w3 (ix4 (0 : Fin 1) h w c) * r3 (ix3 (0 : Fin 1) (0 : Fin 1) c) := by
  unfold k0_pay22
  simp only [addf_apply, mulf_apply, shapeCast_self, bcast_row3_recast, bcast_row2, shapeCast_1abc_abc_apply, shapeCast_1ab_ab_apply]

/-- A stage of four taps: the carried window first, then three loaded ones. -/
theorem pay24_apply (a v0 : FVec Ideal S64x64x128 .f32) (r0 r1 r2 r3 : Vec Ideal S1x1x128 .f32) (w1 w2 w3 : Vec Ideal S1x64x64x128 .f32)
    (h w : Fin 64) (c : Fin 128) :
    k0_pay24 a v0 r0 w1 r1 w2 r2 w3 r3 (ix3 h w c)
      = a (ix3 h w c) + v0 (ix3 h w c) * r0 (ix3 (0 : Fin 1) (0 : Fin 1) c)
        + w1 (ix4 (0 : Fin 1) h w c) * r1 (ix3 (0 : Fin 1) (0 : Fin 1) c)
        + w2 (ix4 (0 : Fin 1) h w c) * r2 (ix3 (0 : Fin 1) (0 : Fin 1) c)
        + w3 (ix4 (0 : Fin 1) h w c) * r3 (ix3 (0 : Fin 1) (0 : Fin 1) c) := by
  unfold k0_pay24
  simp only [addf_apply, mulf_apply, shapeCast_self, bcast_row3_recast, bcast_row2, shapeCast_1abc_abc_apply, shapeCast_1ab_ab_apply]

/-- The last stage: the final two taps, then the MLP of row `64 h + w`, before its second bias. -/
theorem pay26_apply (a v0 : FVec Ideal S64x64x128 .f32) (r0 r1 : Vec Ideal S1x1x128 .f32) (w1 : Vec Ideal S1x64x64x128 .f32)
    (W1 : Vec Ideal S128x512 .bf16) (B1 : Vec Ideal S1x512 .f32) (W2 : Vec Ideal S512x128 .bf16)
    (h w : Fin 64) (c : Fin 128) :
    k0_pay26 a v0 r0 w1 r1 W1 B1 W2 (ix2 (flat h w) c)
      = ∑ e : Fin 512, Spec.hsw ((∑ k : Fin 128,
            (a (ix3 h w k) + v0 (ix3 h w k) * r0 (ix3 (0 : Fin 1) (0 : Fin 1) k) + w1 (ix4 (0 : Fin 1) h w k) * r1 (ix3 (0 : Fin 1) (0 : Fin 1) k))
              * W1 (ix2 k e)) + B1 (ix2 (0 : Fin 1) e)) * W2 (ix2 e c) := by
  unfold k0_pay26
  rw [mm2_apply]
  refine Finset.sum_congr rfl fun e _ => ?_
  simp only [mm1_apply, truncf_apply, flatten_apply, addf_apply, mulf_apply, shapeCast_self, bcast_row3_recast, shapeCast_1abc_abc_apply,
    shapeCast_1ab_ab_apply, broadcastTo_1b_ab_apply, minimumf_apply, maximumf_apply, broadcast_apply]
  rfl

/-- The end of the body: the second bias, the per-channel scale, the residual. -/
theorem pay1_apply (y : FVec Ideal S4096x128 .f32) (b2 g : Vec Ideal S1x128 .f32) (xr : Vec Ideal S1x64x64x128 .f32)
    (h w : Fin 64) (c : Fin 128) :
    k0_pay1 y b2 xr g (ix4 (0 : Fin 1) h w c)
      = xr (ix4 (0 : Fin 1) h w c) + g (ix2 (0 : Fin 1) c) * (y (ix2 (flat h w) c) + b2 (ix2 (0 : Fin 1) c)) := by
  unfold k0_pay1
  simp only [shapeCast_abc_1abc_apply, addf_apply, mulf_apply, shapeCast_self, bcast_row2, shapeCast_1abc_abc_apply,
    unflatten_apply, broadcastTo_1b_ab_apply]

end Cert.KernelIdeal.KValue

end
-- ==== Proof.KBlock.lean ====
/-
  One element of the block the kernel writes at a grid point, as a function of the eight input blocks: the residual
  (the image window at the centre tap) plus the channel's scale times the MLP of the convolved row, the convolved
  row being the bias plus the 49 products of shifted image and weight.
-/
import proofs.«153769_g2000605849985115_pallasbulk_1241_2_alg».proof.Proof.Gen.KernelIdeal.Frame
import proofs.«153769_g2000605849985115_pallasbulk_1241_2_alg».proof.Proof.Spec
import Idealize.ShloMosaic.Lib.StableHlo.Run
import Idealize.ShloMosaic.Lib.Pipeline.Value
import Idealize.ShloMosaic.Lib.ValueIdx
import Idealize.ShloMosaic.Lib.ValueLayout
import proofs.«153769_g2000605849985115_pallasbulk_1241_2_alg».proof.Proof.KBody

noncomputable section

namespace Cert.KernelIdeal.KValue

open Idealize.ShloMosaic Idealize.ShloMosaic.TcCoe Idealize.SL.Sem Idealize.ShloMosaic.ValueIdx
open Cert.KernelIdeal Cert.KernelIdeal.Gen Cert.LibWindowLoad

theorem hz4 : (![0, 0, 0, 0] : Fin 4 → ℕ) = fun _ => 0 := by funext a; fin_cases a <;> rfl
theorem hz2 : (![0, 0] : Fin 2 → ℕ) = fun _ => 0 := by funext a; fin_cases a <;> rfl

theorem out_block (x0 : Vec Ideal S1x70x70x128 .f32) (x1 : Vec Ideal S7x7x128 .f32) (x2 : Vec Ideal S1x128 .f32)
    (x3 : Vec Ideal S128x512 .bf16) (x4 : Vec Ideal S1x512 .f32) (x5 : Vec Ideal S512x128 .bf16) (x6 x7 : Vec Ideal S1x128 .f32)
    (h w : Fin 64) (c : Fin 128) :
    out0_8 x0 x1 x2 x3 x4 x5 x6 x7 (ix4 (0 : Fin 1) h w c)
      = x0 (ix4 (0 : Fin 1) (Spec.sh h 3) (Spec.sh w 3) c)
        + x7 (ix2 (0 : Fin 1) c)
          * Spec.mlpAt (fun k => Spec.tapSum (fun kh kw => x0 (ix4 (0 : Fin 1) (Spec.sh h kh) (Spec.sh w kw) k) * x1 (ix3 kh kw k))
              (x2 (ix2 (0 : Fin 1) k))) x3 x4 x5 x6 c := by
  unfold out0_8
  rw [View.canon_unit_zero hz4]
  simp only [View.ld_unit_zero (S := S1x128) hz2, View.ld_unit_zero (S := S128x512) hz2, View.ld_unit_zero (S := S1x512) hz2,
    View.ld_unit_zero (S := S512x128) hz2]
  rw [pay1_apply, pay26_apply]
  simp only [pay24_apply, pay22_apply, pay20_apply, pay18_apply, pay16_apply, pay14_apply, pay12_apply, pay10_apply, pay8_apply, pay6_apply, pay4_apply, pay2_apply,
    pay25_apply, pay23_apply, pay21_apply, pay19_apply, pay17_apply, pay15_apply, pay13_apply, pay11_apply, pay9_apply, pay7_apply, pay5_apply, pay3_apply]
  simp only [
    ld_window_at x0 0 0 _ h w, ld_row_at x1 0 0 _, ld_window_at x0 0 1 _ h w, ld_row_at x1 0 1 _, ld_window_at x0 0 2 _ h w, ld_row_at x1 0 2 _,
    ld_window_at x0 0 3 _ h w, ld_row_at x1 0 3 _, ld_window_at x0 0 4 _ h w, ld_row_at x1 0 4 _, ld_window_at x0 0 5 _ h w, ld_row_at x1 0 5 _,
    ld_window_at x0 0 6 _ h w, ld_row_at x1 0 6 _, ld_window_at x0 1 0 _ h w, ld_row_at x1 1 0 _, ld_window_at x0 1 1 _ h w, ld_row_at x1 1 1 _,
    ld_window_at x0 1 2 _ h w, ld_row_at x1 1 2 _, ld_window_at x0 1 3 _ h w, ld_row_at x1 1 3 _, ld_window_at x0 1 4 _ h w, ld_row_at x1 1 4 _,
    ld_window_at x0 1 5 _ h w, ld_row_at x1 1 5 _, ld_window_at x0 1 6 _ h w, ld_row_at x1 1 6 _, ld_window_at x0 2 0 _ h w, ld_row_at x1 2 0 _,
    ld_window_at x0 2 1 _ h w, ld_row_at x1 2 1 _, ld_window_at x0 2 2 _ h w, ld_row_at x1 2 2 _, ld_window_at x0 2 3 _ h w, ld_row_at x1 2 3 _,
    ld_window_at x0 2 4 _ h w, ld_row_at x1 2 4 _, ld_window_at x0 2 5 _ h w, ld_row_at x1 2 5 _, ld_window_at x0 2 6 _ h w, ld_row_at x1 2 6 _,
    ld_window_at x0 3 0 _ h w, ld_row_at x1 3 0 _, ld_window_at x0 3 1 _ h w, ld_row_at x1 3 1 _, ld_window_at x0 3 2 _ h w, ld_row_at x1 3 2 _,
    ld_window_at x0 3 3 _ h w, ld_row_at x1 3 3 _, ld_window_at x0 3 4 _ h w, ld_row_at x1 3 4 _, ld_window_at x0 3 5 _ h w, ld_row_at x1 3 5 _,
    ld_window_at x0 3 6 _ h w, ld_row_at x1 3 6 _, ld_window_at x0 4 0 _ h w, ld_row_at x1 4 0 _, ld_window_at x0 4 1 _ h w, ld_row_at x1 4 1 _,
    ld_window_at x0 4 2 _ h w, ld_row_at x1 4 2 _, ld_window_at x0 4 3 _ h w, ld_row_at x1 4 3 _, ld_window_at x0 4 4 _ h w, ld_row_at x1 4 4 _,
    ld_window_at x0 4 5 _ h w, ld_row_at x1 4 5 _, ld_window_at x0 4 6 _ h w, ld_row_at x1 4 6 _, ld_window_at x0 5 0 _ h w, ld_row_at x1 5 0 _,
    ld_window_at x0 5 1 _ h w, ld_row_at x1 5 1 _, ld_window_at x0 5 2 _ h w, ld_row_at x1 5 2 _, ld_window_at x0 5 3 _ h w, ld_row_at x1 5 3 _,
    ld_window_at x0 5 4 _ h w, ld_row_at x1 5 4 _, ld_window_at x0 5 5 _ h w, ld_row_at x1 5 5 _, ld_window_at x0 5 6 _ h w, ld_row_at x1 5 6 _,
    ld_window_at x0 6 0 _ h w, ld_row_at x1 6 0 _, ld_window_at x0 6 1 _ h w, ld_row_at x1 6 1 _, ld_window_at x0 6 2 _ h w, ld_row_at x1 6 2 _,
    ld_window_at x0 6 3 _ h w, ld_row_at x1 6 3 _, ld_window_at x0 6 4 _ h w, ld_row_at x1 6 4 _, ld_window_at x0 6 5 _ h w, ld_row_at x1 6 5 _,
    ld_window_at x0 6 6 _ h w, ld_row_at x1 6 6 _]
  simp only [Spec.mlpAt, Spec.hidden, Spec.tapSum, Spec.taps, List.foldl_cons, List.foldl_nil]
  rfl

end Cert.KernelIdeal.KValue

end
-- ==== Proof.KHost.lean ====
/-
  The kernel's eight input arrays as its one region finds them: each is a fixed composition of layout operations
  and pointwise arithmetic of the argument arrays — the padded channels-last input, the scaled depthwise weights,
  the folded bias, the two weight matrices (their change of float format is the identity on the extended reals)
  and the three bias / scale rows.
-/
import proofs.«153769_g2000605849985115_pallasbulk_1241_2_alg».proof.Proof.Gen.KernelIdeal.Frame
import proofs.«153769_g2000605849985115_pallasbulk_1241_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.KValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The argument arrays, named as the specification names them. -/
abbrev ax (c : Dev nD) : Spec.A Spec.SX := m ((c : Thread nD τ).loc main_arg0)
abbrev awdw (c : Dev nD) : Spec.A Spec.SWd := m ((c : Thread nD τ).loc main_arg1)
abbrev abdw (c : Dev nD) : Spec.A Spec.SC := m ((c : Thread nD τ).loc main_arg2)
abbrev abnw (c : Dev nD) : Spec.A Spec.SC := m ((c : Thread nD τ).loc main_arg3)
abbrev abnb (c : Dev nD) : Spec.A Spec.SC := m ((c : Thread nD τ).loc main_arg4)
abbrev abnm (c : Dev nD) : Spec.A Spec.SC := m ((c : Thread nD τ).loc main_arg5)
abbrev abnv (c : Dev nD) : Spec.A Spec.SC := m ((c : Thread nD τ).loc main_arg6)
abbrev aw1 (c : Dev nD) : Spec.A Spec.SW1 := m ((c : Thread nD τ).loc main_arg7)
abbrev ab1 (c : Dev nD) : Spec.A Spec.SE := m ((c : Thread nD τ).loc main_arg8)
abbrev aw2 (c : Dev nD) : Spec.A Spec.SW2 := m ((c : Thread nD τ).loc main_arg9)
abbrev ab2 (c : Dev nD) : Spec.A Spec.SC := m ((c : Thread nD τ).loc main_arg10)
abbrev ag (c : Dev nD) : Spec.A Spec.SC := m ((c : Thread nD τ).loc main_arg11)

/-- The per-channel scale the kernel's program folds into the convolution. -/
abbrev sK (hf : Spec.HostFacts) (c : Dev nD) : Spec.A Spec.SC := Spec.scaleK hf (abnw m c) (abnv m c)

theorem V_xpad (hf : Spec.HostFacts) (c : Dev nD) :
    (V m c main_v14 : Spec.SP.Idx → EReal) = Spec.xpad hf (ax m c) := by
  dsimp only [V, V0]
  simp only [hostOps0, hostOps0_1, hostOps0_2, List.flatten_cons, List.flatten_nil, List.append_nil, List.cons_append, List.nil_append]
  after_results
  rfl

theorem V_weff (hf : Spec.HostFacts) (c : Dev nD) :
    (V m c main_v8 : Spec.SK.Idx → EReal) = Spec.weff hf (awdw m c) (sK m hf c) := by
  dsimp only [V, V0]
  simp only [hostOps0, hostOps0_1, hostOps0_2, List.flatten_cons, List.flatten_nil, List.append_nil, List.cons_append, List.nil_append]
  after_results
  rfl

theorem V_beff (hf : Spec.HostFacts) (c : Dev nD) :
    (V m c main_v12 : Spec.SRC.Idx → EReal) = Spec.beff hf (abdw m c) (abnm m c) (abnb m c) (sK m hf c) := by
  dsimp only [V, V0]
  simp only [hostOps0, hostOps0_1, hostOps0_2, List.flatten_cons, List.flatten_nil, List.append_nil, List.cons_append, List.nil_append]
  after_results
  rfl

theorem V_w1 (c : Dev nD) : (V m c main_v15 : Spec.SW1.Idx → EReal) = aw1 m c := by
  dsimp only [V, V0]
  simp only [hostOps0, hostOps0_1, hostOps0_2, List.flatten_cons, List.flatten_nil, List.append_nil, List.cons_append, List.nil_append]
  after_results
  rfl

theorem V_b1 (hf : Spec.HostFacts) (c : Dev nD) : (V m c main_v16 : Spec.SRE.Idx → EReal) = Spec.rowE hf (ab1 m c) := by
  dsimp only [V, V0]
  simp only [hostOps0, hostOps0_1, hostOps0_2, List.flatten_cons, List.flatten_nil, List.append_nil, List.cons_append, List.nil_append]
  after_results
  rfl

theorem V_w2 (c : Dev nD) : (V m c main_v17 : Spec.SW2.Idx → EReal) = aw2 m c := by
  dsimp only [V, V0]
  simp only [hostOps0, hostOps0_1, hostOps0_2, List.flatten_cons, List.flatten_nil, List.append_nil, List.cons_append, List.nil_append]
  after_results
  rfl

theorem V_b2 (hf : Spec.HostFacts) (c : Dev nD) : (V m c main_v18 : Spec.SRC.Idx → EReal) = Spec.rowC hf (ab2 m c) := by
  dsimp only [V, V0]
  simp only [hostOps0, hostOps0_1, hostOps0_2, List.flatten_cons, List.flatten_nil, List.append_nil, List.cons_append, List.nil_append]
  after_results
  rfl

theorem V_g (hf : Spec.HostFacts) (c : Dev nD) : (V m c main_v19 : Spec.SRC.Idx → EReal) = Spec.rowC hf (ag m c) := by
  dsimp only [V, V0]
  simp only [hostOps0, hostOps0_1, hostOps0_2, List.flatten_cons, List.flatten_nil, List.append_nil, List.cons_append, List.nil_append]
  after_results
  rfl

end Cert.KernelIdeal.KValue

end
-- ==== Proof.KValue.lean ====
import proofs.«153769_g2000605849985115_pallasbulk_1241_2_alg».proof.Proof.KBlock
import proofs.«153769_g2000605849985115_pallasbulk_1241_2_alg».proof.Proof.KHost
import Idealize.ShloMosaic.Lib.KernelVsHost

/-!
  The kernel's result array, and its run.

  The kernel's one region walks the 16 images. At image `t` it stages image `t` of the padded channels-last input
  (70 by 70 positions), and the scaled weights, the folded bias, the two weight matrices and the three rows whole; it
  writes back image `t` of the result. The centre tap of the padded image at `(h, w)` is the input at `(h, w)`: the
  three rows and columns of zeros on every side are never read there, so the residual is the input itself. After the
  region the host transposes the result to channels first.
-/

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen

/-- The centre tap of the padded input is the input: the padding is not read there. -/
theorem pad_interior (hf : Spec.HostFacts) (x : Spec.A Spec.SX) (n : Fin 16) (h w : Fin 64) (c : Fin 128) :
    Spec.xpad hf x (ix4 n (Spec.sh h 3) (Spec.sh w 3) c) = Spec.xT hf x (ix4 n h w c) := by
  unfold Spec.xpad
  refine pad_apply_of_inside _ _ _ _ _ hf.padX hf.h0 (ix4 n (Spec.sh h 3) (Spec.sh w 3) c) (ix4 n h w c) fun a => ?_
  match a with
  | ⟨0, _⟩ => show n.val = 0 + n.val * (0 + 1); omega
  | ⟨1, _⟩ => show h.val + 3 = 3 + h.val * (0 + 1); omega
  | ⟨2, _⟩ => show w.val + 3 = 3 + w.val * (0 + 1); omega
  | ⟨3, _⟩ => show c.val = 0 + c.val * (0 + 1); omega

/-- The windows' block indices over the grid: the image window and the result window move with the point, the
    others stay. -/
theorem idx_facts0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 4) = t.val ∧ win0_8.index t (1 : Fin 4) = 0 ∧ win0_8.index t (2 : Fin 4) = 0 ∧ win0_8.index t (3 : Fin 4) = 0 :=
  (by decide +kernel : ∀ t : Fin grid0.N, _)

/-- The image a grid point works on. -/
def imgIx (t : Fin cfg0.N) : Fin 16 := ⟨t.val, lt_of_lt_of_eq t.isLt N_0⟩

section Region

variable (m : (ℓ : Loc nD τ sig) → Buf (Elt Ideal) ℓ)

/-- The image window's block at point `t` is image `t` of the padded array. -/
theorem iblk_0_apply (c : Dev nD) (t : Fin cfg0.N) (a b : Fin 70) (k : Fin 128) :
    iblk m c 0 t (ix4 (0 : Fin 1) a b k) = V m c main_v14 (ix4 (imgIx t) a b k) := by
  obtain ⟨e0, e1, e2, e3, -, -, -, -, -, -, -, -, -, -, -, -, -, -, -, -, -, -, -⟩ := idx_facts0 t
  show V m c main_v14 (((cfg0.win 0).blk t).view.emb (ix4 (0 : Fin 1) a b k)) = V m c main_v14 (ix4 (imgIx t) a b k)
  refine congrArg _ (funext fun ax => Fin.ext ?_)
  match ax with
  | ⟨0, _⟩ => show win0_0.index t (0 : Fin 4) * 1 + 1 * 0 = t.val; rw [e0]; omega
  | ⟨1, _⟩ => show win0_0.index t (1 : Fin 4) * 70 + 1 * a.val = a.val; rw [e1]; omega
  | ⟨2, _⟩ => show win0_0.index t (2 : Fin 4) * 70 + 1 * b.val = b.val; rw [e2]; omega
  | ⟨3, _⟩ => show win0_0.index t (3 : Fin 4) * 128 + 1 * k.val = k.val; rw [e3]; omega

/-- Window 1 stages its whole array at every point. -/
theorem iblk_1_eq (c : Dev nD) (t : Fin cfg0.N) : (iblk m c 1 t : Vec Ideal S7x7x128 .f32) = V m c main_v8 := by
  funext y
  obtain ⟨-, -, -, -, e0, e1, e2, -, -, -, -, -, -, -, -, -, -, -, -, -, -, -, -⟩ := idx_facts0 t
  show V m c main_v8 (((cfg0.win 1).blk t).view.emb y) = V m c main_v8 y
  refine congrArg _ (funext fun a => Fin.ext ?_)
  match a with
  | ⟨0, _⟩ => show win0_1.index t (0 : Fin 3) * 7 + 1 * (y 0).val = (y 0).val; rw [e0]; omega
  | ⟨1, _⟩ => show win0_1.index t (1 : Fin 3) * 7 + 1 * (y 1).val = (y 1).val; rw [e1]; omega
  | ⟨2, _⟩ => show win0_1.index t (2 : Fin 3) * 128 + 1 * (y 2).val = (y 2).val; rw [e2]; omega

/-- Window 2 stages its whole array at every point. -/
theorem iblk_2_eq (c : Dev nD) (t : Fin cfg0.N) : (iblk m c 2 t : Vec Ideal S1x128 .f32) = V m c main_v12 := by
  funext y
  obtain ⟨-, -, -, -, -, -, -, e0, e1, -, -, -, -, -, -, -, -, -, -, -, -, -, -⟩ := idx_facts0 t
  show V m c main_v12 (((cfg0.win 2).blk t).view.emb y) = V m c main_v12 y
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- Window 3 stages its whole array at every point. -/
theorem iblk_3_eq (c : Dev nD) (t : Fin cfg0.N) : (iblk m c 3 t : Vec Ideal S128x512 .bf16) = V m c main_v15 := by
  funext y
  obtain ⟨-, -, -, -, -, -, -, -, -, e0, e1, -, -, -, -, -, -, -, -, -, -, -, -⟩ := idx_facts0 t
  show V m c main_v15 (((cfg0.win 3).blk t).view.emb y) = V m c main_v15 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 512 + 1 * (y 1).val = (y 1).val; rw [e1]; omega

/-- Window 4 stages its whole array at every point. -/
theorem iblk_4_eq (c : Dev nD) (t : Fin cfg0.N) : (iblk m c 4 t : Vec Ideal S1x512 .f32) = V m c main_v16 := by
  funext y
  obtain ⟨-, -, -, -, -, -, -, -, -, -, -, e0, e1, -, -, -, -, -, -, -, -, -, -⟩ := idx_facts0 t
  show V m c main_v16 (((cfg0.win 4).blk t).view.emb y) = V m c main_v16 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

/-- Window 5 stages its whole array at every point. -/
theorem iblk_5_eq (c : Dev nD) (t : Fin cfg0.N) : (iblk m c 5 t : Vec Ideal S512x128 .bf16) = V m c main_v17 := by
  funext y
  obtain ⟨-, -, -, -, -, -, -, -, -, -, -, -, -, e0, e1, -, -, -, -, -, -, -, -⟩ := idx_facts0 t
  show V m c main_v17 (((cfg0.win 5).blk t).view.emb y) = V m c main_v17 y
  refine congrArg _ (funext fun a => Fin.ext ?_)
  match a with
  | ⟨0, _⟩ => show win0_5.index t (0 : Fin 2) * 512 + 1 * (y 0).val = (y 0).val; rw [e0]; omega
  | ⟨1, _⟩ => show win0_5.index t (1 : Fin 2) * 128 + 1 * (y 1).val = (y 1).val; rw [e1]; omega

/-- Window 6 stages its whole array at every point. -/
theorem iblk_6_eq (c : Dev nD) (t : Fin cfg0.N) : (iblk m c 6 t : Vec Ideal S1x128 .f32) = V m c main_v18 := by
  funext y
  obtain ⟨-, -, -, -, -, -, -, -, -, -, -, -, -, -, -, e0, e1, -, -, -, -, -, -⟩ := idx_facts0 t
  show V m c main_v18 (((cfg0.win 6).blk t).view.emb y) = V m c main_v18 y
  refine congrArg _ (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- Window 7 stages its whole array at every point. -/
theorem iblk_7_eq (c : Dev nD) (t : Fin cfg0.N) : (iblk m c 7 t : Vec Ideal S1x128 .f32) = V m c main_v19 := by
  funext y
  obtain ⟨-, -, -, -, -, -, -, -, -, -, -, -, -, -, -, -, -, e0, e1, -, -, -, -⟩ := idx_facts0 t
  show V m c main_v19 (((cfg0.win 7).blk t).view.emb y) = V m c main_v19 y
  refine congrArg _ (funext fun a => Fin.ext ?_)
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- The block's result in the specification's terms, channels last. -/
abbrev outK (hf : Spec.HostFacts) (c : Dev nD) : Spec.A Spec.SN :=
  Spec.outNHWC (Spec.xpad hf (ax m c)) (Spec.weff hf (awdw m c) (sK m hf c))
    (Spec.beff hf (abdw m c) (abnm m c) (abnb m c) (sK m hf c)) (Spec.xT hf (ax m c)) (aw1 m c) (Spec.rowE hf (ab1 m c))
    (aw2 m c) (Spec.rowC hf (ab2 m c)) (Spec.rowC hf (ag m c))

/-- What point `t` writes back is image `t` of the block's result. -/
theorem flushed8_eq (hf : Spec.HostFacts) (c : Dev nD) (t : Fin cfg0.N) :
    (dats m 0 c).flushed 8 t = ((cfg0.win 8).blk t).view.read (Elt Ideal) (outK m hf c) := by
  show (cfg0.win 8).cut (grid0.coords t) ((dats m 0 c).after 8 t) = _
  rw [after0_8]
  funext y
  obtain ⟨z, h, w, q, rfl⟩ : ∃ (z : Fin 1) (h w : Fin 64) (q : Fin 128), y = ix4 z h w q :=
    ⟨y 0, y 1, y 2, y 3, eq_ix4 y⟩
  obtain rfl : z = 0 := Subsingleton.elim _ _
  obtain ⟨-, -, -, -, -, -, -, -, -, -, -, -, -, -, -, -, -, -, -, e0, e1, e2, e3⟩ := idx_facts0 t
  show out0_8 (iblk m c 0 t) (iblk m c 1 t) (iblk m c 2 t) (iblk m c 3 t) (iblk m c 4 t) (iblk m c 5 t) (iblk m c 6 t) (iblk m c 7 t) (ix4 (0 : Fin 1) h w q)
    = outK m hf c (((cfg0.win 8).blk t).view.emb (ix4 (0 : Fin 1) h w q))
  have hemb : ((cfg0.win 8).blk t).view.emb (ix4 (0 : Fin 1) h w q) = ix4 (imgIx t) h w q := by
    funext ax; apply Fin.ext
    match ax with
    | ⟨0, _⟩ => show win0_8.index t (0 : Fin 4) * 1 + 1 * 0 = t.val; rw [e0]; omega
    | ⟨1, _⟩ => show win0_8.index t (1 : Fin 4) * 64 + 1 * h.val = h.val; rw [e1]; omega
    | ⟨2, _⟩ => show win0_8.index t (2 : Fin 4) * 64 + 1 * w.val = w.val; rw [e2]; omega
    | ⟨3, _⟩ => show win0_8.index t (3 : Fin 4) * 128 + 1 * q.val = q.val; rw [e3]; omega
  rw [hemb]
  show _ = Spec.outNHWC _ _ _ _ _ _ _ _ _ (ix4 (imgIx t) h w q)
  rw [Spec.outNHWC_ix4]
  refine (out_block (iblk m c 0 t) (iblk m c 1 t) (iblk m c 2 t) (iblk m c 3 t) (iblk m c 4 t) (iblk m c 5 t) (iblk m c 6 t) (iblk m c 7 t) h w q).trans ?_
  rw [iblk_1_eq m c t, iblk_2_eq m c t, iblk_3_eq m c t, iblk_4_eq m c t, iblk_5_eq m c t, iblk_6_eq m c t, iblk_7_eq m c t]
  have h0 : ∀ (a b : Fin 70) (k : Fin 128), iblk m c 0 t (ix4 (0 : Fin 1) a b k) = Spec.xpad hf (ax m c) (ix4 (imgIx t) a b k) :=
    fun a b k => (iblk_0_apply m c t a b k).trans (congrFun (V_xpad m hf c) _)
  simp only [h0]
  rw [V_weff m hf c, V_beff m hf c, V_w1 m c, V_b1 m hf c, V_w2 m c, V_b2 m hf c, V_g m hf c, pad_interior]
  rfl

/-- An index of the result array is in point `t`'s block iff each coordinate is in the block's range on its axis. -/
theorem mem_blk8 (t : Fin cfg0.N) (i : S16x64x64x128.Idx) :
    i ∈ ((cfg0.win 8).blk t).view.set ↔ ∀ a : Fin 4, win0_8.index t a * S1x64x64x128.size a ≤ (i a).val ∧ (i a).val < win0_8.index t a * S1x64x64x128.size a + S1x64x64x128.size a := by
  show i ∈ ((View.whole main_v20).slice (win0_8.rect t)).set ↔ _
  rw [View.set_slice_whole, Rect.mem_set_unit]
  exact Iff.rfl

/-- Image `n` is written back by point `n`: the 16 blocks tile the result. -/
theorem cover8 (i : S16x64x64x128.Idx) :
    ∃ t : Fin cfg0.N, (cfg0.win 8).flush t = true ∧ i ∈ ((cfg0.win 8).blk t).view.set := by
  have hi0 : (i 0).val < 16 := (i 0).isLt
  have hi1 : (i 1).val < 64 := (i 1).isLt
  have hi2 : (i 2).val < 64 := (i 2).isLt
  have hi3 : (i 3).val < 128 := (i 3).isLt
  obtain ⟨t, ht⟩ : ∃ t : Fin cfg0.N, t.val = (i 0).val :=
    ⟨⟨(i 0).val, by rw [show cfg0.N = 16 from N_0]; omega⟩, rfl⟩
  obtain ⟨-, -, -, -, -, -, -, -, -, -, -, -, -, -, -, -, -, -, -, e0, e1, e2, e3⟩ := idx_facts0 t
  refine ⟨t, flush0_8 t, ?_⟩
  rw [mem_blk8]
  intro a
  match a with
  | ⟨0, _⟩ => show win0_8.index t (0 : Fin 4) * 1 ≤ (i 0).val ∧ (i 0).val < win0_8.index t (0 : Fin 4) * 1 + 1; rw [e0, ht]; omega
  | ⟨1, _⟩ => show win0_8.index t (1 : Fin 4) * 64 ≤ (i 1).val ∧ (i 1).val < win0_8.index t (1 : Fin 4) * 64 + 64; rw [e1]; omega
  | ⟨2, _⟩ => show win0_8.index t (2 : Fin 4) * 64 ≤ (i 2).val ∧ (i 2).val < win0_8.index t (2 : Fin 4) * 64 + 64; rw [e2]; omega
  | ⟨3, _⟩ => show win0_8.index t (3 : Fin 4) * 128 ≤ (i 3).val ∧ (i 3).val < win0_8.index t (3 : Fin 4) * 128 + 128; rw [e3]; omega

/-- The region's result array: the block's result in the specification's terms, channels last. -/
theorem final8 (hf : Spec.HostFacts) (c : Dev nD) : (dats m 0 c).arrAt 8 cfg0.N = outK m hf c :=
  (dats m 0 c).arrAt_eq_of_cover 8 _ (fun t _ => flushed8_eq m hf c t) cover8

/-- The program's result: the host's transpose of the region's result to channels first. -/
theorem tail_eq (hf : Spec.HostFacts) (c : Dev nD) :
    Pipeline.afterTail₀ cfgs (dats m) 0 (V0 m) [hostOps1] c main_v21
      = Spec.result hf (sK m hf c) (ax m c) (awdw m c) (abdw m c) (abnb m c) (abnm m c) (aw1 m c) (ab1 m c) (aw2 m c)
          (ab2 m c) (ag m c) := by
  have key : (Pipeline.withArrays spec0 c (V0 m c) (fun w => (dats m 0 c).arrAt w cfg0.N) (Proc.devRef .tc main_v20)
      : Spec.SN.Idx → EReal) = outK m hf c :=
    (Pipeline.withArrays_arr spec0 launch0.win.arr_inj c _ _ 8).trans (final8 m hf c)
  unfold Spec.result
  rw [show Spec.outNHWC (Spec.xpad hf (ax m c)) (Spec.weff hf (awdw m c) (sK m hf c)) (Spec.beff hf (abdw m c) (abnm m c) (abnb m c) (sK m hf c)) (Spec.xT hf (ax m c)) (aw1 m c) (Spec.rowE hf (ab1 m c)) (aw2 m c) (Spec.rowC hf (ab2 m c)) (Spec.rowC hf (ag m c)) = outK m hf c from rfl, ← key]
  unfold Pipeline.afterTail₀
  show StableHlo.after hostOps1 _ (Proc.devRef .tc main_v21) = _
  after_results

end Region

/-- The kernel's run: the result buffer ends at the specification's result with the kernel's scale, the argument
    arrays as launched. -/
theorem kernel_run (hf : Spec.HostFacts) (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v21)
        = Spec.result hf (sK m hf c) (ax m c) (awdw m c) (abdw m c) (abnb m c) (abnm m c) (aw1 m c) (ab1 m c) (aw2 m c)
            (ab2 m c) (ag m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c).2 main_v21 (Pipeline.mem_restRefs_of main_v21 (by decide) (by decide))).trans (tail_eq m hf c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩) (run_main m ρ)

end Cert.KernelIdeal.KValue

end
-- ==== Proof.RefRun.lean ====
import proofs.«153769_g2000605849985115_pallasbulk_1241_2_alg».proof.Proof.Gen.ReferenceIdeal.Frame

set_option maxRecDepth 16384

noncomputable section

namespace Cert.ReferenceIdeal.MlpValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its result exposed: every weakly fair execution of the program on the TensorCores terminates, and in
    every final state the result buffer holds the last boundary's contents `W6` of it, the twelve argument arrays what
    they held at launch. Every unscoped buffer ends at `W6`; the result buffer is one of them. -/
theorem run_result : θ_run defs (onTc (τ := τ) (main (F := F))) ⟨m, fun _ => 0, ρ⟩ (fun r => ∀ c : Dev nD,
      r.2.mem ((c.tc : Thread nD τ).loc main_v23) = W6 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v23 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.ReferenceIdeal.MlpValue

end
-- ==== Proof.RefConvBody.lean ====
/-
  Region 0's body at one element.  The body visits the 49 taps row by row; tap (kh, kw) multiplies the 64x64 window
  of the padded block at offset (kh, kw) by the weight row (kh, kw), and the products are added, in that order, to an
  accumulator that starts at zero; the bias row is added last.  Read at element (h, w, c) this is the chain
  ((0 + t(0,0)) + t(0,1)) + ... + t(6,6)) + bias(c), with t(kh,kw) = XP(h+kh, w+kw, c) * WE(kh, kw, c).
-/
import proofs.«153769_g2000605849985115_pallasbulk_1241_2_alg».proof.Proof.Spec
import proofs.«153769_g2000605849985115_pallasbulk_1241_2_alg».proof.Proof.Gen.ReferenceIdeal.Frame
import Idealize.ShloMosaic.Lib.Pipeline.Value
import Idealize.ShloMosaic.Lib.ValueLayout
import Idealize.ShloMosaic.Lib.ValueIdx

noncomputable section

namespace Cert.ReferenceIdeal.ConvValue

open Idealize.ShloMosaic Idealize.ShloMosaic.ValueIdx Cert.ReferenceIdeal Cert.ReferenceIdeal.Gen

/-- One row broadcast over the block reads its channel. -/
theorem bcast_row_apply (v : FVec Ideal S1x1x128 .f32) (hb : S1x1x128.Broadcasts S64x64x128) (h w : Fin 64) (c : Fin 128) :
    broadcastTo S64x64x128 v hb (ix3 h w c) = v (ix3 (0 : Fin 1) (0 : Fin 1) c) := by
  refine broadcastTo_apply v hb (ix3 h w c) (ix3 (0 : Fin 1) (0 : Fin 1) c) fun a => ?_
  match a with
  | ⟨0, _⟩ => rfl
  | ⟨1, _⟩ => rfl
  | ⟨2, _⟩ => rfl

/-- A weight row cast to a flat row and back is itself. -/
theorem row_cast (v : FVec Ideal S1x1x128 .f32) (h1 : S1x1x128.ShapeCasts S1x128) (h2 : S1x128.ShapeCasts S1x1x128) :
    shapeCast S1x1x128 (shapeCast S1x128 v h1) h2 = v := shapeCast_shapeCast v h1 h2

/-- One tap's product at an element. -/
theorem tap_apply (X : FVec Ideal S1x64x64x128 .f32) (Wt : FVec Ideal S1x1x128 .f32)
    (h0 : S1x64x64x128.ShapeCasts S64x64x128) (h1 : S1x1x128.ShapeCasts S1x128) (h2 : S1x128.ShapeCasts S1x1x128)
    (hb : S1x1x128.Broadcasts S64x64x128) (h w : Fin 64) (c : Fin 128) :
    mulf (shapeCast S64x64x128 X h0) (broadcastTo S64x64x128 (shapeCast S1x1x128 (shapeCast S1x128 Wt h1) h2) hb) (ix3 h w c)
      = X (ix4 (0 : Fin 1) h w c) * Wt (ix3 (0 : Fin 1) (0 : Fin 1) c) := by
  rw [mulf_apply, shapeCast_1abc_abc_apply, row_cast, bcast_row_apply]

/-- A window of the padded block read at an element. -/
theorem ld_win (x0 : Vec Ideal S1x70x70x128 .f32) (a b : Nat)
    (inb : ∀ i, (![0, a, b, 0] : Fin 4 → Nat) i + S1x64x64x128.size i ≤ S1x70x70x128.size i) (h w : Fin 64) (c : Fin 128) :
    View.ld x0 (Rect.unit (s := S1x70x70x128) ![0, a, b, 0] S1x64x64x128.size inb) (ix4 (0 : Fin 1) h w c)
      = x0 (ix4 (0 : Fin 1) (⟨h.val + a, by have e : a + 64 ≤ 70 := inb 1; have := h.isLt; omega⟩ : Fin 70)
          (⟨w.val + b, by have e : b + 64 ≤ 70 := inb 2; have := w.isLt; omega⟩ : Fin 70) c) := by
  show x0 _ = x0 _
  congr 1
  funext i
  match i with
  | ⟨0, _⟩ => rfl
  | ⟨1, _⟩ => exact Fin.ext (by show a + 1 * h.val = h.val + a; omega)
  | ⟨2, _⟩ => exact Fin.ext (by show b + 1 * w.val = w.val + b; omega)
  | ⟨3, _⟩ => exact Fin.ext (by show 0 + 1 * c.val = c.val; omega)

/-- A tap's weight row read at a channel. -/
theorem ld_w (x1 : Vec Ideal S7x7x128 .f32) (a b : Nat)
    (inb : ∀ i, (![a, b, 0] : Fin 3 → Nat) i + S1x1x128.size i ≤ S7x7x128.size i) (c : Fin 128) :
    View.ld x1 (Rect.unit (s := S7x7x128) ![a, b, 0] S1x1x128.size inb) (ix3 (0 : Fin 1) (0 : Fin 1) c)
      = x1 (ix3 (⟨a, by have e : a + 1 ≤ 7 := inb 0; omega⟩ : Fin 7) (⟨b, by have e : b + 1 ≤ 7 := inb 1; omega⟩ : Fin 7) c) := by
  show x1 _ = x1 _
  congr 1
  funext i
  match i with
  | ⟨0, _⟩ => exact Fin.ext (by show a + 1 * 0 = a; omega)
  | ⟨1, _⟩ => exact Fin.ext (by show b + 1 * 0 = b; omega)
  | ⟨2, _⟩ => exact Fin.ext (by show 0 + 1 * c.val = c.val; omega)

/-- A carried tap's product at an element: the window already cast, the weight row already a row. -/
theorem ctap_apply (X : FVec Ideal S64x64x128 .f32) (Wt : FVec Ideal S1x1x128 .f32)
    (hb : S1x1x128.Broadcasts S64x64x128) (h w : Fin 64) (c : Fin 128) :
    mulf X (broadcastTo S64x64x128 Wt hb) (ix3 h w c) = X (ix3 h w c) * Wt (ix3 (0 : Fin 1) (0 : Fin 1) c) := by
  rw [mulf_apply, bcast_row_apply]

/-- The accumulator starts at zero. -/
theorem zero_apply (i : S64x64x128.Idx) :
    (broadcast S64x64x128 (Scalar.ofBits (F := Ideal) .f32 0x00000000#32) : FVec Ideal S64x64x128 .f32) i = 0 := by
  rw [broadcast_apply]
  exact Ideal.ofBits_zero_f32

/-- The bias row, cast to a 1x1x128 row and broadcast over the block, reads its channel. -/
theorem bias_apply (v : FVec Ideal S1x128 .f32) (h1 : S1x128.ShapeCasts S1x128) (h2 : S1x128.ShapeCasts S1x1x128)
    (hb : S1x1x128.Broadcasts S64x64x128) (h w : Fin 64) (c : Fin 128) :
    broadcastTo S64x64x128 (shapeCast S1x1x128 (shapeCast S1x128 v h1) h2) hb (ix3 h w c) = v (ix2 (0 : Fin 1) c) := by
  rw [bcast_row_apply, shapeCast_self, shapeCast_ab_1ab_apply]

/-! ## The payloads at an element -/

/-- The first three taps, added to zero. -/
theorem pay2_apply (v1 : Vec Ideal S1x64x64x128 .f32) (v3 : Vec Ideal S1x1x128 .f32) (v9 : Vec Ideal S1x64x64x128 .f32)
    (v11 : Vec Ideal S1x1x128 .f32) (v17 : Vec Ideal S1x64x64x128 .f32) (v19 : Vec Ideal S1x1x128 .f32)
    (h w : Fin 64) (c : Fin 128) :
    k0_pay2 (F := Ideal) v1 v3 v9 v11 v17 v19 (ix3 h w c)
      = 0 + v1 (ix4 (0 : Fin 1) h w c) * v3 (ix3 (0 : Fin 1) (0 : Fin 1) c)
          + v9 (ix4 (0 : Fin 1) h w c) * v11 (ix3 (0 : Fin 1) (0 : Fin 1) c)
          + v17 (ix4 (0 : Fin 1) h w c) * v19 (ix3 (0 : Fin 1) (0 : Fin 1) c) := by
  unfold k0_pay2
  simp only [addf_apply, tap_apply, zero_apply]

/-- Four more taps added to the accumulator: the carried one and three read here. -/
theorem pay5_apply (acc X0 : FVec Ideal S64x64x128 .f32) (W0 : FVec Ideal S1x1x128 .f32)
    (X1 : Vec Ideal S1x64x64x128 .f32) (W1 : Vec Ideal S1x1x128 .f32) (X2 : Vec Ideal S1x64x64x128 .f32) (W2 : Vec Ideal S1x1x128 .f32)
    (X3 : Vec Ideal S1x64x64x128 .f32) (W3 : Vec Ideal S1x1x128 .f32) (h w : Fin 64) (c : Fin 128) :
    k0_pay5 (F := Ideal) acc X0 W0 X1 W1 X2 W2 X3 W3 (ix3 h w c)
      = acc (ix3 h w c) + X0 (ix3 h w c) * W0 (ix3 (0 : Fin 1) (0 : Fin 1) c)
          + X1 (ix4 (0 : Fin 1) h w c) * W1 (ix3 (0 : Fin 1) (0 : Fin 1) c)
          + X2 (ix4 (0 : Fin 1) h w c) * W2 (ix3 (0 : Fin 1) (0 : Fin 1) c)
          + X3 (ix4 (0 : Fin 1) h w c) * W3 (ix3 (0 : Fin 1) (0 : Fin 1) c) := by
  unfold k0_pay5
  simp only [addf_apply, ctap_apply, shapeCast_1abc_abc_apply, row_cast]

/-- Four more taps added to the accumulator: the carried one and three read here. -/
theorem pay8_apply (acc X0 : FVec Ideal S64x64x128 .f32) (W0 : FVec Ideal S1x1x128 .f32)
    (X1 : Vec Ideal S1x64x64x128 .f32) (W1 : Vec Ideal S1x1x128 .f32) (X2 : Vec Ideal S1x64x64x128 .f32) (W2 : Vec Ideal S1x1x128 .f32)
    (X3 : Vec Ideal S1x64x64x128 .f32) (W3 : Vec Ideal S1x1x128 .f32) (h w : Fin 64) (c : Fin 128) :
    k0_pay8 (F := Ideal) acc X0 W0 X1 W1 X2 W2 X3 W3 (ix3 h w c)
      = acc (ix3 h w c) + X0 (ix3 h w c) * W0 (ix3 (0 : Fin 1) (0 : Fin 1) c)
          + X1 (ix4 (0 : Fin 1) h w c) * W1 (ix3 (0 : Fin 1) (0 : Fin 1) c)
          + X2 (ix4 (0 : Fin 1) h w c) * W2 (ix3 (0 : Fin 1) (0 : Fin 1) c)
          + X3 (ix4 (0 : Fin 1) h w c) * W3 (ix3 (0 : Fin 1) (0 : Fin 1) c) := by
  unfold k0_pay8
  simp only [addf_apply, ctap_apply, shapeCast_1abc_abc_apply, row_cast]

/-- Four more taps added to the accumulator: the carried one and three read here. -/
theorem pay11_apply (acc X0 : FVec Ideal S64x64x128 .f32) (W0 : FVec Ideal S1x1x128 .f32)
    (X1 : Vec Ideal S1x64x64x128 .f32) (W1 : Vec Ideal S1x1x128 .f32) (X2 : Vec Ideal S1x64x64x128 .f32) (W2 : Vec Ideal S1x1x128 .f32)
    (X3 : Vec Ideal S1x64x64x128 .f32) (W3 : Vec Ideal S1x1x128 .f32) (h w : Fin 64) (c : Fin 128) :
    k0_pay11 (F := Ideal) acc X0 W0 X1 W1 X2 W2 X3 W3 (ix3 h w c)
      = acc (ix3 h w c) + X0 (ix3 h w c) * W0 (ix3 (0 : Fin 1) (0 : Fin 1) c)
          + X1 (ix4 (0 : Fin 1) h w c) * W1 (ix3 (0 : Fin 1) (0 : Fin 1) c)
          + X2 (ix4 (0 : Fin 1) h w c) * W2 (ix3 (0 : Fin 1) (0 : Fin 1) c)
          + X3 (ix4 (0 : Fin 1) h w c) * W3 (ix3 (0 : Fin 1) (0 : Fin 1) c) := by
  unfold k0_pay11
  simp only [addf_apply, ctap_apply, shapeCast_1abc_abc_apply, row_cast]

/-- Four more taps added to the accumulator: the carried one and three read here. -/
theorem pay14_apply (acc X0 : FVec Ideal S64x64x128 .f32) (W0 : FVec Ideal S1x1x128 .f32)
    (X1 : Vec Ideal S1x64x64x128 .f32) (W1 : Vec Ideal S1x1x128 .f32) (X2 : Vec Ideal S1x64x64x128 .f32) (W2 : Vec Ideal S1x1x128 .f32)
    (X3 : Vec Ideal S1x64x64x128 .f32) (W3 : Vec Ideal S1x1x128 .f32) (h w : Fin 64) (c : Fin 128) :
    k0_pay14 (F := Ideal) acc X0 W0 X1 W1 X2 W2 X3 W3 (ix3 h w c)
      = acc (ix3 h w c) + X0 (ix3 h w c) * W0 (ix3 (0 : Fin 1) (0 : Fin 1) c)
          + X1 (ix4 (0 : Fin 1) h w c) * W1 (ix3 (0 : Fin 1) (0 : Fin 1) c)
          + X2 (ix4 (0 : Fin 1) h w c) * W2 (ix3 (0 : Fin 1) (0 : Fin 1) c)
          + X3 (ix4 (0 : Fin 1) h w c) * W3 (ix3 (0 : Fin 1) (0 : Fin 1) c) := by
  unfold k0_pay14
  simp only [addf_apply, ctap_apply, shapeCast_1abc_abc_apply, row_cast]

/-- Four more taps added to the accumulator: the carried one and three read here. -/
theorem pay17_apply (acc X0 : FVec Ideal S64x64x128 .f32) (W0 : FVec Ideal S1x1x128 .f32)
    (X1 : Vec Ideal S1x64x64x128 .f32) (W1 : Vec Ideal S1x1x128 .f32) (X2 : Vec Ideal S1x64x64x128 .f32) (W2 : Vec Ideal S1x1x128 .f32)
    (X3 : Vec Ideal S1x64x64x128 .f32) (W3 : Vec Ideal S1x1x128 .f32) (h w : Fin 64) (c : Fin 128) :
    k0_pay17 (F := Ideal) acc X0 W0 X1 W1 X2 W2 X3 W3 (ix3 h w c)
      = acc (ix3 h w c) + X0 (ix3 h w c) * W0 (ix3 (0 : Fin 1) (0 : Fin 1) c)
          + X1 (ix4 (0 : Fin 1) h w c) * W1 (ix3 (0 : Fin 1) (0 : Fin 1) c)
          + X2 (ix4 (0 : Fin 1) h w c) * W2 (ix3 (0 : Fin 1) (0 : Fin 1) c)
          + X3 (ix4 (0 : Fin 1) h w c) * W3 (ix3 (0 : Fin 1) (0 : Fin 1) c) := by
  unfold k0_pay17
  simp only [addf_apply, ctap_apply, shapeCast_1abc_abc_apply, row_cast]

/-- Four more taps added to the accumulator: the carried one and three read here. -/
theorem pay20_apply (acc X0 : FVec Ideal S64x64x128 .f32) (W0 : FVec Ideal S1x1x128 .f32)
    (X1 : Vec Ideal S1x64x64x128 .f32) (W1 : Vec Ideal S1x1x128 .f32) (X2 : Vec Ideal S1x64x64x128 .f32) (W2 : Vec Ideal S1x1x128 .f32)
    (X3 : Vec Ideal S1x64x64x128 .f32) (W3 : Vec Ideal S1x1x128 .f32) (h w : Fin 64) (c : Fin 128) :
    k0_pay20 (F := Ideal) acc X0 W0 X1 W1 X2 W2 X3 W3 (ix3 h w c)
      = acc (ix3 h w c) + X0 (ix3 h w c) * W0 (ix3 (0 : Fin 1) (0 : Fin 1) c)
          + X1 (ix4 (0 : Fin 1) h w c) * W1 (ix3 (0 : Fin 1) (0 : Fin 1) c)
          + X2 (ix4 (0 : Fin 1) h w c) * W2 (ix3 (0 : Fin 1) (0 : Fin 1) c)
          + X3 (ix4 (0 : Fin 1) h w c) * W3 (ix3 (0 : Fin 1) (0 : Fin 1) c) := by
  unfold k0_pay20
  simp only [addf_apply, ctap_apply, shapeCast_1abc_abc_apply, row_cast]

/-- Four more taps added to the accumulator: the carried one and three read here. -/
theorem pay23_apply (acc X0 : FVec Ideal S64x64x128 .f32) (W0 : FVec Ideal S1x1x128 .f32)
    (X1 : Vec Ideal S1x64x64x128 .f32) (W1 : Vec Ideal S1x1x128 .f32) (X2 : Vec Ideal S1x64x64x128 .f32) (W2 : Vec Ideal S1x1x128 .f32)
    (X3 : Vec Ideal S1x64x64x128 .f32) (W3 : Vec Ideal S1x1x128 .f32) (h w : Fin 64) (c : Fin 128) :
    k0_pay23 (F := Ideal) acc X0 W0 X1 W1 X2 W2 X3 W3 (ix3 h w c)
      = acc (ix3 h w c) + X0 (ix3 h w c) * W0 (ix3 (0 : Fin 1) (0 : Fin 1) c)
          + X1 (ix4 (0 : Fin 1) h w c) * W1 (ix3 (0 : Fin 1) (0 : Fin 1) c)
          + X2 (ix4 (0 : Fin 1) h w c) * W2 (ix3 (0 : Fin 1) (0 : Fin 1) c)
          + X3 (ix4 (0 : Fin 1) h w c) * W3 (ix3 (0 : Fin 1) (0 : Fin 1) c) := by
  unfold k0_pay23
  simp only [addf_apply, ctap_apply, shapeCast_1abc_abc_apply, row_cast]

/-- Four more taps added to the accumulator: the carried one and three read here. -/
theorem pay26_apply (acc X0 : FVec Ideal S64x64x128 .f32) (W0 : FVec Ideal S1x1x128 .f32)
    (X1 : Vec Ideal S1x64x64x128 .f32) (W1 : Vec Ideal S1x1x128 .f32) (X2 : Vec Ideal S1x64x64x128 .f32) (W2 : Vec Ideal S1x1x128 .f32)
    (X3 : Vec Ideal S1x64x64x128 .f32) (W3 : Vec Ideal S1x1x128 .f32) (h w : Fin 64) (c : Fin 128) :
    k0_pay26 (F := Ideal) acc X0 W0 X1 W1 X2 W2 X3 W3 (ix3 h w c)
      = acc (ix3 h w c) + X0 (ix3 h w c) * W0 (ix3 (0 : Fin 1) (0 : Fin 1) c)
          + X1 (ix4 (0 : Fin 1) h w c) * W1 (ix3 (0 : Fin 1) (0 : Fin 1) c)
          + X2 (ix4 (0 : Fin 1) h w c) * W2 (ix3 (0 : Fin 1) (0 : Fin 1) c)
          + X3 (ix4 (0 : Fin 1) h w c) * W3 (ix3 (0 : Fin 1) (0 : Fin 1) c) := by
  unfold k0_pay26
  simp only [addf_apply, ctap_apply, shapeCast_1abc_abc_apply, row_cast]

/-- Four more taps added to the accumulator: the carried one and three read here. -/
theorem pay29_apply (acc X0 : FVec Ideal S64x64x128 .f32) (W0 : FVec Ideal S1x1x128 .f32)
    (X1 : Vec Ideal S1x64x64x128 .f32) (W1 : Vec Ideal S1x1x128 .f32) (X2 : Vec Ideal S1x64x64x128 .f32) (W2 : Vec Ideal S1x1x128 .f32)
    (X3 : Vec Ideal S1x64x64x128 .f32) (W3 : Vec Ideal S1x1x128 .f32) (h w : Fin 64) (c : Fin 128) :
    k0_pay29 (F := Ideal) acc X0 W0 X1 W1 X2 W2 X3 W3 (ix3 h w c)
      = acc (ix3 h w c) + X0 (ix3 h w c) * W0 (ix3 (0 : Fin 1) (0 : Fin 1) c)
          + X1 (ix4 (0 : Fin 1) h w c) * W1 (ix3 (0 : Fin 1) (0 : Fin 1) c)
          + X2 (ix4 (0 : Fin 1) h w c) * W2 (ix3 (0 : Fin 1) (0 : Fin 1) c)
          + X3 (ix4 (0 : Fin 1) h w c) * W3 (ix3 (0 : Fin 1) (0 : Fin 1) c) := by
  unfold k0_pay29
  simp only [addf_apply, ctap_apply, shapeCast_1abc_abc_apply, row_cast]

/-- Four more taps added to the accumulator: the carried one and three read here. -/
theorem pay32_apply (acc X0 : FVec Ideal S64x64x128 .f32) (W0 : FVec Ideal S1x1x128 .f32)
    (X1 : Vec Ideal S1x64x64x128 .f32) (W1 : Vec Ideal S1x1x128 .f32) (X2 : Vec Ideal S1x64x64x128 .f32) (W2 : Vec Ideal S1x1x128 .f32)
    (X3 : Vec Ideal S1x64x64x128 .f32) (W3 : Vec Ideal S1x1x128 .f32) (h w : Fin 64) (c : Fin 128) :
    k0_pay32 (F := Ideal) acc X0 W0 X1 W1 X2 W2 X3 W3 (ix3 h w c)
      = acc (ix3 h w c) + X0 (ix3 h w c) * W0 (ix3 (0 : Fin 1) (0 : Fin 1) c)
          + X1 (ix4 (0 : Fin 1) h w c) * W1 (ix3 (0 : Fin 1) (0 : Fin 1) c)
          + X2 (ix4 (0 : Fin 1) h w c) * W2 (ix3 (0 : Fin 1) (0 : Fin 1) c)
          + X3 (ix4 (0 : Fin 1) h w c) * W3 (ix3 (0 : Fin 1) (0 : Fin 1) c) := by
  unfold k0_pay32
  simp only [addf_apply, ctap_apply, shapeCast_1abc_abc_apply, row_cast]

/-- Four more taps added to the accumulator: the carried one and three read here. -/
theorem pay35_apply (acc X0 : FVec Ideal S64x64x128 .f32) (W0 : FVec Ideal S1x1x128 .f32)
    (X1 : Vec Ideal S1x64x64x128 .f32) (W1 : Vec Ideal S1x1x128 .f32) (X2 : Vec Ideal S1x64x64x128 .f32) (W2 : Vec Ideal S1x1x128 .f32)
    (X3 : Vec Ideal S1x64x64x128 .f32) (W3 : Vec Ideal S1x1x128 .f32) (h w : Fin 64) (c : Fin 128) :
    k0_pay35 (F := Ideal) acc X0 W0 X1 W1 X2 W2 X3 W3 (ix3 h w c)
      = acc (ix3 h w c) + X0 (ix3 h w c) * W0 (ix3 (0 : Fin 1) (0 : Fin 1) c)
          + X1 (ix4 (0 : Fin 1) h w c) * W1 (ix3 (0 : Fin 1) (0 : Fin 1) c)
          + X2 (ix4 (0 : Fin 1) h w c) * W2 (ix3 (0 : Fin 1) (0 : Fin 1) c)
          + X3 (ix4 (0 : Fin 1) h w c) * W3 (ix3 (0 : Fin 1) (0 : Fin 1) c) := by
  unfold k0_pay35
  simp only [addf_apply, ctap_apply, shapeCast_1abc_abc_apply, row_cast]

/-- A carried window, already cast to the block's shape. -/
theorem pay3_apply (X : Vec Ideal S1x64x64x128 .f32) (h w : Fin 64) (c : Fin 128) :
    k0_pay3 (F := Ideal) X (ix3 h w c) = X (ix4 (0 : Fin 1) h w c) := by
  unfold k0_pay3
  exact shapeCast_1abc_abc_apply _ _ h w c

/-- A carried weight row, cast to a flat row and back. -/
theorem pay4_eq (Wt : Vec Ideal S1x1x128 .f32) : k0_pay4 (F := Ideal) Wt = Wt := by
  unfold k0_pay4
  exact shapeCast_shapeCast _ _ _

/-- A carried window, already cast to the block's shape. -/
theorem pay6_apply (X : Vec Ideal S1x64x64x128 .f32) (h w : Fin 64) (c : Fin 128) :
    k0_pay6 (F := Ideal) X (ix3 h w c) = X (ix4 (0 : Fin 1) h w c) := by
  unfold k0_pay6
  exact shapeCast_1abc_abc_apply _ _ h w c

/-- A carried weight row, cast to a flat row and back. -/
theorem pay7_eq (Wt : Vec Ideal S1x1x128 .f32) : k0_pay7 (F := Ideal) Wt = Wt := by
  unfold k0_pay7
  exact shapeCast_shapeCast _ _ _

/-- A carried window, already cast to the block's shape. -/
theorem pay9_apply (X : Vec Ideal S1x64x64x128 .f32) (h w : Fin 64) (c : Fin 128) :
    k0_pay9 (F := Ideal) X (ix3 h w c) = X (ix4 (0 : Fin 1) h w c) := by
  unfold k0_pay9
  exact shapeCast_1abc_abc_apply _ _ h w c

/-- A carried weight row, cast to a flat row and back. -/
theorem pay10_eq (Wt : Vec Ideal S1x1x128 .f32) : k0_pay10 (F := Ideal) Wt = Wt := by
  unfold k0_pay10
  exact shapeCast_shapeCast _ _ _

/-- A carried window, already cast to the block's shape. -/
theorem pay12_apply (X : Vec Ideal S1x64x64x128 .f32) (h w : Fin 64) (c : Fin 128) :
    k0_pay12 (F := Ideal) X (ix3 h w c) = X (ix4 (0 : Fin 1) h w c) := by
  unfold k0_pay12
  exact shapeCast_1abc_abc_apply _ _ h w c

/-- A carried weight row, cast to a flat row and back. -/
theorem pay13_eq (Wt : Vec Ideal S1x1x128 .f32) : k0_pay13 (F := Ideal) Wt = Wt := by
  unfold k0_pay13
  exact shapeCast_shapeCast _ _ _

/-- A carried window, already cast to the block's shape. -/
theorem pay15_apply (X : Vec Ideal S1x64x64x128 .f32) (h w : Fin 64) (c : Fin 128) :
    k0_pay15 (F := Ideal) X (ix3 h w c) = X (ix4 (0 : Fin 1) h w c) := by
  unfold k0_pay15
  exact shapeCast_1abc_abc_apply _ _ h w c

/-- A carried weight row, cast to a flat row and back. -/
theorem pay16_eq (Wt : Vec Ideal S1x1x128 .f32) : k0_pay16 (F := Ideal) Wt = Wt := by
  unfold k0_pay16
  exact shapeCast_shapeCast _ _ _

/-- A carried window, already cast to the block's shape. -/
theorem pay18_apply (X : Vec Ideal S1x64x64x128 .f32) (h w : Fin 64) (c : Fin 128) :
    k0_pay18 (F := Ideal) X (ix3 h w c) = X (ix4 (0 : Fin 1) h w c) := by
  unfold k0_pay18
  exact shapeCast_1abc_abc_apply _ _ h w c

/-- A carried weight row, cast to a flat row and back. -/
theorem pay19_eq (Wt : Vec Ideal S1x1x128 .f32) : k0_pay19 (F := Ideal) Wt = Wt := by
  unfold k0_pay19
  exact shapeCast_shapeCast _ _ _

/-- A carried window, already cast to the block's shape. -/
theorem pay21_apply (X : Vec Ideal S1x64x64x128 .f32) (h w : Fin 64) (c : Fin 128) :
    k0_pay21 (F := Ideal) X (ix3 h w c) = X (ix4 (0 : Fin 1) h w c) := by
  unfold k0_pay21
  exact shapeCast_1abc_abc_apply _ _ h w c

/-- A carried weight row, cast to a flat row and back. -/
theorem pay22_eq (Wt : Vec Ideal S1x1x128 .f32) : k0_pay22 (F := Ideal) Wt = Wt := by
  unfold k0_pay22
  exact shapeCast_shapeCast _ _ _

/-- A carried window, already cast to the block's shape. -/
theorem pay24_apply (X : Vec Ideal S1x64x64x128 .f32) (h w : Fin 64) (c : Fin 128) :
    k0_pay24 (F := Ideal) X (ix3 h w c) = X (ix4 (0 : Fin 1) h w c) := by
  unfold k0_pay24
  exact shapeCast_1abc_abc_apply _ _ h w c

/-- A carried weight row, cast to a flat row and back. -/
theorem pay25_eq (Wt : Vec Ideal S1x1x128 .f32) : k0_pay25 (F := Ideal) Wt = Wt := by
  unfold k0_pay25
  exact shapeCast_shapeCast _ _ _

/-- A carried window, already cast to the block's shape. -/
theorem pay27_apply (X : Vec Ideal S1x64x64x128 .f32) (h w : Fin 64) (c : Fin 128) :
    k0_pay27 (F := Ideal) X (ix3 h w c) = X (ix4 (0 : Fin 1) h w c) := by
  unfold k0_pay27
  exact shapeCast_1abc_abc_apply _ _ h w c

/-- A carried weight row, cast to a flat row and back. -/
theorem pay28_eq (Wt : Vec Ideal S1x1x128 .f32) : k0_pay28 (F := Ideal) Wt = Wt := by
  unfold k0_pay28
  exact shapeCast_shapeCast _ _ _

/-- A carried window, already cast to the block's shape. -/
theorem pay30_apply (X : Vec Ideal S1x64x64x128 .f32) (h w : Fin 64) (c : Fin 128) :
    k0_pay30 (F := Ideal) X (ix3 h w c) = X (ix4 (0 : Fin 1) h w c) := by
  unfold k0_pay30
  exact shapeCast_1abc_abc_apply _ _ h w c

/-- A carried weight row, cast to a flat row and back. -/
theorem pay31_eq (Wt : Vec Ideal S1x1x128 .f32) : k0_pay31 (F := Ideal) Wt = Wt := by
  unfold k0_pay31
  exact shapeCast_shapeCast _ _ _

/-- A carried window, already cast to the block's shape. -/
theorem pay33_apply (X : Vec Ideal S1x64x64x128 .f32) (h w : Fin 64) (c : Fin 128) :
    k0_pay33 (F := Ideal) X (ix3 h w c) = X (ix4 (0 : Fin 1) h w c) := by
  unfold k0_pay33
  exact shapeCast_1abc_abc_apply _ _ h w c

/-- A carried weight row, cast to a flat row and back. -/
theorem pay34_eq (Wt : Vec Ideal S1x1x128 .f32) : k0_pay34 (F := Ideal) Wt = Wt := by
  unfold k0_pay34
  exact shapeCast_shapeCast _ _ _

/-- A carried window, already cast to the block's shape. -/
theorem pay36_apply (X : Vec Ideal S1x64x64x128 .f32) (h w : Fin 64) (c : Fin 128) :
    k0_pay36 (F := Ideal) X (ix3 h w c) = X (ix4 (0 : Fin 1) h w c) := by
  unfold k0_pay36
  exact shapeCast_1abc_abc_apply _ _ h w c

/-- A carried weight row, cast to a flat row and back. -/
theorem pay37_eq (Wt : Vec Ideal S1x1x128 .f32) : k0_pay37 (F := Ideal) Wt = Wt := by
  unfold k0_pay37
  exact shapeCast_shapeCast _ _ _

/-- The last two taps and the bias, added to the accumulator, as the stored block. -/
theorem pay1_apply (acc X0 : FVec Ideal S64x64x128 .f32) (W0 : FVec Ideal S1x1x128 .f32)
    (X1 : Vec Ideal S1x64x64x128 .f32) (W1 : Vec Ideal S1x1x128 .f32) (B : Vec Ideal S1x128 .f32) (h w : Fin 64) (c : Fin 128) :
    k0_pay1 (F := Ideal) acc X0 W0 X1 W1 B (ix4 (0 : Fin 1) h w c)
      = acc (ix3 h w c) + X0 (ix3 h w c) * W0 (ix3 (0 : Fin 1) (0 : Fin 1) c)
          + X1 (ix4 (0 : Fin 1) h w c) * W1 (ix3 (0 : Fin 1) (0 : Fin 1) c)
          + B (ix2 (0 : Fin 1) c) := by
  unfold k0_pay1
  rw [shapeCast_abc_1abc_apply]
  simp only [addf_apply, bias_apply, ctap_apply, shapeCast_1abc_abc_apply, row_cast]

/-! ## The stored block at an element -/

theorem zero4 : (![0, 0, 0, 0] : Fin 4 → Nat) = fun _ => 0 := funext fun a => by fin_cases a <;> rfl
theorem zero2 : (![0, 0] : Fin 2 → Nat) = fun _ => 0 := funext fun a => by fin_cases a <;> rfl

/-- What the body leaves in the output block at element (h, w, c): the 49-tap chain from the bias, over the padded
    block, the weights and the bias row it loaded. -/
theorem out0_3_apply (x0 : Vec Ideal S1x70x70x128 .f32) (x1 : Vec Ideal S7x7x128 .f32) (x2 : Vec Ideal S1x128 .f32)
    (h w : Fin 64) (c : Fin 128) :
    out0_3 (F := Ideal) x0 x1 x2 (ix4 (0 : Fin 1) h w c)
      = Cert.Spec.tapSum (fun kh kw => x0 (ix4 (0 : Fin 1) (Cert.Spec.sh h kh) (Cert.Spec.sh w kw) c) * x1 (ix3 kh kw c))
          (x2 (ix2 (0 : Fin 1) c)) := by
  rw [← Cert.Spec.tapSum_zero_add]
  unfold out0_3
  rw [View.canon_unit_zero zero4]
  rw [pay1_apply, pay35_apply, pay32_apply, pay29_apply, pay26_apply, pay23_apply, pay20_apply, pay17_apply, pay14_apply, pay11_apply, pay8_apply, pay5_apply, pay2_apply]
  simp only [pay3_apply, pay6_apply, pay9_apply, pay12_apply, pay15_apply, pay18_apply, pay21_apply, pay24_apply, pay27_apply, pay30_apply, pay33_apply, pay36_apply,
    pay4_eq, pay7_eq, pay10_eq, pay13_eq, pay16_eq, pay19_eq, pay22_eq, pay25_eq, pay28_eq, pay31_eq, pay34_eq, pay37_eq]
  rw [ld_win x0 0 0 _ h w c, ld_w x1 0 0 _ c, ld_win x0 0 1 _ h w c, ld_w x1 0 1 _ c, ld_win x0 0 2 _ h w c, ld_w x1 0 2 _ c, ld_win x0 0 3 _ h w c, ld_w x1 0 3 _ c, ld_win x0 0 4 _ h w c, ld_w x1 0 4 _ c, ld_win x0 0 5 _ h w c, ld_w x1 0 5 _ c, ld_win x0 0 6 _ h w c, ld_w x1 0 6 _ c]
  rw [ld_win x0 1 0 _ h w c, ld_w x1 1 0 _ c, ld_win x0 1 1 _ h w c, ld_w x1 1 1 _ c, ld_win x0 1 2 _ h w c, ld_w x1 1 2 _ c, ld_win x0 1 3 _ h w c, ld_w x1 1 3 _ c, ld_win x0 1 4 _ h w c, ld_w x1 1 4 _ c, ld_win x0 1 5 _ h w c, ld_w x1 1 5 _ c, ld_win x0 1 6 _ h w c, ld_w x1 1 6 _ c]
  rw [ld_win x0 2 0 _ h w c, ld_w x1 2 0 _ c, ld_win x0 2 1 _ h w c, ld_w x1 2 1 _ c, ld_win x0 2 2 _ h w c, ld_w x1 2 2 _ c, ld_win x0 2 3 _ h w c, ld_w x1 2 3 _ c, ld_win x0 2 4 _ h w c, ld_w x1 2 4 _ c, ld_win x0 2 5 _ h w c, ld_w x1 2 5 _ c, ld_win x0 2 6 _ h w c, ld_w x1 2 6 _ c]
  rw [ld_win x0 3 0 _ h w c, ld_w x1 3 0 _ c, ld_win x0 3 1 _ h w c, ld_w x1 3 1 _ c, ld_win x0 3 2 _ h w c, ld_w x1 3 2 _ c, ld_win x0 3 3 _ h w c, ld_w x1 3 3 _ c, ld_win x0 3 4 _ h w c, ld_w x1 3 4 _ c, ld_win x0 3 5 _ h w c, ld_w x1 3 5 _ c, ld_win x0 3 6 _ h w c, ld_w x1 3 6 _ c]
  rw [ld_win x0 4 0 _ h w c, ld_w x1 4 0 _ c, ld_win x0 4 1 _ h w c, ld_w x1 4 1 _ c, ld_win x0 4 2 _ h w c, ld_w x1 4 2 _ c, ld_win x0 4 3 _ h w c, ld_w x1 4 3 _ c, ld_win x0 4 4 _ h w c, ld_w x1 4 4 _ c, ld_win x0 4 5 _ h w c, ld_w x1 4 5 _ c, ld_win x0 4 6 _ h w c, ld_w x1 4 6 _ c]
  rw [ld_win x0 5 0 _ h w c, ld_w x1 5 0 _ c, ld_win x0 5 1 _ h w c, ld_w x1 5 1 _ c, ld_win x0 5 2 _ h w c, ld_w x1 5 2 _ c, ld_win x0 5 3 _ h w c, ld_w x1 5 3 _ c, ld_win x0 5 4 _ h w c, ld_w x1 5 4 _ c, ld_win x0 5 5 _ h w c, ld_w x1 5 5 _ c, ld_win x0 5 6 _ h w c, ld_w x1 5 6 _ c]
  rw [ld_win x0 6 0 _ h w c, ld_w x1 6 0 _ c, ld_win x0 6 1 _ h w c, ld_w x1 6 1 _ c, ld_win x0 6 2 _ h w c, ld_w x1 6 2 _ c, ld_win x0 6 3 _ h w c, ld_w x1 6 3 _ c, ld_win x0 6 4 _ h w c, ld_w x1 6 4 _ c, ld_win x0 6 5 _ h w c, ld_w x1 6 5 _ c, ld_win x0 6 6 _ h w c, ld_w x1 6 6 _ c]
  rw [View.ld_unit_zero zero2]
  simp only [Cert.Spec.tapSum, Cert.Spec.taps, List.foldl_cons, List.foldl_nil]
  rfl

end Cert.ReferenceIdeal.ConvValue
end
-- ==== Proof.RefConvHost.lean ====
/-
  Region 0's three input arrays as the region finds them: the padded channels-last input, the depthwise weights
  scaled per channel, and the folded bias row, each the common specification's array of the launch memory.
-/
import proofs.«153769_g2000605849985115_pallasbulk_1241_2_alg».proof.Proof.Spec
import proofs.«153769_g2000605849985115_pallasbulk_1241_2_alg».proof.Proof.Gen.ReferenceIdeal.Frame
import Idealize.ShloMosaic.Lib.StableHlo.Run
import Idealize.ShloMosaic.Lib.Pipeline.Value
import Idealize.ShloMosaic.Lib.ValueIdx

noncomputable section

namespace Cert.ReferenceIdeal.ConvValue

open Idealize.ShloMosaic Idealize.ShloMosaic.TcCoe Idealize.SL.Sem Idealize.ShloMosaic.ValueIdx Cert.ReferenceIdeal Cert.ReferenceIdeal.Gen

variable (m : (ℓ : Loc nD τ sig) → Buf (Elt Ideal) ℓ) (ρ : Dev nD → PrngReg)

/-- The convolution's input: the argument, channels last, zero-padded by three on each side of both image axes. -/
theorem entry_xpad (hf : Cert.Spec.HostFacts) (c : Dev nD) :
    (V2 m ρ c main_v17 : Cert.Spec.SP.Idx → EReal) = Cert.Spec.xpad hf (m ((c : Thread nD τ).loc main_arg0)) := by
  dsimp only [V2, W2, W1]
  simp only [hostOps0, hostOps0_1]
  after_results
  rfl

/-- The convolution's weights: taps first, channels last, times the batch-norm scale. -/
theorem entry_weff (hf : Cert.Spec.HostFacts) (c : Dev nD) :
    (V2 m ρ c main_v8 : Cert.Spec.SK.Idx → EReal)
      = Cert.Spec.weff hf (m ((c : Thread nD τ).loc main_arg1))
          (Cert.Spec.scaleR hf (m ((c : Thread nD τ).loc main_arg3)) (m ((c : Thread nD τ).loc main_arg6))) := by
  dsimp only [V2, W2, W1]
  simp only [hostOps0, hostOps0_1]
  after_results
  rfl

/-- The convolution's bias row: the depthwise bias less the batch mean, scaled, plus the batch-norm bias. -/
theorem entry_beff (hf : Cert.Spec.HostFacts) (c : Dev nD) :
    (V2 m ρ c main_v12 : Cert.Spec.SRC.Idx → EReal)
      = Cert.Spec.beff hf (m ((c : Thread nD τ).loc main_arg2)) (m ((c : Thread nD τ).loc main_arg5))
          (m ((c : Thread nD τ).loc main_arg4))
          (Cert.Spec.scaleR hf (m ((c : Thread nD τ).loc main_arg3)) (m ((c : Thread nD τ).loc main_arg6))) := by
  dsimp only [V2, W2, W1]
  simp only [hostOps0, hostOps0_1]
  after_results
  rfl

end Cert.ReferenceIdeal.ConvValue
end
-- ==== Proof.RefConvArray.lean ====
/-
  Region 0's output array.  The grid has one point per image; point t reads image t of the padded input and the whole
  weights and bias row, and writes image t of the output.  Each written block is the common specification's
  convolution restricted to its image, and the blocks cover the array, so the array ends as that convolution.
-/
import proofs.«153769_g2000605849985115_pallasbulk_1241_2_alg».proof.Proof.Spec
import proofs.«153769_g2000605849985115_pallasbulk_1241_2_alg».proof.Proof.Gen.ReferenceIdeal.Frame
import proofs.«153769_g2000605849985115_pallasbulk_1241_2_alg».proof.Proof.RefConvBody
import proofs.«153769_g2000605849985115_pallasbulk_1241_2_alg».proof.Proof.RefConvHost
import Idealize.ShloMosaic.Lib.Pipeline.Value
import Idealize.ShloMosaic.Lib.ValueIdx

noncomputable section
namespace Cert.ReferenceIdeal.ConvValue
open Idealize.ShloMosaic Idealize.ShloMosaic.TcCoe Idealize.SL.Sem Idealize.ShloMosaic.ValueIdx Cert.ReferenceIdeal Cert.ReferenceIdeal.Gen
open Idealize.ShloMosaic.Pipeline (Dat)

/-- The index maps over the grid: the input block and the output block are image `t`; the weights and the bias row are whole. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

theorem t_lt (t : Fin cfg0.N) : t.val < 16 := Nat.lt_of_lt_of_eq t.isLt N_0

variable (V : (c : Dev nD) → (b : Ref sig .tc) → Buf (Elt Ideal) ((c : Thread nD τ).loc b))

theorem iblk0_0_apply (c : Dev nD) (t : Fin cfg0.N) (p q : Fin 70) (ch : Fin 128) :
    (iblk0 V c 0 t : Vec Ideal S1x70x70x128 .f32) (ix4 (0 : Fin 1) p q ch)
      = (V c main_v17 : S16x70x70x128.Idx → EReal) (ix4 (⟨t.val, t_lt t⟩ : Fin 16) p q ch) := by
  obtain ⟨e0, e1, e2, e3, -⟩ := idx_facts t
  unfold iblk0
  rw [View.read_apply]
  show V c main_v17 _ = V c main_v17 _
  congr 1
  funext a
  apply Fin.ext
  match a with
  | ⟨0, _⟩ => show win0_0.index t (0 : Fin 4) * 1 + 1 * 0 = t.val; omega
  | ⟨1, _⟩ => show win0_0.index t (1 : Fin 4) * 70 + 1 * p.val = p.val; omega
  | ⟨2, _⟩ => show win0_0.index t (2 : Fin 4) * 70 + 1 * q.val = q.val; omega
  | ⟨3, _⟩ => show win0_0.index t (3 : Fin 4) * 128 + 1 * ch.val = ch.val; omega

theorem iblk0_1_apply (c : Dev nD) (t : Fin cfg0.N) (kh kw : Fin 7) (ch : Fin 128) :
    (iblk0 V c 1 t : Vec Ideal S7x7x128 .f32) (ix3 kh kw ch) = (V c main_v8 : S7x7x128.Idx → EReal) (ix3 kh kw ch) := by
  obtain ⟨-, -, -, -, e0, e1, e2, -⟩ := idx_facts t
  unfold iblk0
  rw [View.read_apply]
  show V c main_v8 _ = V c main_v8 _
  congr 1
  funext a
  apply Fin.ext
  match a with
  | ⟨0, _⟩ => show win0_1.index t (0 : Fin 3) * 7 + 1 * kh.val = kh.val; omega
  | ⟨1, _⟩ => show win0_1.index t (1 : Fin 3) * 7 + 1 * kw.val = kw.val; omega
  | ⟨2, _⟩ => show win0_1.index t (2 : Fin 3) * 128 + 1 * ch.val = ch.val; omega

theorem iblk0_2_apply (c : Dev nD) (t : Fin cfg0.N) (ch : Fin 128) :
    (iblk0 V c 2 t : Vec Ideal S1x128 .f32) (ix2 (0 : Fin 1) ch) = (V c main_v12 : S1x128.Idx → EReal) (ix2 (0 : Fin 1) ch) := by
  obtain ⟨-, -, -, -, -, -, -, e0, e1, -⟩ := idx_facts t
  unfold iblk0
  rw [View.read_apply]
  show V c main_v12 _ = V c main_v12 _
  congr 1
  funext a
  apply Fin.ext
  match a with
  | ⟨0, _⟩ => show win0_2.index t (0 : Fin 2) * 1 + 1 * 0 = 0; omega
  | ⟨1, _⟩ => show win0_2.index t (1 : Fin 2) * 128 + 1 * ch.val = ch.val; omega

theorem j1_lt (t : Fin cfg0.N) (j : ((cfg0.win 3).xblock (grid0.coords t)).Idx) : (j 1).val < 64 := (j 1).isLt
theorem j2_lt (t : Fin cfg0.N) (j : ((cfg0.win 3).xblock (grid0.coords t)).Idx) : (j 2).val < 64 := (j 2).isLt
theorem j3_lt (t : Fin cfg0.N) (j : ((cfg0.win 3).xblock (grid0.coords t)).Idx) : (j 3).val < 128 := (j 3).isLt

/-- The output block's element `j` sits in the array at image `t`, at `j`'s own row, column and channel. -/
theorem emb3 (t : Fin cfg0.N) (j : ((cfg0.win 3).xblock (grid0.coords t)).Idx) :
    (((cfg0.win 3).blk t).view.emb j : S16x64x64x128.Idx)
      = ix4 (⟨t.val, t_lt t⟩ : Fin 16) (⟨(j 1).val, j1_lt t j⟩ : Fin 64) (⟨(j 2).val, j2_lt t j⟩ : Fin 64) (⟨(j 3).val, j3_lt t j⟩ : Fin 128) := by
  obtain ⟨-, -, -, -, -, -, -, -, -, e0, e1, e2, e3⟩ := idx_facts t
  have h0 : (j 0).val < 1 := (j 0).isLt
  funext a
  apply Fin.ext
  match a with
  | ⟨0, _⟩ => show win0_3.index t (0 : Fin 4) * 1 + 1 * (j 0).val = t.val; omega
  | ⟨1, _⟩ => show win0_3.index t (1 : Fin 4) * 64 + 1 * (j 1).val = (j 1).val; omega
  | ⟨2, _⟩ => show win0_3.index t (2 : Fin 4) * 64 + 1 * (j 2).val = (j 2).val; omega
  | ⟨3, _⟩ => show win0_3.index t (3 : Fin 4) * 128 + 1 * (j 3).val = (j 3).val; omega

/-- The same element inside the staging block. -/
theorem xinj3 (t : Fin cfg0.N) (j : ((cfg0.win 3).xblock (grid0.coords t)).Idx) :
    ((cfg0.win 3).xinj (grid0.coords t) j : S1x64x64x128.Idx)
      = ix4 (0 : Fin 1) (⟨(j 1).val, j1_lt t j⟩ : Fin 64) (⟨(j 2).val, j2_lt t j⟩ : Fin 64) (⟨(j 3).val, j3_lt t j⟩ : Fin 128) := by
  have h0 : (j 0).val < 1 := (j 0).isLt
  funext a
  apply Fin.ext
  match a with
  | ⟨0, _⟩ => show (j 0).val = 0; omega
  | ⟨1, _⟩ => rfl
  | ⟨2, _⟩ => rfl
  | ⟨3, _⟩ => rfl

variable (m : (ℓ : Loc nD τ sig) → Buf (Elt Ideal) ℓ) (ρ : Dev nD → PrngReg)

/-- The convolution's whole output as one function of the launch memory. -/
abbrev convOut (hf : Cert.Spec.HostFacts) (c : Dev nD) : Cert.Spec.A Cert.Spec.SN :=
  Cert.Spec.convArr (Cert.Spec.xpad hf (m ((c : Thread nD τ).loc main_arg0)))
    (Cert.Spec.weff hf (m ((c : Thread nD τ).loc main_arg1))
      (Cert.Spec.scaleR hf (m ((c : Thread nD τ).loc main_arg3)) (m ((c : Thread nD τ).loc main_arg6))))
    (Cert.Spec.beff hf (m ((c : Thread nD τ).loc main_arg2)) (m ((c : Thread nD τ).loc main_arg5))
      (m ((c : Thread nD τ).loc main_arg4))
      (Cert.Spec.scaleR hf (m ((c : Thread nD τ).loc main_arg3)) (m ((c : Thread nD τ).loc main_arg6))))

/-- What point `t` writes back is image `t` of the convolution's output. -/
theorem flushed_eq (hf : Cert.Spec.HostFacts) (c : Dev nD) (t : Fin cfg0.N) :
    (dat0 (V2 m ρ) c).flushed 3 t
      = ((cfg0.win 3).blk t).view.read (Elt Ideal) (convOut m hf c : S16x64x64x128.Idx → EReal) := by
  show (cfg0.win 3).cut (grid0.coords t) ((dat0 (V2 m ρ) c).after 3 t) = _
  rw [after0_3]
  funext j
  rw [View.read_apply]
  show out0_3 (F := Ideal) (iblk0 (V2 m ρ) c 0 t) (iblk0 (V2 m ρ) c 1 t) (iblk0 (V2 m ρ) c 2 t)
      ((cfg0.win 3).xinj (grid0.coords t) j) = convOut m hf c (((cfg0.win 3).blk t).view.emb j)
  rw [xinj3 t j, emb3 t j]
  refine (out0_3_apply _ _ _ _ _ _).trans ?_
  show _ = Cert.Spec.convAt _ _ _ _ _ _ _
  unfold Cert.Spec.convAt
  congr 1
  · funext kh kw
    rw [iblk0_0_apply, iblk0_1_apply, entry_xpad m ρ hf c, entry_weff m ρ hf c]
  · rw [iblk0_2_apply, entry_beff m ρ hf c]

/-- Every element of the output array is in the block of the point that is its image. -/
theorem cover (i : S16x64x64x128.Idx) :
    ∃ t : Fin cfg0.N, (cfg0.win 3).flush t = true ∧ i ∈ ((cfg0.win 3).blk t).view.set := by
  have h0 : (i 0).val < 16 := (i 0).isLt
  have h1 : (i 1).val < 64 := (i 1).isLt
  have h2 : (i 2).val < 64 := (i 2).isLt
  have h3 : (i 3).val < 128 := (i 3).isLt
  refine ⟨⟨(i 0).val, Nat.lt_of_lt_of_eq h0 N_0.symm⟩, flush0_3 _, ?_⟩
  obtain ⟨-, -, -, -, -, -, -, -, -, e0', e1, e2, e3⟩ := idx_facts ⟨(i 0).val, Nat.lt_of_lt_of_eq h0 N_0.symm⟩
  have e0 : win0_3.index ⟨(i 0).val, Nat.lt_of_lt_of_eq h0 N_0.symm⟩ (0 : Fin 4) = (i 0).val := e0'
  show i ∈ ((View.whole main_v18).slice (win0_3.rect ⟨(i 0).val, Nat.lt_of_lt_of_eq h0 N_0.symm⟩)).set
  rw [View.set_slice_whole, Rect.mem_set_unit]
  intro a
  match a with
  | ⟨0, _⟩ =>
    show win0_3.index ⟨(i 0).val, _⟩ (0 : Fin 4) * 1 ≤ (i 0).val ∧ (i 0).val < win0_3.index ⟨(i 0).val, _⟩ (0 : Fin 4) * 1 + 1
    rw [e0]; omega
  | ⟨1, _⟩ =>
    show win0_3.index ⟨(i 0).val, _⟩ (1 : Fin 4) * 64 ≤ (i 1).val ∧ (i 1).val < win0_3.index ⟨(i 0).val, _⟩ (1 : Fin 4) * 64 + 64
    rw [e1]; omega
  | ⟨2, _⟩ =>
    show win0_3.index ⟨(i 0).val, _⟩ (2 : Fin 4) * 64 ≤ (i 2).val ∧ (i 2).val < win0_3.index ⟨(i 0).val, _⟩ (2 : Fin 4) * 64 + 64
    rw [e2]; omega
  | ⟨3, _⟩ =>
    show win0_3.index ⟨(i 0).val, _⟩ (3 : Fin 4) * 128 ≤ (i 3).val ∧ (i 3).val < win0_3.index ⟨(i 0).val, _⟩ (3 : Fin 4) * 128 + 128
    rw [e3]; omega

/-- Region 0 leaves, in its output array, the convolution with folded batch norm of the launch memory. -/
theorem conv_array (hf : Cert.Spec.HostFacts) (c : Dev nD) :
    ((dat0 (V2 m ρ) c).arrAt 3 cfg0.N : S16x64x64x128.Idx → EReal)
      = Cert.Spec.convArr (Cert.Spec.xpad hf (m ((c : Thread nD τ).loc main_arg0)))
          (Cert.Spec.weff hf (m ((c : Thread nD τ).loc main_arg1))
            (Cert.Spec.scaleR hf (m ((c : Thread nD τ).loc main_arg3)) (m ((c : Thread nD τ).loc main_arg6))))
          (Cert.Spec.beff hf (m ((c : Thread nD τ).loc main_arg2)) (m ((c : Thread nD τ).loc main_arg5))
            (m ((c : Thread nD τ).loc main_arg4))
            (Cert.Spec.scaleR hf (m ((c : Thread nD τ).loc main_arg3)) (m ((c : Thread nD τ).loc main_arg6)))) :=
  (dat0 (V2 m ρ) c).arrAt_eq_of_cover 3 (convOut m hf c : S16x64x64x128.Idx → EReal) (fun t _ => flushed_eq m ρ hf c t) cover

end Cert.ReferenceIdeal.ConvValue
end
-- ==== Proof.RefMlpBody.lean ====
import proofs.«153769_g2000605849985115_pallasbulk_1241_2_alg».proof.Proof.Gen.ReferenceIdeal.Frame
import proofs.«153769_g2000605849985115_pallasbulk_1241_2_alg».proof.Proof.Spec
import Idealize.ShloMosaic.Lib.ValueLayout
import Idealize.ShloMosaic.Lib.Pipeline.Value
import Idealize.ShloMosaic.PureOps.Ideal.Laws

/-!
  The body of the second region at one element.

  A tile is 1024 rows of 128 channels. The body multiplies the tile by the first weight matrix (a contraction over the
  128 channels into a zero accumulator), adds the first bias row, applies Hardswish elementwise, multiplies by the
  second weight matrix (a contraction over the 512 hidden units), adds the second bias row, scales by the layer-scale
  row and adds the residual tile. Read at row `r` and channel `c` this is the residual at `(r, c)` plus the scale at
  `c` times the channel MLP of row `r` of the tile.
-/

noncomputable section

namespace Cert.ReferenceIdeal.MlpValue

open Idealize.ShloMosaic Idealize.ShloMosaic.ValueIdx Idealize.ShloMosaic.Pipeline
open Cert.ReferenceIdeal.Gen

/-- The dimension numbers of the first product: rows by channels times channels by hidden units. -/
abbrev D1 : DotDims S1024x128 S128x512 S1024x512 := dot_S1024x128_S128x512_S1024x512_1_0_0_1_n_n
/-- The dimension numbers of the second product: rows by hidden units times hidden units by channels. -/
abbrev D2 : DotDims S1024x512 S512x128 S1024x128 := dot_S1024x512_S512x128_S1024x128_1_0_0_1_n_n

/-! ## The two contractions' index maps, coordinate by coordinate -/

theorem D1_lhs0 (j : S1024x512.Idx) (k : D1.contr.Idx) : (D1.lhsIdx j k 0 : ℕ) = j 0 := by
  simp [DotDims.lhsIdx, D1, dot_S1024x128_S128x512_S1024x512_1_0_0_1_n_n]; rfl
theorem D1_lhs1 (j : S1024x512.Idx) (k : D1.contr.Idx) : (D1.lhsIdx j k 1 : ℕ) = k ⟨0, by decide⟩ := by
  simp [DotDims.lhsIdx, D1, dot_S1024x128_S128x512_S1024x512_1_0_0_1_n_n]; rfl
theorem D1_rhs0 (j : S1024x512.Idx) (k : D1.contr.Idx) : (D1.rhsIdx j k 0 : ℕ) = k ⟨0, by decide⟩ := by
  simp [DotDims.rhsIdx, D1, dot_S1024x128_S128x512_S1024x512_1_0_0_1_n_n]; rfl
theorem D1_rhs1 (j : S1024x512.Idx) (k : D1.contr.Idx) : (D1.rhsIdx j k 1 : ℕ) = j 1 := by
  simp [DotDims.rhsIdx, D1, dot_S1024x128_S128x512_S1024x512_1_0_0_1_n_n]; rfl

theorem D2_lhs0 (j : S1024x128.Idx) (k : D2.contr.Idx) : (D2.lhsIdx j k 0 : ℕ) = j 0 := by
  simp [DotDims.lhsIdx, D2, dot_S1024x512_S512x128_S1024x128_1_0_0_1_n_n]; rfl
theorem D2_lhs1 (j : S1024x128.Idx) (k : D2.contr.Idx) : (D2.lhsIdx j k 1 : ℕ) = k ⟨0, by decide⟩ := by
  simp [DotDims.lhsIdx, D2, dot_S1024x512_S512x128_S1024x128_1_0_0_1_n_n]; rfl
theorem D2_rhs0 (j : S1024x128.Idx) (k : D2.contr.Idx) : (D2.rhsIdx j k 0 : ℕ) = k ⟨0, by decide⟩ := by
  simp [DotDims.rhsIdx, D2, dot_S1024x512_S512x128_S1024x128_1_0_0_1_n_n]; rfl
theorem D2_rhs1 (j : S1024x128.Idx) (k : D2.contr.Idx) : (D2.rhsIdx j k 1 : ℕ) = j 1 := by
  simp [DotDims.rhsIdx, D2, dot_S1024x512_S512x128_S1024x128_1_0_0_1_n_n]; rfl

/-! ## The two products at an element -/

/-- The first product into a zero accumulator at row `r`, hidden unit `e`: the sum over the 128 channels. -/
theorem mm1_apply (a : FVec Ideal S1024x128 .f32) (w : FVec Ideal S128x512 .f32) (r : Fin 1024) (e : Fin 512) :
    matmul D1 none a w (constant (F := Ideal) S1024x512 .f32 0x00000000#32) (ix2 r e)
      = ∑ k : Fin 128, a (ix2 r k) * w (ix2 k e) := by
  refine (Ideal.matmul_constant_zero_apply D1 none a w (ix2 r e)).trans ?_
  rw [← Equiv.sum_comp (contrEquiv1 D1 128 rfl rfl).symm]
  refine Finset.sum_congr rfl fun k _ => ?_
  congr 1
  · refine congrArg a (funext fun ax => Fin.ext ?_)
    match ax with
    | ⟨0, _⟩ => exact D1_lhs0 _ _
    | ⟨1, _⟩ => exact (D1_lhs1 _ _).trans (contrEquiv1_symm_val D1 128 rfl rfl k)
  · refine congrArg w (funext fun ax => Fin.ext ?_)
    match ax with
    | ⟨0, _⟩ => exact (D1_rhs0 _ _).trans (contrEquiv1_symm_val D1 128 rfl rfl k)
    | ⟨1, _⟩ => exact D1_rhs1 _ _

/-- The second product into a zero accumulator at row `r`, channel `c`: the sum over the 512 hidden units. -/
theorem mm2_apply (a : FVec Ideal S1024x512 .f32) (w : FVec Ideal S512x128 .f32) (r : Fin 1024) (c : Fin 128) :
    matmul D2 none a w (constant (F := Ideal) S1024x128 .f32 0x00000000#32) (ix2 r c)
      = ∑ e : Fin 512, a (ix2 r e) * w (ix2 e c) := by
  refine (Ideal.matmul_constant_zero_apply D2 none a w (ix2 r c)).trans ?_
  rw [← Equiv.sum_comp (contrEquiv1 D2 512 rfl rfl).symm]
  refine Finset.sum_congr rfl fun k _ => ?_
  congr 1
  · refine congrArg a (funext fun ax => Fin.ext ?_)
    match ax with
    | ⟨0, _⟩ => exact D2_lhs0 _ _
    | ⟨1, _⟩ => exact (D2_lhs1 _ _).trans (contrEquiv1_symm_val D2 512 rfl rfl k)
  · refine congrArg w (funext fun ax => Fin.ext ?_)
    match ax with
    | ⟨0, _⟩ => exact (D2_rhs0 _ _).trans (contrEquiv1_symm_val D2 512 rfl rfl k)
    | ⟨1, _⟩ => exact D2_rhs1 _ _

/-! ## The body at an element -/

/-- The hidden activations of a tile: the first product plus the bias row, through Hardswish, at row `r` and hidden
    unit `e`. -/
theorem hidden_apply (x0 : FVec Ideal S1024x128 .f32) (x2 : FVec Ideal S128x512 .f32) (x3 : FVec Ideal S1x512 .f32)
    (r : Fin 1024) (e : Fin 512) :
    mulf (mulf (addf (matmul D1 none x0 x2 (constant (F := Ideal) S1024x512 .f32 0x00000000#32))
              (broadcastTo S1024x512 x3 broadcasts_S1x512_S1024x512))
            (minimumf (broadcast S1024x512 (Scalar.ofBits (F := Ideal) .f32 0x40C00000#32))
              (maximumf (broadcast S1024x512 (Scalar.ofBits (F := Ideal) .f32 0x00000000#32))
                (addf (addf (matmul D1 none x0 x2 (constant (F := Ideal) S1024x512 .f32 0x00000000#32))
                        (broadcastTo S1024x512 x3 broadcasts_S1x512_S1024x512))
                  (broadcast S1024x512 (Scalar.ofBits (F := Ideal) .f32 0x40400000#32))))))
        (broadcast S1024x512 (Scalar.ofBits (F := Ideal) .f32 0x3E2AAAAB#32)) (ix2 r e)
      = Cert.Spec.hidden (fun k => x0 (ix2 r k)) x2 x3 e := by
  simp only [mulf_apply, addf_apply, minimumf_apply, maximumf_apply, broadcast_apply]
  rw [mm1_apply, broadcastTo_1b_ab_apply]
  rfl

/-- The block the body leaves at row `r`, channel `c`: the residual plus the scale times the channel MLP of row `r`. -/
theorem out1_7_apply (x0 x1 : Vec Ideal S1024x128 .f32) (x2 : Vec Ideal S128x512 .f32) (x3 : Vec Ideal S1x512 .f32)
    (x4 : Vec Ideal S512x128 .f32) (x5 x6 : Vec Ideal S1x128 .f32) (r : Fin 1024) (c : Fin 128) :
    out1_7 x0 x1 x2 x3 x4 x5 x6 (ix2 r c)
      = x1 (ix2 r c) + x6 (ix2 0 c) * Cert.Spec.mlpAt (fun k => x0 (ix2 r k)) x2 x3 x4 x5 c := by
  have hz : (![0, 0] : Fin 2 → Nat) = fun _ => 0 := by funext a; match a with | ⟨0, _⟩ => rfl | ⟨1, _⟩ => rfl
  unfold out1_7
  rw [View.canon_unit_zero hz]
  simp only [View.ld_unit_zero (S := S1024x128) hz, View.ld_unit_zero (S := S128x512) hz,
    View.ld_unit_zero (S := S1x512) hz, View.ld_unit_zero (S := S512x128) hz, View.ld_unit_zero (S := S1x128) hz]
  unfold k1_pay1
  simp only [shapeCast_self]
  simp only [addf_apply, mulf_apply]
  rw [broadcastTo_1b_ab_apply, mm2_apply, broadcastTo_1b_ab_apply]
  unfold Cert.Spec.mlpAt
  congr 3
  refine Finset.sum_congr rfl fun e _ => ?_
  rw [hidden_apply]

end Cert.ReferenceIdeal.MlpValue

end
-- ==== Proof.RefMlpArray.lean ====
import proofs.«153769_g2000605849985115_pallasbulk_1241_2_alg».proof.Proof.Gen.ReferenceIdeal.Frame
import proofs.«153769_g2000605849985115_pallasbulk_1241_2_alg».proof.Proof.Spec
import proofs.«153769_g2000605849985115_pallasbulk_1241_2_alg».proof.Proof.RefMlpBody
import Idealize.ShloMosaic.Lib.StableHlo.Run
import Idealize.ShloMosaic.Lib.Pipeline.Value

/-!
  The second region of the reference: what it finds in its arrays, and its result array.

  Between the two regions the host reshapes the first region's result and the channels-last input to 65536 rows of
  128 channels; the two biases and the layer scale were made rows before the first region, which leaves them alone.
  The region's grid walks the rows in 64 tiles of 1024.
-/

set_option maxRecDepth 16384

noncomputable section

namespace Cert.ReferenceIdeal.MlpValue

open Idealize.ShloMosaic Idealize.ShloMosaic.TcCoe Idealize.SL.Sem Idealize.ShloMosaic.ValueIdx Idealize.ShloMosaic.Pipeline
open Cert.ReferenceIdeal.Gen

variable (m : (ℓ : Loc nD τ sig) → Buf (Elt Ideal) ℓ) (ρ : Dev nD → PrngReg)

/-! ## What the second region finds in its arrays -/

/-- The rows of the first region's result: the reshape to 65536 rows of 128 channels. -/
theorem V4_v19 (c : Dev nD) (T : Cert.Spec.A Cert.Spec.SN) (hT : (dat0 (V2 m ρ) c).arrAt 3 cfg0.N = T) :
    (V4 m ρ c main_v19 : S65536x128.Idx → EReal) = shapeCast S65536x128 T shapeCasts_S16x64x64x128_S65536x128 := by
  subst hT
  show StableHlo.after hostOps1 (W3 m ρ c) (Proc.devRef .tc main_v19) = _
  after_results
  rw [← W3_arr m ρ c 3]
  rfl

/-- The input with channels last is untouched by the first region. -/
theorem W3_v16 (hf : Cert.Spec.HostFacts) (c : Dev nD) :
    (W3 m ρ c (Proc.devRef .tc main_v16) : S16x64x64x128.Idx → EReal)
      = Cert.Spec.xT hf (m ((c : Thread nD τ).loc main_arg0)) := by
  rw [W3_of_ne m ρ c main_v16 (by decide)]
  show StableHlo.after hostOps0_1 (StableHlo.after hostOps0 (W0 m ρ c)) (Proc.devRef .tc main_v16) = _
  after_results
  rfl

/-- The rows of the residual: the input with channels last, reshaped to 65536 rows of 128 channels. -/
theorem V4_v20 (hf : Cert.Spec.HostFacts) (c : Dev nD) :
    (V4 m ρ c main_v20 : S65536x128.Idx → EReal)
      = shapeCast S65536x128 (Cert.Spec.xT hf (m ((c : Thread nD τ).loc main_arg0))) shapeCasts_S16x64x64x128_S65536x128 := by
  rw [← W3_v16 m ρ hf c]
  show StableHlo.after hostOps1 (W3 m ρ c) (Proc.devRef .tc main_v20) = _
  after_results
  rfl

/-- The first bias as a row. -/
theorem V4_v14 (hf : Cert.Spec.HostFacts) (c : Dev nD) :
    (V4 m ρ c main_v14 : S1x512.Idx → EReal) = Cert.Spec.rowE hf (m ((c : Thread nD τ).loc main_arg8)) := by
  show StableHlo.after hostOps1 (W3 m ρ c) (Proc.devRef .tc main_v14) = _
  after_results
  rw [W3_of_ne m ρ c main_v14 (by decide)]
  show StableHlo.after hostOps0_1 (StableHlo.after hostOps0 (W0 m ρ c)) (Proc.devRef .tc main_v14) = _
  after_results
  rfl

/-- The second bias as a row. -/
theorem V4_v15 (hf : Cert.Spec.HostFacts) (c : Dev nD) :
    (V4 m ρ c main_v15 : S1x128.Idx → EReal) = Cert.Spec.rowC hf (m ((c : Thread nD τ).loc main_arg10)) := by
  show StableHlo.after hostOps1 (W3 m ρ c) (Proc.devRef .tc main_v15) = _
  after_results
  rw [W3_of_ne m ρ c main_v15 (by decide)]
  show StableHlo.after hostOps0_1 (StableHlo.after hostOps0 (W0 m ρ c)) (Proc.devRef .tc main_v15) = _
  after_results
  rfl

/-- The layer scale as a row. -/
theorem V4_v13 (hf : Cert.Spec.HostFacts) (c : Dev nD) :
    (V4 m ρ c main_v13 : S1x128.Idx → EReal) = Cert.Spec.rowC hf (m ((c : Thread nD τ).loc main_arg11)) := by
  show StableHlo.after hostOps1 (W3 m ρ c) (Proc.devRef .tc main_v13) = _
  after_results
  rw [W3_of_ne m ρ c main_v13 (by decide)]
  show StableHlo.after hostOps0_1 (StableHlo.after hostOps0 (W0 m ρ c)) (Proc.devRef .tc main_v13) = _
  after_results
  rfl

/-- The first weight matrix is the argument. -/
theorem V4_arg7 (c : Dev nD) :
    (V4 m ρ c main_arg7 : S128x512.Idx → EReal) = m ((c : Thread nD τ).loc main_arg7) := by
  show StableHlo.after hostOps1 (W3 m ρ c) (Proc.devRef .tc main_arg7) = _
  after_results
  rw [W3_of_ne m ρ c main_arg7 (by decide)]
  show StableHlo.after hostOps0_1 (StableHlo.after hostOps0 (W0 m ρ c)) (Proc.devRef .tc main_arg7) = _
  after_results

/-- The second weight matrix is the argument. -/
theorem V4_arg9 (c : Dev nD) :
    (V4 m ρ c main_arg9 : S512x128.Idx → EReal) = m ((c : Thread nD τ).loc main_arg9) := by
  show StableHlo.after hostOps1 (W3 m ρ c) (Proc.devRef .tc main_arg9) = _
  after_results
  rw [W3_of_ne m ρ c main_arg9 (by decide)]
  show StableHlo.after hostOps0_1 (StableHlo.after hostOps0 (W0 m ρ c)) (Proc.devRef .tc main_arg9) = _
  after_results

/-! ## The second region's result, row by row

  The region's grid has 64 points. Point `t` stages rows `1024 t … 1024 t + 1023` of the convolution's rows and of
  the residual's rows, the two weight matrices and the three rows whole, and writes back the same rows of the result.
  So the result array at row `R` and channel `q` is the residual there plus the scale at `q` times the channel MLP
  of row `R` of the convolution's rows. -/

/-- One element of the result: the residual plus the scaled channel MLP of the row. -/
def mlpRow (T2 X2 : FVec Ideal S65536x128 .f32) (W1 : FVec Ideal S128x512 .f32) (B1 : FVec Ideal S1x512 .f32)
    (W2 : FVec Ideal S512x128 .f32) (B2 G : FVec Ideal S1x128 .f32) (R : Fin 65536) (q : Fin 128) : EReal :=
  X2 (ix2 R q) + G (ix2 0 q) * Cert.Spec.mlpAt (fun k => T2 (ix2 R k)) W1 B1 W2 B2 q

/-- The same as a whole array of 65536 rows. -/
def mlpRows (T2 X2 : FVec Ideal S65536x128 .f32) (W1 : FVec Ideal S128x512 .f32) (B1 : FVec Ideal S1x512 .f32)
    (W2 : FVec Ideal S512x128 .f32) (B2 G : FVec Ideal S1x128 .f32) : FVec Ideal S65536x128 .f32 :=
  fun j => mlpRow T2 X2 W1 B1 W2 B2 G (j 0) (j 1)

theorem mlpRows_ix2 (T2 X2 : FVec Ideal S65536x128 .f32) (W1 : FVec Ideal S128x512 .f32) (B1 : FVec Ideal S1x512 .f32)
    (W2 : FVec Ideal S512x128 .f32) (B2 G : FVec Ideal S1x128 .f32) (R : Fin 65536) (q : Fin 128) :
    mlpRows T2 X2 W1 B1 W2 B2 G (ix2 R q) = mlpRow T2 X2 W1 B1 W2 B2 G R q := rfl

/-- The windows' block indices over the grid: the three row windows move with the point, the others stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

section Blocks

variable (V : (c : Dev nD) → (b : Ref sig .tc) → Buf (Elt Ideal) ((c : Thread nD τ).loc b))

/-- Row window 0's block at point `t` is rows `1024 t … 1024 t + 1023` of its array. -/
theorem iblk1_0_apply (c : Dev nD) (t : Fin cfg1.N) (x : S1024x128.Idx) (k : S65536x128.Idx)
    (hk0 : (k 0).val = t.val * 1024 + (x 0).val) (hk1 : (k 1).val = (x 1).val) :
    iblk1 V c 0 t x = V c main_v19 k := by
  obtain ⟨e0, e1, -⟩ := idx_facts1 t
  show V c main_v19 (((cfg1.win 0).blk t).view.emb x) = V c main_v19 k
  refine congrArg _ (funext fun a => Fin.ext ?_)
  match a with
  | ⟨0, _⟩ => show win1_0.index t (0 : Fin 2) * 1024 + 1 * (x 0).val = (k 0).val; rw [e0, hk0]; omega
  | ⟨1, _⟩ => show win1_0.index t (1 : Fin 2) * 128 + 1 * (x 1).val = (k 1).val; rw [e1, hk1]; omega

/-- Row window 1's block at point `t` is rows `1024 t … 1024 t + 1023` of its array. -/
theorem iblk1_1_apply (c : Dev nD) (t : Fin cfg1.N) (x : S1024x128.Idx) (k : S65536x128.Idx)
    (hk0 : (k 0).val = t.val * 1024 + (x 0).val) (hk1 : (k 1).val = (x 1).val) :
    iblk1 V c 1 t x = V c main_v20 k := by
  obtain ⟨-, -, e0, e1, -⟩ := idx_facts1 t
  show V c main_v20 (((cfg1.win 1).blk t).view.emb x) = V c main_v20 k
  refine congrArg _ (funext fun a => Fin.ext ?_)
  match a with
  | ⟨0, _⟩ => show win1_1.index t (0 : Fin 2) * 1024 + 1 * (x 0).val = (k 0).val; rw [e0, hk0]; omega
  | ⟨1, _⟩ => show win1_1.index t (1 : Fin 2) * 128 + 1 * (x 1).val = (k 1).val; rw [e1, hk1]; omega

/-- Window 2 stages its whole array at every point. -/
theorem iblk1_2_eq (c : Dev nD) (t : Fin cfg1.N) : (iblk1 V c 2 t : Vec Ideal S128x512 .f32) = V c main_arg7 := by
  funext y
  obtain ⟨-, -, -, -, e0, e1, -⟩ := idx_facts1 t
  show V c main_arg7 (((cfg1.win 2).blk t).view.emb y) = V c main_arg7 y
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 512 + 1 * (y 1).val = (y 1).val; rw [e1]; omega

/-- Window 3 stages its whole array at every point. -/
theorem iblk1_3_eq (c : Dev nD) (t : Fin cfg1.N) : (iblk1 V c 3 t : Vec Ideal S1x512 .f32) = V c main_v14 := by
  funext y
  obtain ⟨-, -, -, -, -, -, e0, e1, -⟩ := idx_facts1 t
  show V c main_v14 (((cfg1.win 3).blk t).view.emb y) = V c main_v14 y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 512 + 1 * (y 1).val = (y 1).val; rw [e1]; omega

/-- Window 4 stages its whole array at every point. -/
theorem iblk1_4_eq (c : Dev nD) (t : Fin cfg1.N) : (iblk1 V c 4 t : Vec Ideal S512x128 .f32) = V c main_arg9 := by
  funext y
  obtain ⟨-, -, -, -, -, -, -, -, e0, e1, -⟩ := idx_facts1 t
  show V c main_arg9 (((cfg1.win 4).blk t).view.emb y) = V c main_arg9 y
  refine congrArg _ (funext fun a => Fin.ext ?_)
  match a with
  | ⟨0, _⟩ => show win1_4.index t (0 : Fin 2) * 512 + 1 * (y 0).val = (y 0).val; rw [e0]; omega
  | ⟨1, _⟩ => show win1_4.index t (1 : Fin 2) * 128 + 1 * (y 1).val = (y 1).val; rw [e1]; omega

/-- Window 5 stages its whole array at every point. -/
theorem iblk1_5_eq (c : Dev nD) (t : Fin cfg1.N) : (iblk1 V c 5 t : Vec Ideal S1x128 .f32) = V c main_v15 := by
  funext y
  obtain ⟨-, -, -, -, -, -, -, -, -, -, e0, e1, -⟩ := idx_facts1 t
  show V c main_v15 (((cfg1.win 5).blk t).view.emb y) = V c main_v15 y
  refine congrArg _ (funext fun a => Fin.ext ?_)
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- Window 6 stages its whole array at every point. -/
theorem iblk1_6_eq (c : Dev nD) (t : Fin cfg1.N) : (iblk1 V c 6 t : Vec Ideal S1x128 .f32) = V c main_v13 := by
  funext y
  obtain ⟨-, -, -, -, -, -, -, -, -, -, -, -, e0, e1, -⟩ := idx_facts1 t
  show V c main_v13 (((cfg1.win 6).blk t).view.emb y) = V c main_v13 y
  refine congrArg _ (funext fun a => Fin.ext ?_)
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- What point `t` writes back is block `t` of the row-by-row result of the arrays as the region finds them. -/
theorem flushed7_eq (c : Dev nD) (t : Fin cfg1.N) :
    (dat1 V c).flushed 7 t = ((cfg1.win 7).blk t).view.read (Elt Ideal) (mlpRows (V c main_v19) (V c main_v20) (V c main_arg7) (V c main_v14) (V c main_arg9) (V c main_v15) (V c main_v13)) := by
  show (cfg1.win 7).cut (grid1.coords t) ((dat1 V c).after 7 t) = _
  rw [after1_7]
  funext y
  obtain ⟨p, q, rfl⟩ : ∃ (p : Fin 1024) (q : Fin 128), y = ix2 p q := ⟨y 0, y 1, eq_ix2 y⟩
  obtain ⟨-, -, -, -, -, -, -, -, -, -, -, -, -, -, e0, e1⟩ := idx_facts1 t
  have ht : t.val < 64 := lt_of_lt_of_eq t.isLt N_1
  show out1_7 (iblk1 V c 0 t) (iblk1 V c 1 t) (iblk1 V c 2 t) (iblk1 V c 3 t) (iblk1 V c 4 t) (iblk1 V c 5 t) (iblk1 V c 6 t) (ix2 p q)
    = mlpRows (V c main_v19) (V c main_v20) (V c main_arg7) (V c main_v14) (V c main_arg9) (V c main_v15) (V c main_v13) (((cfg1.win 7).blk t).view.emb (ix2 p q))
  have hemb : ((cfg1.win 7).blk t).view.emb (ix2 p q) = ix2 (⟨t.val * 1024 + p.val, by omega⟩ : Fin 65536) q := by
    funext a; apply Fin.ext
    match a with
    | ⟨0, _⟩ => show win1_7.index t (0 : Fin 2) * 1024 + 1 * p.val = t.val * 1024 + p.val; rw [e0]; omega
    | ⟨1, _⟩ => show win1_7.index t (1 : Fin 2) * 128 + 1 * q.val = q.val; rw [e1]; omega
  rw [hemb, mlpRows_ix2]
  refine (out1_7_apply (iblk1 V c 0 t) (iblk1 V c 1 t) (iblk1 V c 2 t) (iblk1 V c 3 t) (iblk1 V c 4 t) (iblk1 V c 5 t) (iblk1 V c 6 t) p q).trans ?_
  have h0 : (fun k : Fin 128 => iblk1 V c 0 t (ix2 p k))
      = fun k => V c main_v19 (ix2 (⟨t.val * 1024 + p.val, by omega⟩ : Fin 65536) k) :=
    funext fun k => iblk1_0_apply V c t (ix2 p k) (ix2 (⟨t.val * 1024 + p.val, by omega⟩ : Fin 65536) k) rfl rfl
  rw [h0, iblk1_1_apply V c t (ix2 p q) (ix2 (⟨t.val * 1024 + p.val, by omega⟩ : Fin 65536) q) rfl rfl,
    iblk1_2_eq V c t, iblk1_3_eq V c t, iblk1_4_eq V c t, iblk1_5_eq V c t, iblk1_6_eq V c t]
  rfl

/-- An index of the result array is in point `t`'s block iff each coordinate is in the block's range on its axis. -/
theorem mem_blk7 (t : Fin cfg1.N) (i : S65536x128.Idx) :
    i ∈ ((cfg1.win 7).blk t).view.set ↔ ∀ a : Fin 2, win1_7.index t a * S1024x128.size a ≤ (i a).val ∧ (i a).val < win1_7.index t a * S1024x128.size a + S1024x128.size a := by
  show i ∈ ((View.whole main_v21).slice (win1_7.rect t)).set ↔ _
  rw [View.set_slice_whole, Rect.mem_set_unit]
  exact Iff.rfl

/-- Row `R` is written back by point `R / 1024`: the 64 blocks tile the 65536 rows. -/
theorem cover7 (i : S65536x128.Idx) :
    ∃ t : Fin cfg1.N, (cfg1.win 7).flush t = true ∧ i ∈ ((cfg1.win 7).blk t).view.set := by
  have hi0 : (i 0).val < 65536 := (i 0).isLt
  have hi1 : (i 1).val < 128 := (i 1).isLt
  obtain ⟨t, ht⟩ : ∃ t : Fin cfg1.N, t.val = (i 0).val / 1024 :=
    ⟨⟨(i 0).val / 1024, by rw [show cfg1.N = 64 from N_1]; omega⟩, rfl⟩
  obtain ⟨-, -, -, -, -, -, -, -, -, -, -, -, -, -, e0, e1⟩ := idx_facts1 t
  refine ⟨t, flush1_7 t, ?_⟩
  rw [mem_blk7]
  intro a
  match a with
  | ⟨0, _⟩ => show win1_7.index t (0 : Fin 2) * 1024 ≤ (i 0).val ∧ (i 0).val < win1_7.index t (0 : Fin 2) * 1024 + 1024; rw [e0, ht]; omega
  | ⟨1, _⟩ => show win1_7.index t (1 : Fin 2) * 128 ≤ (i 1).val ∧ (i 1).val < win1_7.index t (1 : Fin 2) * 128 + 128; rw [e1]; omega

/-- The second region's result array, whatever the region finds in its arrays: row by row, the residual plus the
    scaled channel MLP. -/
theorem arr7 (c : Dev nD) : (dat1 V c).arrAt 7 cfg1.N = mlpRows (V c main_v19) (V c main_v20) (V c main_arg7) (V c main_v14) (V c main_arg9) (V c main_v15) (V c main_v13) :=
  (dat1 V c).arrAt_eq_of_cover 7 _ (fun t _ => flushed7_eq V c t) cover7

end Blocks

/-- The second region's result array in the run, over the first region's result `T`. -/
theorem region1_result (hf : Cert.Spec.HostFacts) (c : Dev nD) (T : Cert.Spec.A Cert.Spec.SN)
    (hT : (dat0 (V2 m ρ) c).arrAt 3 cfg0.N = T) :
    (dat1 (V4 m ρ) c).arrAt 7 cfg1.N
      = mlpRows (shapeCast S65536x128 T shapeCasts_S16x64x64x128_S65536x128)
          (shapeCast S65536x128 (Cert.Spec.xT hf (m ((c : Thread nD τ).loc main_arg0))) shapeCasts_S16x64x64x128_S65536x128)
          (m ((c : Thread nD τ).loc main_arg7)) (Cert.Spec.rowE hf (m ((c : Thread nD τ).loc main_arg8)))
          (m ((c : Thread nD τ).loc main_arg9)) (Cert.Spec.rowC hf (m ((c : Thread nD τ).loc main_arg10)))
          (Cert.Spec.rowC hf (m ((c : Thread nD τ).loc main_arg11))) := by
  rw [arr7 (V4 m ρ) c, V4_v19 m ρ c T hT, V4_v20 m ρ hf c, V4_arg7 m ρ c, V4_v14 m ρ hf c, V4_arg9 m ρ c,
    V4_v15 m ρ hf c, V4_v13 m ρ hf c]

end Cert.ReferenceIdeal.MlpValue
end
-- ==== Proof.RefResult.lean ====
import proofs.«153769_g2000605849985115_pallasbulk_1241_2_alg».proof.Proof.RefMlpArray

/-!
  The reference's result in the input's layout.

  After the second region the host reshapes its 65536 rows back to `[16, 64, 64, 128]` — row `R = 4096 n + 64 h + w`
  is position `(n, h, w)` — and transposes to channels first. Row `R` of the reshaped first region's result is its
  position `(n, h, w)` too, so the rows' channel MLP is the positions' channel MLP.
-/

set_option maxRecDepth 16384

noncomputable section

namespace Cert.ReferenceIdeal.MlpValue

open Idealize.ShloMosaic Idealize.ShloMosaic.TcCoe Idealize.SL.Sem Idealize.ShloMosaic.ValueIdx Idealize.ShloMosaic.Pipeline
open Cert.ReferenceIdeal.Gen

/-- The row of position `(n, h, w)`. -/
def rowIx (n : Fin 16) (h w : Fin 64) : Fin 65536 :=
  ⟨n.val * 4096 + h.val * 64 + w.val, by have := n.isLt; have := h.isLt; have := w.isLt; omega⟩

/-- The reshape to rows, read at the row of a position. -/
theorem rows_apply (T : FVec Ideal S16x64x64x128 .f32) (n : Fin 16) (h w : Fin 64) (k : Fin 128) :
    shapeCast S65536x128 T shapeCasts_S16x64x64x128_S65536x128 (ix2 (rowIx n h w) k) = T (ix4 n h w k) := by
  refine shapeCast_apply T _ _ _ ?_
  rw [Shape.rowMajor_val_four, Shape.rowMajor_val_two]
  show ((n.val * 64 + h.val) * 64 + w.val) * 128 + k.val = (n.val * 4096 + h.val * 64 + w.val) * 128 + k.val
  omega

/-- The reshape back to positions, read at a position. -/
theorem unrows_apply (Y : FVec Ideal S65536x128 .f32) (n : Fin 16) (h w : Fin 64) (k : Fin 128) :
    shapeCast S16x64x64x128 Y shapeCasts_S65536x128_S16x64x64x128 (ix4 n h w k) = Y (ix2 (rowIx n h w) k) := by
  refine shapeCast_apply Y _ _ _ ?_
  rw [Shape.rowMajor_val_four, Shape.rowMajor_val_two]
  show (n.val * 4096 + h.val * 64 + w.val) * 128 + k.val = ((n.val * 64 + h.val) * 64 + w.val) * 128 + k.val
  omega

/-- The rows' result reshaped to positions is the positions' result. -/
theorem unrows_mlpRows (T XR : FVec Ideal S16x64x64x128 .f32) (W1 : FVec Ideal S128x512 .f32) (B1 : FVec Ideal S1x512 .f32)
    (W2 : FVec Ideal S512x128 .f32) (B2 G : FVec Ideal S1x128 .f32) :
    shapeCast S16x64x64x128
        (mlpRows (shapeCast S65536x128 T shapeCasts_S16x64x64x128_S65536x128)
          (shapeCast S65536x128 XR shapeCasts_S16x64x64x128_S65536x128) W1 B1 W2 B2 G)
        shapeCasts_S65536x128_S16x64x64x128
      = Cert.Spec.outOfT T XR W1 B1 W2 B2 G := by
  funext j
  obtain ⟨n, h, w, q, rfl⟩ : ∃ (n : Fin 16) (h w : Fin 64) (q : Fin 128), j = ix4 n h w q :=
    ⟨j 0, j 1, j 2, j 3, eq_ix4 j⟩
  rw [unrows_apply, mlpRows_ix2, Cert.Spec.outOfT_ix4]
  unfold mlpRow Cert.Spec.outAtT
  rw [rows_apply XR n h w q]
  have hT : (fun k : Fin 128 => shapeCast S65536x128 T shapeCasts_S16x64x64x128_S65536x128 (ix2 (rowIx n h w) k))
      = fun k => T (ix4 n h w k) := funext fun k => rows_apply T n h w k
  rw [hT]

/-- The reference's result buffer after the run, over the first region's result `T`. -/
theorem result_eq (hf : Cert.Spec.HostFacts) (m : (ℓ : Loc nD τ sig) → Buf (Elt Ideal) ℓ) (ρ : Dev nD → PrngReg)
    (c : Dev nD) (T : Cert.Spec.A Cert.Spec.SN)
    (hT : (dat0 (V2 m ρ) c).arrAt 3 cfg0.N = T) :
    W6 m ρ c (Proc.devRef .tc main_v23)
      = transpose Cert.Spec.SX [0, 3, 1, 2]
          (Cert.Spec.outOfT T (Cert.Spec.xT hf (m ((c : Thread nD τ).loc main_arg0)))
            (m ((c : Thread nD τ).loc main_arg7)) (Cert.Spec.rowE hf (m ((c : Thread nD τ).loc main_arg8)))
            (m ((c : Thread nD τ).loc main_arg9)) (Cert.Spec.rowC hf (m ((c : Thread nD τ).loc main_arg10)))
            (Cert.Spec.rowC hf (m ((c : Thread nD τ).loc main_arg11)))) hf.trO := by
  have key : (W5 m ρ c (Proc.devRef .tc main_v21) : S65536x128.Idx → EReal) = _ :=
    (W5_arr m ρ c 7).trans (region1_result m ρ hf c T hT)
  rw [← unrows_mlpRows, ← key]
  show StableHlo.after hostOps2 (W5 m ρ c) (Proc.devRef .tc main_v23) = _
  after_results
  rfl

end Cert.ReferenceIdeal.MlpValue
end
-- ==== Proof.RefValue.lean ====
/-
  The reference's result as the specification's function of its arguments.

  Its first region leaves the convolution's output array (with the scale spelt as a quotient by the square root),
  its second region and the reshapes around it apply the MLP, the layer scale and the residual row by row, and the
  last transpose puts the channels back in second place. Where the variance is a nonnegative real the quotient by the
  square root is the product with the reciprocal square root, so the result is the specification's at either scale.
-/
import proofs.«153769_g2000605849985115_pallasbulk_1241_2_alg».proof.Proof.Spec
import proofs.«153769_g2000605849985115_pallasbulk_1241_2_alg».proof.Proof.RefConvArray
import proofs.«153769_g2000605849985115_pallasbulk_1241_2_alg».proof.Proof.RefResult

noncomputable section

namespace Cert.ReferenceIdeal.RefValue

open Idealize.ShloMosaic Idealize.ShloMosaic.TcCoe Idealize.SL.Sem Idealize.ShloMosaic.ValueIdx
open Cert.ReferenceIdeal Cert.ReferenceIdeal.Gen

variable (m : (ℓ : Loc nD τ sig) → Buf (Elt Ideal) ℓ) (ρ : Dev nD → PrngReg)

theorem ref_value (hf : Cert.Spec.HostFacts) (c : Dev nD)
    (hv : ∀ i : Cert.Spec.SC.Idx, ∃ r : ℝ, 0 ≤ r ∧ (m ((c : Thread nD τ).loc main_arg6) : Cert.Spec.A Cert.Spec.SC) i = (r : EReal)) :
    W6 m ρ c (Proc.devRef .tc main_v23)
      = Cert.Spec.result hf
          (Cert.Spec.scaleK hf (m ((c : Thread nD τ).loc main_arg3)) (m ((c : Thread nD τ).loc main_arg6)))
          (m ((c : Thread nD τ).loc main_arg0)) (m ((c : Thread nD τ).loc main_arg1)) (m ((c : Thread nD τ).loc main_arg2))
          (m ((c : Thread nD τ).loc main_arg4)) (m ((c : Thread nD τ).loc main_arg5)) (m ((c : Thread nD τ).loc main_arg7))
          (m ((c : Thread nD τ).loc main_arg8)) (m ((c : Thread nD τ).loc main_arg9)) (m ((c : Thread nD τ).loc main_arg10))
          (m ((c : Thread nD τ).loc main_arg11)) := by
  rw [Cert.ReferenceIdeal.MlpValue.result_eq hf m ρ c _ (Cert.ReferenceIdeal.ConvValue.conv_array m ρ hf c),
    Cert.Spec.scale_eq hf _ _ hv]
  rfl

end Cert.ReferenceIdeal.RefValue

end
-- ==== Proof.lean ====
/-
  A ConvNeXt-style block, out = x + gamma * MLP (BN (dwconv7x7 x)), computed two ways: by one fused kernel per
  image, and by a convolution kernel per image followed by an MLP kernel over tiles of 1024 rows. On the extended
  reals both are the specification's function of the twelve arguments (Proof/Spec.lean):

  * the convolution is the bias plus the 49 products of the shifted padded image with the scaled weights; one program
    starts its chain of additions at the bias, the other at zero and adds the bias last — addition is commutative and
    associative, so the chains are equal;
  * the MLP is row-wise: two matrix products into zero accumulators (plain sums over the shared axis), the bias rows,
    Hardswish between them; a change of float format is the identity, and a tiling by images or by 1024-row tiles
    reads the same rows;
  * the per-channel scale is bn_w times the reciprocal square root of bn_var + eps in one program and bn_w divided by
    the square root in the other: equal where bn_var is a nonnegative real, which the precondition states.

  The three frames are the generated ones; the idealization rewrote nothing, so what it preserves is trivial.
-/
import proofs.«153769_g2000605849985115_pallasbulk_1241_2_alg».proof.Defs
import proofs.«153769_g2000605849985115_pallasbulk_1241_2_alg».proof.Proof.Gen.Kernel
import proofs.«153769_g2000605849985115_pallasbulk_1241_2_alg».proof.Proof.Gen.Kernel.Frame
import proofs.«153769_g2000605849985115_pallasbulk_1241_2_alg».proof.Proof.Gen.KernelIdeal
import proofs.«153769_g2000605849985115_pallasbulk_1241_2_alg».proof.Proof.Gen.KernelIdeal.Frame
import proofs.«153769_g2000605849985115_pallasbulk_1241_2_alg».proof.Proof.Gen.ReferenceIdeal
import proofs.«153769_g2000605849985115_pallasbulk_1241_2_alg».proof.Proof.Gen.ReferenceIdeal.Frame
import proofs.«153769_g2000605849985115_pallasbulk_1241_2_alg».proof.Proof.Gen.Pre_finite_inputs
import proofs.«153769_g2000605849985115_pallasbulk_1241_2_alg».proof.Proof.Spec
import proofs.«153769_g2000605849985115_pallasbulk_1241_2_alg».proof.Proof.PreVar
import proofs.«153769_g2000605849985115_pallasbulk_1241_2_alg».proof.Proof.KValue
import proofs.«153769_g2000605849985115_pallasbulk_1241_2_alg».proof.Proof.RefRun
import proofs.«153769_g2000605849985115_pallasbulk_1241_2_alg».proof.Proof.RefValue
import Idealize.ShloMosaic.Adequacy
import Idealize.ShloMosaic.Init

noncomputable section

namespace Cert.Proof

open Idealize.ShloMosaic Idealize.ShloMosaic.TcCoe Idealize.SL.Sem

/-- The shape relations of the host operations the two programs share, from the kernel program's stated facts. -/
theorem hostFacts : Cert.Spec.HostFacts :=
  have f : Cert.KernelIdeal.Facts := Cert.KernelIdeal.Gen.facts
  ⟨f.bcast_S_S128, f.shapeCasts_S128x1x7x7_S128x7x7, f.transposes_S128x7x7_S7x7x128_1_2_0, f.bcast_S128_S1x1x128_2,
    f.bcast_S1x1x128_S7x7x128_0_1_2, f.shapeCasts_S128_S1x128, f.shapeCasts_S512_S1x512,
    f.transposes_S16x128x64x64_S16x64x64x128_0_2_3_1, f.pads_S16x64x64x128_S16x70x70x128_000_330_330_000, f.h_S_,
    f.transposes_S16x64x64x128_S16x128x64x64_0_3_1_2⟩

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- Both programs end at the specification's result of the kernel program's arguments: the kernel's run gives it
    directly; the reference's run gives it at its own arguments, which agree, with its scale turned into the
    kernel's by the precondition's nonnegative real variance. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.result hostFacts (Cert.Spec.scaleK hostFacts (m ((c.tc : Thread Cert.KernelIdeal.nD Cert.KernelIdeal.τ).loc Cert.KernelIdeal.main_arg3)) (m ((c.tc : Thread Cert.KernelIdeal.nD Cert.KernelIdeal.τ).loc Cert.KernelIdeal.main_arg6)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.KValue.kernel_run hostFacts m ρ, ?_⟩
  refine (θ_run Cert.ReferenceIdeal.defs _ _).mono (fun r h c => ⟨(h c).1.trans ?_, (h c).2⟩)
    (Cert.ReferenceIdeal.MlpValue.run_result (F := Ideal) m' ρ')
  obtain ⟨e0, e1, e2, e3, e4, e5, e6, e7, e8, e9, e10, e11⟩ := hagree c
  have hv : ∀ i : Cert.Spec.SC.Idx, ∃ r : ℝ, 0 ≤ r
      ∧ (m' ((c.tc : Thread Cert.ReferenceIdeal.nD Cert.ReferenceIdeal.τ).loc Cert.ReferenceIdeal.main_arg6) : Cert.Spec.A Cert.Spec.SC) i = (r : EReal) := by
    rw [e6]
    exact fun i => @Cert.Pre_finite_inputs.var_real_nonneg Cert.Pre_finite_inputs.Gen.facts _ _ _ _ _ _ _ _ _ _ _ _ (hpre c) i
  rw [Cert.ReferenceIdeal.RefValue.ref_value m' ρ' hostFacts c hv, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
